-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S4096x4096 : Shape := ⟨2, ![4096, 4096]⟩
abbrev S4096 : Shape := ⟨1, ![4096]⟩
abbrev S4096x3 : Shape := ⟨2, ![4096, 3]⟩
abbrev S1024x4096 : Shape := ⟨2, ![1024, 4096]⟩
abbrev S1024 : Shape := ⟨1, ![1024]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S4096x3 : S_.BroadcastsInDim S4096x3 (![] : Fin 0 → Fin S4096x3.rank)
  reducesTo_S4096x3_S_d0_1 : S4096x3.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S4096x4096 .f32) (main_arg8 : FVec F S4096 .f32) (main_arg9 : FVec F S1024x4096 .f32) (main_arg10 : FVec F S1024 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1024x4096 .f32 := Host.absf main_arg9
  let main_cst_16 : FVec F S_ .f32 := constant S_ .f32 0x7F800000#32
  let main_v45 : FVec F S1024x4096 .f32 := broadcastInDim S1024x4096 ![] bcast_S_S1024x4096 main_cst_16
  let main_v46 : IVec S1024x4096 1 := cmpf .olt main_v44 main_v45
  let main_c_17 : IVec S_ 1 := constantI S_ 1 1#1
  let main_v47 : IVec S_ 1 := (fun x v => Host.reduce IntOp.andi x v reducesTo_S1024x4096_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S4096 .f32) (main_arg5 : FVec F S4096x3 .f32) (main_arg6 : FVec F S4096 .f32) (main_arg7 : FVec F S4096x4096 .f32) (main_arg8 : FVec F S4096 .f32) (main_arg9 : FVec F S1024x4096 .f32) (main_arg10 : FVec F S1024 .f32) (main_v13 : IVec S_ 1) (main_v16 : IVec S4096x3 1) : IVec S_ 1 :=
  let main_c_5 : IVec S_ 1 := constantI S_ 1 1#1
  let main_v17 : IVec S_ 1 := (fun x v => Host.reduce IntOp.andi x v reducesTo_S4096x3_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x3 .f32 := Host.absf main_arg5
  let main_cst_8 : FVec F S_ .f32 := constant S_ .f32 0x7F800000#32
  let main_v25 : FVec F S4096x3 .f32 := broadcastInDim S4096x3 ![] bcast_S_S4096x3 main_cst_8
  let main_v26 : IVec S4096x3 1 := cmpf .olt main_v24 main_v25
  let main_c_9 : IVec S_ 1 := constantI S_ 1 1#1
  let main_v27 : IVec S_ 1 := (fun x v => Host.reduce IntOp.andi x v reducesTo_S4096x3_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x4096 .f32) (main_arg1 : FVec F S4096x4096 .f32) (main_arg2 : FVec F S4096 .f32) (main_arg3 : FVec F S4096x3 .f32) (main_arg4 : FVec F S4096 .f32) (main_arg5 : FVec F S4096x3 .f32) (main_arg6 : FVec F S4096 .f32) (main_arg7 : FVec F S4096x4096 .f32) (main_arg8 : FVec F S4096 .f32) (main_arg9 : FVec F S1024x4096 .f32) (main_arg10 : FVec F S1024 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x3 .f32 := Host.absf main_arg3
  let main_cst_4 : FVec F S_ .f32 := constant S_ .f32 0x7F800000#32
  let main_v15 : FVec F S4096x3 .f32 := broadcastInDim S4096x3 ![] bcast_S_S4096x3 main_cst_4
  let main_v16 : IVec S4096x3 1 := cmpf .olt main_v14 main_v15
  fn_part1 (F := F) main_arg4 main_arg5 main_arg6 main_arg7 main_arg8 main_arg9 main_arg10 main_v13 main_v16
-- ==== Kernel.lean ====
abbrev S2048x4096 : Shape := ⟨2, ![2048, 4096]⟩
abbrev S4096x4096 : Shape := ⟨2, ![4096, 4096]⟩
abbrev S4096 : Shape := ⟨1, ![4096]⟩
abbrev S4096x3 : Shape := ⟨2, ![4096, 3]⟩
abbrev S1024x4096 : Shape := ⟨2, ![1024, 4096]⟩
abbrev S1024 : Shape := ⟨1, ![1024]⟩
abbrev S1x4096 : Shape := ⟨2, ![1, 4096]⟩
abbrev S4096x1 : Shape := ⟨2, ![4096, 1]⟩
abbrev S1x1024 : Shape := ⟨2, ![1, 1024]⟩
abbrev S512x1024 : Shape := ⟨2, ![512, 1024]⟩
abbrev S1024x1024 : Shape := ⟨2, ![1024, 1024]⟩
abbrev S2048x1024 : Shape := ⟨2, ![2048, 1024]⟩

abbrev nBuf : Space → Nat
  | .hbm => 25
  | .vmem => 34
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S4096x3, .f32⟩
  | .hbm, ⟨4, _⟩ => ⟨S4096, .f32⟩
  | .hbm, ⟨5, _⟩ => ⟨S4096x3, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S1024x4096, .f32⟩
  | .hbm, ⟨10, _⟩ => ⟨S1024, .f32⟩
  | .hbm, ⟨11, _⟩ => ⟨S1x4096, .f32⟩
  | .hbm, ⟨12, _⟩ => ⟨S4096x1, .f32⟩
  | .hbm, ⟨13, _⟩ => ⟨S4096, .f32⟩
  | .hbm, ⟨14, _⟩ => ⟨S1x4096, .f32⟩
  | .hbm, ⟨15, _⟩ => ⟨S1x4096, .f32⟩
  | .hbm, ⟨16, _⟩ => ⟨S4096x1, .f32⟩
  | .hbm, ⟨17, _⟩ => ⟨S4096, .f32⟩
  | .hbm, ⟨18, _⟩ => ⟨S1x4096, .f32⟩
  | .hbm, ⟨19, _⟩ => ⟨S1x4096, .f32⟩
  | .hbm, ⟨20, _⟩ => ⟨S1x4096, .f32⟩
  | .hbm, ⟨21, _⟩ => ⟨S1x1024, .f32⟩
  | .hbm, ⟨22, _⟩ => ⟨S2048x4096, .bf16⟩
  | .hbm, ⟨23, _⟩ => ⟨S2048x4096, .bf16⟩
  | .hbm, ⟨24, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .f32⟩
  | .local _ .vmem, ⟨20, _⟩ => ⟨S1024x1024, .f32⟩
  | .local _ .vmem, ⟨21, _⟩ => ⟨S1x1024, .f32⟩
  | .local _ .vmem, ⟨22, _⟩ => ⟨S1x1024, .f32⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S1024x1024, .f32⟩
  | .local _ .vmem, ⟨29, _⟩ => ⟨S1024x1024, .f32⟩
  | .local _ .vmem, ⟨30, _⟩ => ⟨S1x1024, .f32⟩
  | .local _ .vmem, ⟨31, _⟩ => ⟨S512x1024, .f32⟩
  | .local _ .vmem, ⟨32, _⟩ => ⟨S512x1024, .f32⟩
  | .local _ .vmem, ⟨33, _⟩ => ⟨S512x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_scratch0 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg3_1 : Ref sig .tc := ⟨.vmem, 32, rfl⟩
abbrev cc2_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem3_1 : DmaSem sig := 30

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 1, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  shapeCasts_S4096_S1x4096 : S4096.ShapeCasts S1x4096
  slices_S4096x3_S4096x1_0_1 : S4096x3.Slices ![0, 1] S4096x1
  shapeCasts_S4096x1_S4096 : S4096x1.ShapeCasts S4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x4096.size a
  hwx0_0 : ∀ i : grid0.Coords, EltTy.bits .f32 = 32 ∨ (Rect.block (s := S2048x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x4096.size a
  hwx0_6 : ∀ i : grid0.Coords, EltTy.bits .f32 = 32 ∨ (Rect.block (s := S1x4096) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S2048x4096.size a
  hwx0_7 : ∀ i : grid0.Coords, EltTy.bits .bf16 = 32 ∨ (Rect.block (s := S2048x4096) S512x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S2048x4096.size a
  hwx1_0 : ∀ i : grid1.Coords, EltTy.bits .bf16 = 32 ∨ (Rect.block (s := S2048x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .f32 = 32 ∨ (Rect.block (s := S4096x4096) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S2048x4096.size a
  hwx1_3 : ∀ i : grid1.Coords, EltTy.bits .bf16 = 32 ∨ (Rect.block (s := S2048x4096) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S2048x4096.size a
  hwx2_0 : ∀ i : grid2.Coords, EltTy.bits .bf16 = 32 ∨ (Rect.block (s := S2048x4096) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x4096.size a
  hwx2_1 : ∀ i : grid2.Coords, EltTy.bits .f32 = 32 ∨ (Rect.block (s := S1024x4096) S1024x1024.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S2048x1024.size a
  hwx2_3 : ∀ i : grid2.Coords, EltTy.bits .f32 = 32 ∨ (Rect.block (s := S2048x1024) S512x1024.size (cc2_transform_3 i) (hinb2_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v11) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v12) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v13) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S2048x4096 : Shape := ⟨2, ![2048, 4096]⟩
abbrev S4096x4096 : Shape := ⟨2, ![4096, 4096]⟩
abbrev S4096 : Shape := ⟨1, ![4096]⟩
abbrev S4096x3 : Shape := ⟨2, ![4096, 3]⟩
abbrev S1024x4096 : Shape := ⟨2, ![1024, 4096]⟩
abbrev S1024 : Shape := ⟨1, ![1024]⟩
abbrev S1x4096 : Shape := ⟨2, ![1, 4096]⟩
abbrev S4096x1 : Shape := ⟨2, ![4096, 1]⟩
abbrev S_ : Shape := ⟨0, ![]⟩
abbrev S4096x1024 : Shape := ⟨2, ![4096, 1024]⟩
abbrev S2048x1024 : Shape := ⟨2, ![2048, 1024]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x4096, .f32⟩
  | .hbm, ⟨2, _⟩ => ⟨S4096, .f32⟩
  | .hbm, ⟨3, _⟩ => ⟨S4096x3, .f32⟩
  | .hbm, ⟨4, _⟩ => ⟨S4096, .f32⟩
  | .hbm, ⟨5, _⟩ => ⟨S4096x3, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S1024x4096, .f32⟩
  | .hbm, ⟨10, _⟩ => ⟨S1024, .f32⟩
  | .hbm, ⟨11, _⟩ => ⟨S4096x4096, .f32⟩
  | .hbm, ⟨12, _⟩ => ⟨S2048x4096, .f32⟩
  | .hbm, ⟨13, _⟩ => ⟨S1x4096, .f32⟩
  | .hbm, ⟨14, _⟩ => ⟨S2048x4096, .f32⟩
  | .hbm, ⟨15, _⟩ => ⟨S2048x4096, .f32⟩
  | .hbm, ⟨16, _⟩ => ⟨S4096x1, .f32⟩
  | .hbm, ⟨17, _⟩ => ⟨S4096, .f32⟩
  | .hbm, ⟨18, _⟩ => ⟨S1x4096, .f32⟩
  | .hbm, ⟨19, _⟩ => ⟨S2048x4096, .f32⟩
  | .hbm, ⟨20, _⟩ => ⟨S2048x4096, .f32⟩
  | .hbm, ⟨21, _⟩ => ⟨S1x4096, .f32⟩
  | .hbm, ⟨22, _⟩ => ⟨S2048x4096, .f32⟩
  | .hbm, ⟨23, _⟩ => ⟨S2048x4096, .f32⟩
  | .hbm, ⟨24, _⟩ => ⟨S_, .f32⟩
  | .hbm, ⟨25, _⟩ => ⟨S2048x4096, .f32⟩
  | .hbm, ⟨26, _⟩ => ⟨S2048x4096, .f32⟩
  | .hbm, ⟨27, _⟩ => ⟨S4096x1, .f32⟩
  | .hbm, ⟨28, _⟩ => ⟨S4096, .f32⟩
  | .hbm, ⟨29, _⟩ => ⟨S1x4096, .f32⟩
  | .hbm, ⟨30, _⟩ => ⟨S2048x4096, .f32⟩
  | .hbm, ⟨31, _⟩ => ⟨S2048x4096, .f32⟩
  | .hbm, ⟨32, _⟩ => ⟨S1x4096, .f32⟩
  | .hbm, ⟨33, _⟩ => ⟨S2048x4096, .f32⟩
  | .hbm, ⟨34, _⟩ => ⟨S2048x4096, .f32⟩
  | .hbm, ⟨35, _⟩ => ⟨S_, .f32⟩
  | .hbm, ⟨36, _⟩ => ⟨S2048x4096, .f32⟩
  | .hbm, ⟨37, _⟩ => ⟨S2048x4096, .f32⟩
  | .hbm, ⟨38, _⟩ => ⟨S2048x4096, .f32⟩
  | .hbm, ⟨39, _⟩ => ⟨S4096x4096, .f32⟩
  | .hbm, ⟨40, _⟩ => ⟨S2048x4096, .f32⟩
  | .hbm, ⟨41, _⟩ => ⟨S1x4096, .f32⟩
  | .hbm, ⟨42, _⟩ => ⟨S2048x4096, .f32⟩
  | .hbm, ⟨43, _⟩ => ⟨S2048x4096, .f32⟩
  | .hbm, ⟨44, _⟩ => ⟨S_, .f32⟩
  | .hbm, ⟨45, _⟩ => ⟨S2048x4096, .f32⟩
  | .hbm, ⟨46, _⟩ => ⟨S2048x4096, .f32⟩
  | .hbm, ⟨47, _⟩ => ⟨S4096x1024, .f32⟩
  | .hbm, ⟨48, _⟩ => ⟨S2048x1024, .f32⟩
  | .hbm, ⟨49, _⟩ => ⟨S1x1024, .f32⟩
  | .hbm, ⟨50, _⟩ => ⟨S2048x1024, .f32⟩
  | .hbm, ⟨51, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_cst : Ref sig .tc := ⟨.hbm, 35, rfl⟩
abbrev main_call1_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call2_cst : Ref sig .tc := ⟨.hbm, 44, rfl⟩
abbrev main_call2_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  slices_S4096x3_S4096x1_0_1 : S4096x3.Slices ![0, 1] S4096x1
  shapeCasts_S4096x1_S4096 : S4096x1.ShapeCasts S4096
  bcast_S_S2048x4096 : S_.BroadcastsInDim S2048x4096 (![] : Fin 0 → Fin S2048x4096.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  dot_S2048x4096_S4096x4096_S2048x4096_1_0_0_1_n_n_wf : DotDims.WF S2048x4096 S4096x4096 S2048x4096 [1] [0] [0] [1] [] []
  dot_S2048x4096_S4096x1024_S2048x1024_1_0_0_1_n_n_wf : DotDims.WF S2048x4096 S4096x1024 S2048x1024 [1] [0] [0] [1] [] []

variable [Facts₀]

def dot_S2048x4096_S4096x4096_S2048x4096_1_0_0_1_n_n : DotDims S2048x4096 S4096x4096 S2048x4096 where
  lhsContracting := [1]
  rhsContracting := [0]
  lhsNonContracting := [0]
  rhsNonContracting := [1]
  lhsBatch := []
  rhsBatch := []
  wf := dot_S2048x4096_S4096x4096_S2048x4096_1_0_0_1_n_n_wf
def dot_S2048x4096_S4096x1024_S2048x1024_1_0_0_1_n_n : DotDims S2048x4096 S4096x1024 S2048x1024 where
  lhsContracting := [1]
  rhsContracting := [0]
  lhsNonContracting := [0]
  rhsNonContracting := [1]
  lhsBatch := []
  rhsBatch := []
  wf := dot_S2048x4096_S4096x1024_S2048x1024_1_0_0_1_n_n_wf

class Facts : Prop extends Facts₀ where

variable [Facts]
-- ==== Proof.FrameB.R0S.lean ====
import proofs.«162881_j71614284693592_1_alg».proof.Proof.Gen.Kernel.Launch
import proofs.«162881_j71614284693592_1_alg».proof.Proof.Gen.Kernel.Skeleton
import proofs.«162881_j71614284693592_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: what the three control cases of its body share

The body zeroes its accumulator at the first reduction step, adds one block product at every step, and at the
last step adds the bias terms and stores the output block. The contents of the arrays when the region is
entered are a parameter `V`. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions, decided over the grid -/

/-- The first branch (zero the accumulator) is taken when the reduction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the epilogue and the output store) is taken when the reduction coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The staging and scratch memrefs -/

/-- One staging buffer of the output window, through which its contents are stated. -/
abbrev VO0_7 : View sig .tc .vmem S512x1024 .bf16 := (Memref.whole cc0_stg7_0 : Memref sig .tc .vmem S512x1024 .bf16).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .bf16 := win0_7.stage (cfg0.slots t 7)
abbrev hs0_7 (t : Fin cfg0.N) : (ms0_7 t).IsWhole := hstage0_7 ((cfg0.slots t 7).cast nbuf0_7)
/-- The accumulator: a whole scoped buffer of the kernel's own, carried from point to point. -/
abbrev scM0_0 : Memref sig .tc .vmem S512x1024 .f32 := Memref.whole cc0_scratch0
abbrev VS0_0 : View sig .tc .vmem S512x1024 .f32 := scM0_0.view

/-- The scoped buffers that are neither a staging buffer of this call nor its accumulator. -/
abbrev restBut0 (c : Dev nD) : sProp 𝕄 :=
  Pipeline.scopedRestBut (Ix := Unit) (Name := ℕ) (U := UR sig nD τ) (Lvl := ℕ) (Val := Elt F) spec0 c [cc0_scratch0]

/-- The class invariant with the accumulator split off as a memref owned at some contents. -/
theorem PhiA0_eq (c : Dev nD) :
    (Pipeline.ΦA spec0 c : sProp 𝕄)
      = iprop(iprop((∃ d, owns (c : Thread nD τ) scM0_0 fullShare d) ∗ restBut0 c) ∗ (∃ r, prngReg c r)) := by
  unfold Pipeline.ΦA
  rw [Pipeline.scopedRest_split_of_list spec0 c [cc0_scratch0] (by decide) (by decide)]
  simp only [scM0_0, owns_whole]; try rfl

end Cert.Kernel.Frm

end
-- ==== Proof.FrameB.R0RunA.lean ====
import proofs.«162881_j71614284693592_1_alg».proof.Proof.FrameB.R0S

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the first reduction step: the accumulator is zeroed, one block product is added, nothing is stored into the output block. On whole memrefs, the inputs' at their contents, it runs to a state holding the
    inputs as they were and the accumulator (and, at the last step, the output block) with the listed pieces
    written; the pieces are found by running the body symbolically. -/
noncomputable def kernelRun0_A (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) :
    Σ' (L7 : List (View.Piece (Elt F) S512x1024 .bf16)), { LS0 : List (View.Piece (Elt F) S512x1024 .f32) //
      ∀ (xi7 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc0_kernel i arg3 harg3 arg4 harg4 arg5 harg5 arg6 harg6 arg7 harg7 arg8 harg8 arg9 harg9 arg10 harg10 arg11 harg11) K } := by
  refine ⟨[], ?_, fun xi7 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS0

end Cert.Kernel.Frm

end
-- ==== Proof.FrameB.R0RunB.lean ====
import proofs.«162881_j71614284693592_1_alg».proof.Proof.FrameB.R0RunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle reduction step: one block product is added to the accumulator, nothing is stored into the output block. On whole memrefs, the inputs' at their contents, it runs to a state holding the
    inputs as they were and the accumulator (and, at the last step, the output block) with the listed pieces
    written; the pieces are found by running the body symbolically. -/
noncomputable def kernelRun0_B (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) :
    Σ' (L7 : List (View.Piece (Elt F) S512x1024 .bf16)), { LS0 : List (View.Piece (Elt F) S512x1024 .f32) //
      ∀ (xi7 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc0_kernel i arg3 harg3 arg4 harg4 arg5 harg5 arg6 harg6 arg7 harg7 arg8 harg8 arg9 harg9 arg10 harg10 arg11 harg11) K } := by
  refine ⟨[], ?_, fun xi7 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS0

end Cert.Kernel.Frm

end
-- ==== Proof.FrameB.R0RunC.lean ====
import proofs.«162881_j71614284693592_1_alg».proof.Proof.FrameB.R0RunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the last reduction step: one block product is added, then the bias terms are applied and the output block is stored. On whole memrefs, the inputs' at their contents, it runs to a state holding the
    inputs as they were and the accumulator (and, at the last step, the output block) with the listed pieces
    written; the pieces are found by running the body symbolically. -/
noncomputable def kernelRun0_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) :
    Σ' (L7 : List (View.Piece (Elt F) S512x1024 .bf16)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0_kernel i arg3 harg3 arg4 harg4 arg5 harg5 arg6 harg6 arg7 harg7 arg8 harg8 arg9 harg9 arg10 harg10 arg11 harg11) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexists _; iexact HS0

end Cert.Kernel.Frm

end
-- ==== Proof.FrameB.R0F.lean ====
import proofs.«162881_j71614284693592_1_alg».proof.Proof.FrameB.R0RunC

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: what its output block and its accumulator hold, point by point; the proof data; the body obligation -/

/-- What case A leaves in the output block's staging buffer (nothing is stored: a placeholder no one reads). -/
def out0_A_7 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) : Vec F S512x1024 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 hc0 hc1 x0 x1 x2 x3 x4 x5 x6).1)

/-- Case A's stores into the accumulator cover it. -/
theorem scover0_A_0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (y : S512x1024.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5 x6).2.1 S512x1024.size (by sl_kernel_rfl) y

/-- What case A leaves in the accumulator. -/
def sout0_A_0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) : Vec F S512x1024 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 hc0 hc1 x0 x1 x2 x3 x4 x5 x6).2.1)

/-- What case B leaves in the output block's staging buffer (nothing is stored: a placeholder no one reads). -/
def out0_B_7 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) : Vec F S512x1024 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 hc0 hc1 x0 x1 x2 x3 x4 x5 x6 xs0).1)

/-- Case B's stores into the accumulator cover it. -/
theorem scover0_B_0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) (y : S512x1024.Idx) :
    ∃ pc ∈ (kernelRun0_B c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 x6 xs0).2.1 S512x1024.size (by sl_kernel_rfl) y

/-- What case B leaves in the accumulator. -/
def sout0_B_0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) : Vec F S512x1024 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 hc0 hc1 x0 x1 x2 x3 x4 x5 x6 xs0).2.1)

/-- At the last reduction step the one store into the output block covers it. -/
theorem cover0_C_7 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) (y : S512x1024.Idx) :
    ∃ pc ∈ (kernelRun0_C c i arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 x6 xs0).1 S512x1024.size (by sl_kernel_rfl) y

/-- What case C leaves in the output block's staging buffer. -/
def out0_C_7 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) : Vec F S512x1024 .bf16 :=
  VO0_7.read (Elt F) (VO0_7.writes (Elt F) VO0_7.junk (kernelRun0_C c i arg3 harg3 arg4 harg4 arg5 harg5 arg6 harg6 arg7 harg7 arg8 harg8 arg9 harg9 arg10 harg10 arg11 harg11 hc0 hc1 x0 x1 x2 x3 x4 x5 x6 xs0).1)

/-- Case C's stores into the accumulator cover it. -/
theorem scover0_C_0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) (y : S512x1024.Idx) :
    ∃ pc ∈ (kernelRun0_C c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 x6 xs0).2.1 S512x1024.size (by sl_kernel_rfl) y

/-- What case C leaves in the accumulator. -/
def sout0_C_0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) : Vec F S512x1024 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 hc0 hc1 x0 x1 x2 x3 x4 x5 x6 xs0).2.1)

section
variable (V : (c : Dev nD) → (b : Ref sig .tc) → Buf (Elt F) ((c : Thread nD τ).loc b))

/-- THE ACCUMULATION. What the output block's staging buffer and the accumulator hold after the body at
    position `n`: the case the closed forms select there, run at the point's memrefs and input blocks, the
    accumulator entering at what position `n - 1` left. -/
def outsAt0 (c : Dev nD) : (n : ℕ) → n < cfg0.N → Vec F S512x1024 .bf16 × Vec F S512x1024 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 4 = 0 then
      if h1 : (n + 1) % 4 = 3 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at
    anything); afterwards the accumulator at what the point before left in it, the other scoped buffers at
    anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 c) ∗ (∃ r, prngReg c r)) := by
  cases n with
  | zero => exact absurd rfl hz
  | succ n => rfl

/-! ## The proof data -/

/-- The proof data of pipeline 0 on core `c`: the arrays as the region finds them; after the body at point `t`
    each input's buffer at its block and the output's at `outsAt0`; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the closed forms say which case the point is in; the inputs' buffers hold their blocks;
    the invariant hands the body the accumulator at what the point before left (at anything at the first point)
    and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A_0; (try dsimp only)
      by_cases hz : t.val = 0
      ·
        rw [PhiS0_castSucc V c t, PhiS0_zero V c _ _ hz, PhiA0_eq]
        iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

      ·
        rw [PhiS0_castSucc V c t, PhiS0_pos V c _ _ hz]
        iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_7 sout0_C_0; (try dsimp only)
      by_cases hz : t.val = 0
      · exfalso; omega
      ·
        rw [PhiS0_castSucc V c t, PhiS0_pos V c _ _ hz]
        iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B_0; (try dsimp only)
      by_cases hz : t.val = 0
      · exfalso; omega
      ·
        rw [PhiS0_castSucc V c t, PhiS0_pos V c _ _ hz]
        iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, HB⟩, Hg⟩
  isplitl [HS0 HB]
  · isplitl [HS0]
    · iexists _; iexact HS0
    iexact HB
  iexact Hg

end

end Cert.Kernel.Frm

end
-- ==== Proof.FrameB.R1S.lean ====
import proofs.«162881_j71614284693592_1_alg».proof.Proof.Gen.Kernel.Launch
import proofs.«162881_j71614284693592_1_alg».proof.Proof.Gen.Kernel.Skeleton
import proofs.«162881_j71614284693592_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: what the three control cases of its body share

The body zeroes its accumulator at the first reduction step, adds one block product at every step, and at the
last step adds the bias terms and stores the output block. The contents of the arrays when the region is
entered are a parameter `V`. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions, decided over the grid -/

/-- The first branch (zero the accumulator) is taken when the reduction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (the epilogue and the output store) is taken when the reduction coordinate is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The staging and scratch memrefs -/

/-- One staging buffer of the output window, through which its contents are stated. -/
abbrev VO1_3 : View sig .tc .vmem S512x1024 .bf16 := (Memref.whole cc1_stg3_0 : Memref sig .tc .vmem S512x1024 .bf16).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .bf16 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S512x1024 .f32 := Memref.whole cc1_scratch0
abbrev VS1_0 : View sig .tc .vmem S512x1024 .f32 := scM1_0.view

/-- The scoped buffers that are neither a staging buffer of this call nor its accumulator. -/
abbrev restBut1 (c : Dev nD) : sProp 𝕄 :=
  Pipeline.scopedRestBut (Ix := Unit) (Name := ℕ) (U := UR sig nD τ) (Lvl := ℕ) (Val := Elt F) spec1 c [cc1_scratch0]

/-- The class invariant with the accumulator split off as a memref owned at some contents. -/
theorem PhiA1_eq (c : Dev nD) :
    (Pipeline.ΦA spec1 c : sProp 𝕄)
      = iprop(iprop((∃ d, owns (c : Thread nD τ) scM1_0 fullShare d) ∗ restBut1 c) ∗ (∃ r, prngReg c r)) := by
  unfold Pipeline.ΦA
  rw [Pipeline.scopedRest_split_of_list spec1 c [cc1_scratch0] (by decide) (by decide)]
  simp only [scM1_0, owns_whole]; try rfl

end Cert.Kernel.Frm

end
-- ==== Proof.FrameB.R1RunA.lean ====
import proofs.«162881_j71614284693592_1_alg».proof.Proof.FrameB.R1S

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the first reduction step: the accumulator is zeroed, one block product is added, nothing is stored into the output block. On whole memrefs, the inputs' at their contents, it runs to a state holding the
    inputs as they were and the accumulator (and, at the last step, the output block) with the listed pieces
    written; the pieces are found by running the body symbolically. -/
noncomputable def kernelRun1_A (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : cond1_0 i) (hc1 : ¬cond1_1 i)
    (x0 : Vec F S512x1024 .bf16) (x1 : Vec F S1024x1024 .f32) (x2 : Vec F S1x1024 .f32) :
    Σ' (L3 : List (View.Piece (Elt F) S512x1024 .bf16)), { LS0 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg3 harg3 arg4 harg4 arg5 harg5 arg6 harg6 arg7 harg7) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frm

end
-- ==== Proof.FrameB.R1RunB.lean ====
import proofs.«162881_j71614284693592_1_alg».proof.Proof.FrameB.R1RunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle reduction step: one block product is added to the accumulator, nothing is stored into the output block. On whole memrefs, the inputs' at their contents, it runs to a state holding the
    inputs as they were and the accumulator (and, at the last step, the output block) with the listed pieces
    written; the pieces are found by running the body symbolically. -/
noncomputable def kernelRun1_B (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : ¬cond1_1 i)
    (x0 : Vec F S512x1024 .bf16) (x1 : Vec F S1024x1024 .f32) (x2 : Vec F S1x1024 .f32) (xs0 : Vec F S512x1024 .f32) :
    Σ' (L3 : List (View.Piece (Elt F) S512x1024 .bf16)), { LS0 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg3 harg3 arg4 harg4 arg5 harg5 arg6 harg6 arg7 harg7) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frm

end
-- ==== Proof.FrameB.R1RunC.lean ====
import proofs.«162881_j71614284693592_1_alg».proof.Proof.FrameB.R1RunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the last reduction step: one block product is added, then the bias terms are applied and the output block is stored. On whole memrefs, the inputs' at their contents, it runs to a state holding the
    inputs as they were and the accumulator (and, at the last step, the output block) with the listed pieces
    written; the pieces are found by running the body symbolically. -/
noncomputable def kernelRun1_C (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : cond1_1 i)
    (x0 : Vec F S512x1024 .bf16) (x1 : Vec F S1024x1024 .f32) (x2 : Vec F S1x1024 .f32) (xs0 : Vec F S512x1024 .f32) :
    Σ' (L3 : List (View.Piece (Elt F) S512x1024 .bf16)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Frm

end
-- ==== Proof.FrameB.R1F.lean ====
import proofs.«162881_j71614284693592_1_alg».proof.Proof.FrameB.R1RunC

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: what its output block and its accumulator hold, point by point; the proof data; the body obligation -/

/-- What case A leaves in the output block's staging buffer (nothing is stored: a placeholder no one reads). -/
def out1_A_3 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : cond1_0 i) (hc1 : ¬cond1_1 i)
    (x0 : Vec F S512x1024 .bf16) (x1 : Vec F S1024x1024 .f32) (x2 : Vec F S1x1024 .f32) : Vec F S512x1024 .bf16 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : cond1_0 i) (hc1 : ¬cond1_1 i)
    (x0 : Vec F S512x1024 .bf16) (x1 : Vec F S1024x1024 .f32) (x2 : Vec F S1x1024 .f32) (y : S512x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S512x1024.size (by sl_kernel_rfl) y

/-- What case A leaves in the accumulator. -/
def sout1_A_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : cond1_0 i) (hc1 : ¬cond1_1 i)
    (x0 : Vec F S512x1024 .bf16) (x1 : Vec F S1024x1024 .f32) (x2 : Vec F S1x1024 .f32) : Vec F S512x1024 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output block's staging buffer (nothing is stored: a placeholder no one reads). -/
def out1_B_3 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : ¬cond1_1 i)
    (x0 : Vec F S512x1024 .bf16) (x1 : Vec F S1024x1024 .f32) (x2 : Vec F S1x1024 .f32) (xs0 : Vec F S512x1024 .f32) : Vec F S512x1024 .bf16 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : ¬cond1_1 i)
    (x0 : Vec F S512x1024 .bf16) (x1 : Vec F S1024x1024 .f32) (x2 : Vec F S1x1024 .f32) (xs0 : Vec F S512x1024 .f32) (y : S512x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S512x1024.size (by sl_kernel_rfl) y

/-- What case B leaves in the accumulator. -/
def sout1_B_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : ¬cond1_1 i)
    (x0 : Vec F S512x1024 .bf16) (x1 : Vec F S1024x1024 .f32) (x2 : Vec F S1x1024 .f32) (xs0 : Vec F S512x1024 .f32) : Vec F S512x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At the last reduction step the one store into the output block covers it. -/
theorem cover1_C_3 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : cond1_1 i)
    (x0 : Vec F S512x1024 .bf16) (x1 : Vec F S1024x1024 .f32) (x2 : Vec F S1x1024 .f32) (xs0 : Vec F S512x1024 .f32) (y : S512x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S512x1024.size (by sl_kernel_rfl) y

/-- What case C leaves in the output block's staging buffer. -/
def out1_C_3 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : cond1_1 i)
    (x0 : Vec F S512x1024 .bf16) (x1 : Vec F S1024x1024 .f32) (x2 : Vec F S1x1024 .f32) (xs0 : Vec F S512x1024 .f32) : Vec F S512x1024 .bf16 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : cond1_1 i)
    (x0 : Vec F S512x1024 .bf16) (x1 : Vec F S1024x1024 .f32) (x2 : Vec F S1x1024 .f32) (xs0 : Vec F S512x1024 .f32) (y : S512x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S512x1024.size (by sl_kernel_rfl) y

/-- What case C leaves in the accumulator. -/
def sout1_C_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : cond1_1 i)
    (x0 : Vec F S512x1024 .bf16) (x1 : Vec F S1024x1024 .f32) (x2 : Vec F S1x1024 .f32) (xs0 : Vec F S512x1024 .f32) : Vec F S512x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

section
variable (V : (c : Dev nD) → (b : Ref sig .tc) → Buf (Elt F) ((c : Thread nD τ).loc b))

/-- THE ACCUMULATION. What the output block's staging buffer and the accumulator hold after the body at
    position `n`: the case the closed forms select there, run at the point's memrefs and input blocks, the
    accumulator entering at what position `n - 1` left. -/
def outsAt1 (c : Dev nD) : (n : ℕ) → n < cfg1.N → Vec F S512x1024 .bf16 × Vec F S512x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at
    anything); afterwards the accumulator at what the point before left in it, the other scoped buffers at
    anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 c) ∗ (∃ r, prngReg c r)) := by
  cases n with
  | zero => exact absurd rfl hz
  | succ n => rfl

/-! ## The proof data -/

/-- The proof data of pipeline 1 on core `c`: the arrays as the region finds them; after the body at point `t`
    each input's buffer at its block and the output's at `outsAt1`; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the closed forms say which case the point is in; the inputs' buffers hold their blocks;
    the invariant hands the body the accumulator at what the point before left (at anything at the first point)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HB⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover1_A_0 c _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

      ·
        rw [PhiS1_castSucc V c t, PhiS1_pos V c _ _ hz]
        iintro ⟨⟨⟨HS0, HB⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover1_A_0 c _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      ·
        rw [PhiS1_castSucc V c t, PhiS1_pos V c _ _ hz]
        iintro ⟨⟨⟨HS0, HB⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover1_C_0 c _ _ _ _ _ _ _ _ _ _ _ _ _ _ _ _ _)
            iexact HB
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨HS0, HB⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover1_B_0 c _ _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, HB⟩, Hg⟩
  isplitl [HS0 HB]
  · isplitl [HS0]
    · iexists _; iexact HS0
    iexact HB
  iexact Hg

end

end Cert.Kernel.Frm

end
-- ==== Proof.FrameB.R2S.lean ====
import proofs.«162881_j71614284693592_1_alg».proof.Proof.Gen.Kernel.Launch
import proofs.«162881_j71614284693592_1_alg».proof.Proof.Gen.Kernel.Skeleton
import proofs.«162881_j71614284693592_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: what the three control cases of its body share

The body zeroes its accumulator at the first reduction step, adds one block product at every step, and at the
last step adds the bias terms and stores the output block. The contents of the arrays when the region is
entered are a parameter `V`. -/

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The two branch conditions, decided over the grid -/

/-- The first branch (zero the accumulator) is taken when the reduction coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second branch (the epilogue and the output store) is taken when the reduction coordinate is 3, the last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
theorem liveAt2_3_C : ∀ t : Fin cfg2.N, ¬cond2_0 (grid2.coords t) → cond2_1 (grid2.coords t) → cfg2.idle 3 (grid2.coords t) = false := by decide +kernel

/-! ## The staging and scratch memrefs -/

/-- One staging buffer of the output window, through which its contents are stated. -/
abbrev VO2_3 : View sig .tc .vmem S512x1024 .f32 := (Memref.whole cc2_stg3_0 : Memref sig .tc .vmem S512x1024 .f32).view
abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, carried from point to point. -/
abbrev scM2_0 : Memref sig .tc .vmem S512x1024 .f32 := Memref.whole cc2_scratch0
abbrev VS2_0 : View sig .tc .vmem S512x1024 .f32 := scM2_0.view

/-- The scoped buffers that are neither a staging buffer of this call nor its accumulator. -/
abbrev restBut2 (c : Dev nD) : sProp 𝕄 :=
  Pipeline.scopedRestBut (Ix := Unit) (Name := ℕ) (U := UR sig nD τ) (Lvl := ℕ) (Val := Elt F) spec2 c [cc2_scratch0]

/-- The class invariant with the accumulator split off as a memref owned at some contents. -/
theorem PhiA2_eq (c : Dev nD) :
    (Pipeline.ΦA spec2 c : sProp 𝕄)
      = iprop(iprop((∃ d, owns (c : Thread nD τ) scM2_0 fullShare d) ∗ restBut2 c) ∗ (∃ r, prngReg c r)) := by
  unfold Pipeline.ΦA
  rw [Pipeline.scopedRest_split_of_list spec2 c [cc2_scratch0] (by decide) (by decide)]
  simp only [scM2_0, owns_whole]; try rfl

end Cert.Kernel.Frm

end
-- ==== Proof.FrameB.R2RunA.lean ====
import proofs.«162881_j71614284693592_1_alg».proof.Proof.FrameB.R2S

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the first reduction step: the accumulator is zeroed, one block product is added, nothing is stored into the output block. On whole memrefs, the inputs' at their contents, it runs to a state holding the
    inputs as they were and the accumulator (and, at the last step, the output block) with the listed pieces
    written; the pieces are found by running the body symbolically. -/
noncomputable def kernelRun2_A (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .f32) (x2 : Vec F S1x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg3 harg3 arg4 harg4 arg5 harg5 arg6 harg6 arg7 harg7) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frm

end
-- ==== Proof.FrameB.R2RunB.lean ====
import proofs.«162881_j71614284693592_1_alg».proof.Proof.FrameB.R2RunA

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a middle reduction step: one block product is added to the accumulator, nothing is stored into the output block. On whole memrefs, the inputs' at their contents, it runs to a state holding the
    inputs as they were and the accumulator (and, at the last step, the output block) with the listed pieces
    written; the pieces are found by running the body symbolically. -/
noncomputable def kernelRun2_B (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .f32) (x2 : Vec F S1x1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg3 harg3 arg4 harg4 arg5 harg5 arg6 harg6 arg7 harg7) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frm

end
-- ==== Proof.FrameB.R2RunC.lean ====
import proofs.«162881_j71614284693592_1_alg».proof.Proof.FrameB.R2RunB

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at the last reduction step: one block product is added, then the bias terms are applied and the output block is stored. On whole memrefs, the inputs' at their contents, it runs to a state holding the
    inputs as they were and the accumulator (and, at the last step, the output block) with the listed pieces
    written; the pieces are found by running the body symbolically. -/
noncomputable def kernelRun2_C (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .f32) (x2 : Vec F S1x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Frm

end
-- ==== Proof.FrameB.R2F.lean ====
import proofs.«162881_j71614284693592_1_alg».proof.Proof.FrameB.R2RunC

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: what its output block and its accumulator hold, point by point; the proof data; the body obligation -/

/-- What case A leaves in the output block's staging buffer (nothing is stored: a placeholder no one reads). -/
def out2_A_3 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .f32) (x2 : Vec F S1x1024 .f32) : Vec F S512x1024 .f32 :=
  VO2_3.read (Elt F) (VO2_3.writes (Elt F) VO2_3.junk (kernelRun2_A c i arg3 harg3 arg4 harg4 arg5 harg5 arg6 harg6 arg7 harg7 hc0 hc1 x0 x1 x2).1)

/-- Case A's stores into the accumulator cover it. -/
theorem scover2_A_0 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .f32) (x2 : Vec F S1x1024 .f32) (y : S512x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S512x1024.size (by sl_kernel_rfl) y

/-- What case A leaves in the accumulator. -/
def sout2_A_0 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .f32) (x2 : Vec F S1x1024 .f32) : Vec F S512x1024 .f32 :=
  VS2_0.read (Elt F) (VS2_0.writes (Elt F) VS2_0.junk (kernelRun2_A c i arg3 harg3 arg4 harg4 arg5 harg5 arg6 harg6 arg7 harg7 hc0 hc1 x0 x1 x2).2.1)

/-- What case B leaves in the output block's staging buffer (nothing is stored: a placeholder no one reads). -/
def out2_B_3 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .f32) (x2 : Vec F S1x1024 .f32) (xs0 : Vec F S512x1024 .f32) : Vec F S512x1024 .f32 :=
  VO2_3.read (Elt F) (VO2_3.writes (Elt F) VO2_3.junk (kernelRun2_B c i arg3 harg3 arg4 harg4 arg5 harg5 arg6 harg6 arg7 harg7 hc0 hc1 x0 x1 x2 xs0).1)

/-- Case B's stores into the accumulator cover it. -/
theorem scover2_B_0 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .f32) (x2 : Vec F S1x1024 .f32) (xs0 : Vec F S512x1024 .f32) (y : S512x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S512x1024.size (by sl_kernel_rfl) y

/-- What case B leaves in the accumulator. -/
def sout2_B_0 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .f32) (x2 : Vec F S1x1024 .f32) (xs0 : Vec F S512x1024 .f32) : Vec F S512x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- At the last reduction step the one store into the output block covers it. -/
theorem cover2_C_3 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .f32) (x2 : Vec F S1x1024 .f32) (xs0 : Vec F S512x1024 .f32) (y : S512x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S512x1024.size (by sl_kernel_rfl) y

/-- What case C leaves in the output block's staging buffer. -/
def out2_C_3 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .f32) (x2 : Vec F S1x1024 .f32) (xs0 : Vec F S512x1024 .f32) : Vec F S512x1024 .f32 :=
  VO2_3.read (Elt F) (VO2_3.writes (Elt F) VO2_3.junk (kernelRun2_C c i arg3 harg3 arg4 harg4 arg5 harg5 arg6 harg6 arg7 harg7 hc0 hc1 x0 x1 x2 xs0).1)

/-- Case C's stores into the accumulator cover it. -/
theorem scover2_C_0 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .f32) (x2 : Vec F S1x1024 .f32) (xs0 : Vec F S512x1024 .f32) (y : S512x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S512x1024.size (by sl_kernel_rfl) y

/-- What case C leaves in the accumulator. -/
def sout2_C_0 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .f32) (x2 : Vec F S1x1024 .f32) (xs0 : Vec F S512x1024 .f32) : Vec F S512x1024 .f32 :=
  VS2_0.read (Elt F) (VS2_0.writes (Elt F) VS2_0.junk (kernelRun2_C c i arg3 harg3 arg4 harg4 arg5 harg5 arg6 harg6 arg7 harg7 hc0 hc1 x0 x1 x2 xs0).2.1)

section
variable (V : (c : Dev nD) → (b : Ref sig .tc) → Buf (Elt F) ((c : Thread nD τ).loc b))

/-- THE ACCUMULATION. What the output block's staging buffer and the accumulator hold after the body at
    position `n`: the case the closed forms select there, run at the point's memrefs and input blocks, the
    accumulator entering at what position `n - 1` left. -/
def outsAt2 (c : Dev nD) : (n : ℕ) → n < cfg2.N → Vec F S512x1024 .f32 × Vec F S512x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at
    anything); afterwards the accumulator at what the point before left in it, the other scoped buffers at
    anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 c) ∗ (∃ r, prngReg c r)) := by
  cases n with
  | zero => exact absurd rfl hz
  | succ n => rfl

/-! ## The proof data -/

/-- The proof data of pipeline 2 on core `c`: the arrays as the region finds them; after the body at point `t`
    each input's buffer at its block and the output's at `outsAt2`; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the closed forms say which case the point is in; the inputs' buffers hold their blocks;
    the invariant hands the body the accumulator at what the point before left (at anything at the first point)
    and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      ·
        rw [PhiS2_castSucc V c t, PhiS2_zero V c _ _ hz, PhiA2_eq]
        iintro ⟨⟨⟨HS0, HB⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover2_A_0 c _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

      ·
        rw [PhiS2_castSucc V c t, PhiS2_pos V c _ _ hz]
        iintro ⟨⟨⟨HS0, HB⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover2_A_0 c _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      ·
        rw [PhiS2_castSucc V c t, PhiS2_pos V c _ _ hz]
        iintro ⟨⟨⟨HS0, HB⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover2_C_0 c _ _ _ _ _ _ _ _ _ _ _ _ _ _ _ _ _)
            iexact HB
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)

    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      ·
        rw [PhiS2_castSucc V c t, PhiS2_pos V c _ _ hz]
        iintro ⟨⟨⟨HS0, HB⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover2_B_0 c _ _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS0, HB⟩, Hg⟩
  isplitl [HS0 HB]
  · isplitl [HS0]
    · iexists _; iexact HS0
    iexact HB
  iexact Hg

end

end Cert.Kernel.Frm

end
-- ==== Proof.FrameB.Asm.lean ====
import proofs.«162881_j71614284693592_1_alg».proof.Proof.FrameB.R0F
import proofs.«162881_j71614284693592_1_alg».proof.Proof.FrameB.R1F
import proofs.«162881_j71614284693592_1_alg».proof.Proof.FrameB.R2F
import proofs.«162881_j71614284693592_1_alg».proof.Proof.Gen.Kernel.Regions

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The whole run: the host stretch, then the three regions

The buffers' contents at each boundary are a fold from the launch memory: the host stretch's results, then each
region's arrays at what its write-backs leave. -/

variable (m : (ℓ : Loc nD τ sig) → Buf (Elt F) ℓ) (ρ : Dev nD → PrngReg)

/-- Core `c`'s buffers at launch. -/
abbrev W0 (c : Dev nD) : Valuation τ sig (Elt F) := fun b => m (c, b)
/-- After the host stretch (the reshapes and column slices of the bias vectors). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- The buffers at region 0's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input window's array leaves region 0 as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- The buffers at region 1's exit: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- An input window's array leaves region 1 as it entered. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

/-- The buffers at region 2's exit: its arrays at what its write-backs leave, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)
/-- An input window's array leaves region 2 as it entered. -/
theorem W4_in (c : Dev nD) (w : Fin cfg2.W) (hw : (cfg2.win w).isOut = false) :
    W4 m c (Proc.devRef .tc (Pipeline.arrRef spec2 w)) = W3 m c (Proc.devRef .tc (Pipeline.arrRef spec2 w)) :=
  (W4_arr m c w).trans (((dat2 (V3 m) c).arrAt_in w hw _).trans (A_eq2 (V3 m) c w))

/-! ## The proof data family and the thread state -/

abbrev admF : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) admF p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are
    split out of the unscoped buffers and put back at what its write-backs leave; the generator register goes into
    the region invariant and comes back; nothing is owed; the kernel has no semaphore of its own. -/
def reg0 : Pipeline.RegionSeg (pcfgs (F := F)) admF (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admF (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at what its write-backs leave; the generator register goes into
    the region invariant and comes back; nothing is owed; the kernel has no semaphore of its own. -/
def reg1 : Pipeline.RegionSeg (pcfgs (F := F)) admF (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) admF (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are
    split out of the unscoped buffers and put back at what its write-backs leave; the generator register goes into
    the region invariant and comes back; nothing is owed; the kernel has no semaphore of its own. -/
def reg2 : Pipeline.RegionSeg (pcfgs (F := F)) admF (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) admF (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V3 m) c)
    unfold Pipeline.ΦA
    iintro ⟨Hp, -, Hr⟩
    isplitl [Hr]; · iexact Hr
    iexact Hp
  hout c := by
    rw [Pipeline.ownSems0_none]
    refine (hout2 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) admF (pdats m) () defs₀ 𝒱₀ L lv) :=
  [ .host (hseg hostOps0 hostOps0_sub hostOps0_fresh (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- THE RUN. From any memory with zero counters, every weakly fair execution of @main on the TensorCores
    terminates, nothing faulting, and every final state holds every unscoped buffer at the last boundary's
    contents `W4`: the arguments, the host stretch's results, and each region's result at what its write-backs leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admF (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.Kernel.Frm

end
-- ==== Proof.FrameB.Post.lean ====
import proofs.«162881_j71614284693592_1_alg».proof.Proof.FrameB.Asm

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run's post, read at the arguments and at the result -/

variable (m : (ℓ : Loc nD τ sig) → Buf (Elt F) ℓ) (ρ : Dev nD → PrngReg)

/-- Argument 0 reaches the end as launched: the host stretch does not write it and a region only reads it. -/
theorem W4_main_arg0 (c : Dev nD) : W4 m c (Proc.devRef .tc main_arg0) = m ((c : Thread nD τ).loc main_arg0) :=
  (W4_of_ne m c main_arg0 (by decide)).trans ((W3_of_ne m c main_arg0 (by decide)).trans ((W2_in m c 0 rfl).trans (Gen.V1_of m c main_arg0 (by decide))))
/-- Argument 1 reaches the end as launched: the host stretch does not write it and a region only reads it. -/
theorem W4_main_arg1 (c : Dev nD) : W4 m c (Proc.devRef .tc main_arg1) = m ((c : Thread nD τ).loc main_arg1) :=
  (W4_of_ne m c main_arg1 (by decide)).trans ((W3_of_ne m c main_arg1 (by decide)).trans ((W2_in m c 1 rfl).trans (Gen.V1_of m c main_arg1 (by decide))))
/-- Argument 2 reaches the end as launched: the host stretch does not write it and a region only reads it. -/
theorem W4_main_arg2 (c : Dev nD) : W4 m c (Proc.devRef .tc main_arg2) = m ((c : Thread nD τ).loc main_arg2) :=
  (W4_of_ne m c main_arg2 (by decide)).trans ((W3_of_ne m c main_arg2 (by decide)).trans ((W2_of_ne m c main_arg2 (by decide)).trans (Gen.V1_of m c main_arg2 (by decide))))
/-- Argument 3 reaches the end as launched: the host stretch does not write it and a region only reads it. -/
theorem W4_main_arg3 (c : Dev nD) : W4 m c (Proc.devRef .tc main_arg3) = m ((c : Thread nD τ).loc main_arg3) :=
  (W4_of_ne m c main_arg3 (by decide)).trans ((W3_of_ne m c main_arg3 (by decide)).trans ((W2_of_ne m c main_arg3 (by decide)).trans (Gen.V1_of m c main_arg3 (by decide))))
/-- Argument 4 reaches the end as launched: the host stretch does not write it and a region only reads it. -/
theorem W4_main_arg4 (c : Dev nD) : W4 m c (Proc.devRef .tc main_arg4) = m ((c : Thread nD τ).loc main_arg4) :=
  (W4_of_ne m c main_arg4 (by decide)).trans ((W3_of_ne m c main_arg4 (by decide)).trans ((W2_of_ne m c main_arg4 (by decide)).trans (Gen.V1_of m c main_arg4 (by decide))))
/-- Argument 5 reaches the end as launched: the host stretch does not write it and a region only reads it. -/
theorem W4_main_arg5 (c : Dev nD) : W4 m c (Proc.devRef .tc main_arg5) = m ((c : Thread nD τ).loc main_arg5) :=
  (W4_of_ne m c main_arg5 (by decide)).trans ((W3_of_ne m c main_arg5 (by decide)).trans ((W2_of_ne m c main_arg5 (by decide)).trans (Gen.V1_of m c main_arg5 (by decide))))
/-- Argument 6 reaches the end as launched: the host stretch does not write it and a region only reads it. -/
theorem W4_main_arg6 (c : Dev nD) : W4 m c (Proc.devRef .tc main_arg6) = m ((c : Thread nD τ).loc main_arg6) :=
  (W4_of_ne m c main_arg6 (by decide)).trans ((W3_of_ne m c main_arg6 (by decide)).trans ((W2_of_ne m c main_arg6 (by decide)).trans (Gen.V1_of m c main_arg6 (by decide))))
/-- Argument 7 reaches the end as launched: the host stretch does not write it and a region only reads it. -/
theorem W4_main_arg7 (c : Dev nD) : W4 m c (Proc.devRef .tc main_arg7) = m ((c : Thread nD τ).loc main_arg7) :=
  (W4_of_ne m c main_arg7 (by decide)).trans ((W3_in m c 1 rfl).trans ((W2_of_ne m c main_arg7 (by decide)).trans (Gen.V1_of m c main_arg7 (by decide))))
/-- Argument 8 reaches the end as launched: the host stretch does not write it and a region only reads it. -/
theorem W4_main_arg8 (c : Dev nD) : W4 m c (Proc.devRef .tc main_arg8) = m ((c : Thread nD τ).loc main_arg8) :=
  (W4_of_ne m c main_arg8 (by decide)).trans ((W3_of_ne m c main_arg8 (by decide)).trans ((W2_of_ne m c main_arg8 (by decide)).trans (Gen.V1_of m c main_arg8 (by decide))))
/-- Argument 9 reaches the end as launched: the host stretch does not write it and a region only reads it. -/
theorem W4_main_arg9 (c : Dev nD) : W4 m c (Proc.devRef .tc main_arg9) = m ((c : Thread nD τ).loc main_arg9) :=
  (W4_in m c 1 rfl).trans ((W3_of_ne m c main_arg9 (by decide)).trans ((W2_of_ne m c main_arg9 (by decide)).trans (Gen.V1_of m c main_arg9 (by decide))))
/-- Argument 10 reaches the end as launched: the host stretch does not write it and a region only reads it. -/
theorem W4_main_arg10 (c : Dev nD) : W4 m c (Proc.devRef .tc main_arg10) = m ((c : Thread nD τ).loc main_arg10) :=
  (W4_of_ne m c main_arg10 (by decide)).trans ((W3_of_ne m c main_arg10 (by decide)).trans ((W2_of_ne m c main_arg10 (by decide)).trans (Gen.V1_of m c main_arg10 (by decide))))

/-- THE FRAME: every weakly fair execution terminates, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c)⟩) (run m ρ)

/-- The run with the result array named: it ends at the last boundary's contents of the third region's result. -/
theorem run_result : θ_run defs (onTc (τ := τ) (main (F := F))) ⟨m, fun _ => 0, ρ⟩ (fun r => ∀ c : Dev nD,
      r.2.mem ((c.tc : Thread nD τ).loc main_v13) = W4 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v13 (by decide)),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c)⟩) (run m ρ)

end Cert.Kernel.Frm

end
-- ==== Proof.FrameI.R0S.lean ====
import proofs.«162881_j71614284693592_1_alg».proof.Proof.Gen.KernelIdeal.Launch
import proofs.«162881_j71614284693592_1_alg».proof.Proof.Gen.KernelIdeal.Skeleton
import proofs.«162881_j71614284693592_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: what the three control cases of its body share

The body zeroes its accumulator at the first reduction step, adds one block product at every step, and at the
last step adds the bias terms and stores the output block. The contents of the arrays when the region is
entered are a parameter `V`. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end

/-! ## The two branch conditions, decided over the grid -/

/-- The first branch (zero the accumulator) is taken when the reduction coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the epilogue and the output store) is taken when the reduction coordinate is 3, the last. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

/-! ## The staging and scratch memrefs -/

/-- One staging buffer of the output window, through which its contents are stated. -/
abbrev VO0_7 : View sig .tc .vmem S512x1024 .bf16 := (Memref.whole cc0_stg7_0 : Memref sig .tc .vmem S512x1024 .bf16).view
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .bf16 := win0_7.stage (cfg0.slots t 7)
abbrev hs0_7 (t : Fin cfg0.N) : (ms0_7 t).IsWhole := hstage0_7 ((cfg0.slots t 7).cast nbuf0_7)
/-- The accumulator: a whole scoped buffer of the kernel's own, carried from point to point. -/
abbrev scM0_0 : Memref sig .tc .vmem S512x1024 .f32 := Memref.whole cc0_scratch0
abbrev VS0_0 : View sig .tc .vmem S512x1024 .f32 := scM0_0.view

/-- The scoped buffers that are neither a staging buffer of this call nor its accumulator. -/
abbrev restBut0 (c : Dev nD) : sProp 𝕄 :=
  Pipeline.scopedRestBut (Ix := Unit) (Name := ℕ) (U := UR sig nD τ) (Lvl := ℕ) (Val := Elt F) spec0 c [cc0_scratch0]

/-- The class invariant with the accumulator split off as a memref owned at some contents. -/
theorem PhiA0_eq (c : Dev nD) :
    (Pipeline.ΦA spec0 c : sProp 𝕄)
      = iprop(iprop((∃ d, owns (c : Thread nD τ) scM0_0 fullShare d) ∗ restBut0 c) ∗ (∃ r, prngReg c r)) := by
  unfold Pipeline.ΦA
  rw [Pipeline.scopedRest_split_of_list spec0 c [cc0_scratch0] (by decide) (by decide)]
  simp only [scM0_0, owns_whole]; try rfl

end Cert.KernelIdeal.Frm

end
-- ==== Proof.FrameI.R0RunA.lean ====
import proofs.«162881_j71614284693592_1_alg».proof.Proof.FrameI.R0S

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the first reduction step: the accumulator is zeroed, one block product is added, nothing is stored into the output block. On whole memrefs, the inputs' at their contents, it runs to a state holding the
    inputs as they were and the accumulator (and, at the last step, the output block) with the listed pieces
    written; the pieces are found by running the body symbolically. -/
noncomputable def kernelRun0_A (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) :
    Σ' (L7 : List (View.Piece (Elt F) S512x1024 .bf16)), { LS0 : List (View.Piece (Elt F) S512x1024 .f32) //
      ∀ (xi7 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc0_kernel i arg3 harg3 arg4 harg4 arg5 harg5 arg6 harg6 arg7 harg7 arg8 harg8 arg9 harg9 arg10 harg10 arg11 harg11) K } := by
  refine ⟨[], ?_, fun xi7 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS0

end Cert.KernelIdeal.Frm

end
-- ==== Proof.FrameI.R0RunB.lean ====
import proofs.«162881_j71614284693592_1_alg».proof.Proof.FrameI.R0RunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle reduction step: one block product is added to the accumulator, nothing is stored into the output block. On whole memrefs, the inputs' at their contents, it runs to a state holding the
    inputs as they were and the accumulator (and, at the last step, the output block) with the listed pieces
    written; the pieces are found by running the body symbolically. -/
noncomputable def kernelRun0_B (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) :
    Σ' (L7 : List (View.Piece (Elt F) S512x1024 .bf16)), { LS0 : List (View.Piece (Elt F) S512x1024 .f32) //
      ∀ (xi7 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0)) -∗ K ⟨⟩))
          ⊢ wp frame (wpE (defs₀ (F := F)) Variants.none c none) E (cc0_kernel i arg3 harg3 arg4 harg4 arg5 harg5 arg6 harg6 arg7 harg7 arg8 harg8 arg9 harg9 arg10 harg10 arg11 harg11) K } := by
  refine ⟨[], ?_, fun xi7 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    iexists _; iexact HS0

end Cert.KernelIdeal.Frm

end
-- ==== Proof.FrameI.R0RunC.lean ====
import proofs.«162881_j71614284693592_1_alg».proof.Proof.FrameI.R0RunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the last reduction step: one block product is added, then the bias terms are applied and the output block is stored. On whole memrefs, the inputs' at their contents, it runs to a state holding the
    inputs as they were and the accumulator (and, at the last step, the output block) with the listed pieces
    written; the pieces are found by running the body symbolically. -/
noncomputable def kernelRun0_C (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) :
    Σ' (L7 : List (View.Piece (Elt F) S512x1024 .bf16)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0)) -∗ K ⟨⟩))
          ⊢ wp frame (wpE (defs₀ (F := F)) Variants.none c none) E (cc0_kernel i arg3 harg3 arg4 harg4 arg5 harg5 arg6 harg6 arg7 harg7 arg8 harg8 arg9 harg9 arg10 harg10 arg11 harg11) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    iexists _; iexact HS0

end Cert.KernelIdeal.Frm

end
-- ==== Proof.FrameI.R0F.lean ====
import proofs.«162881_j71614284693592_1_alg».proof.Proof.FrameI.R0RunC

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: what its output block and its accumulator hold, point by point; the proof data; the body obligation -/

/-- What case A leaves in the output block's staging buffer (nothing is stored: a placeholder no one reads). -/
def out0_A_7 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) : Vec F S512x1024 .bf16 :=
  VO0_7.read (Elt F) (VO0_7.writes (Elt F) VO0_7.junk (kernelRun0_A c i arg3 harg3 arg4 harg4 arg5 harg5 arg6 harg6 arg7 harg7 arg8 harg8 arg9 harg9 arg10 harg10 arg11 harg11 hc0 hc1 x0 x1 x2 x3 x4 x5 x6).1)

/-- Case A's stores into the accumulator cover it. -/
theorem scover0_A_0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (y : S512x1024.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5 x6).2.1, y ∈ pc.1.set :=
  View.cover_of_tiledL (kernelRun0_A c i arg3 harg3 arg4 harg4 arg5 harg5 arg6 harg6 arg7 harg7 arg8 harg8 arg9 harg9 arg10 harg10 arg11 harg11 hc0 hc1 x0 x1 x2 x3 x4 x5 x6).2.1 S512x1024.size (by sl_kernel_rfl) y

/-- What case A leaves in the accumulator. -/
def sout0_A_0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) : Vec F S512x1024 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 hc0 hc1 x0 x1 x2 x3 x4 x5 x6).2.1)

/-- What case B leaves in the output block's staging buffer (nothing is stored: a placeholder no one reads). -/
def out0_B_7 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) : Vec F S512x1024 .bf16 :=
  VO0_7.read (Elt F) (VO0_7.writes (Elt F) VO0_7.junk (kernelRun0_B c i arg3 harg3 arg4 harg4 arg5 harg5 arg6 harg6 arg7 harg7 arg8 harg8 arg9 harg9 arg10 harg10 arg11 harg11 hc0 hc1 x0 x1 x2 x3 x4 x5 x6 xs0).1)

/-- Case B's stores into the accumulator cover it. -/
theorem scover0_B_0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) (y : S512x1024.Idx) :
    ∃ pc ∈ (kernelRun0_B c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_B c i arg3 harg3 arg4 harg4 arg5 harg5 arg6 harg6 arg7 harg7 arg8 harg8 arg9 harg9 arg10 harg10 arg11 harg11 hc0 hc1 x0 x1 x2 x3 x4 x5 x6 xs0).2.1 S512x1024.size (by sl_kernel_rfl) y

/-- What case B leaves in the accumulator. -/
def sout0_B_0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) : Vec F S512x1024 .f32 :=
  VS0_0.read (Elt F) (VS0_0.writes (Elt F) VS0_0.junk (kernelRun0_B c i arg3 harg3 arg4 harg4 arg5 harg5 arg6 harg6 arg7 harg7 arg8 harg8 arg9 harg9 arg10 harg10 arg11 harg11 hc0 hc1 x0 x1 x2 x3 x4 x5 x6 xs0).2.1)

/-- At the last reduction step the one store into the output block covers it. -/
theorem cover0_C_7 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) (y : S512x1024.Idx) :
    ∃ pc ∈ (kernelRun0_C c i arg3 harg3 arg4 harg4 arg5 harg5 arg6 harg6 arg7 harg7 arg8 harg8 arg9 harg9 arg10 harg10 arg11 harg11 hc0 hc1 x0 x1 x2 x3 x4 x5 x6 xs0).1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 x6 xs0).1 S512x1024.size (by sl_kernel_rfl) y

/-- What case C leaves in the output block's staging buffer. -/
def out0_C_7 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) : Vec F S512x1024 .bf16 :=
  VO0_7.read (Elt F) (VO0_7.writes (Elt F) VO0_7.junk (kernelRun0_C c i arg3 harg3 arg4 harg4 arg5 harg5 arg6 harg6 arg7 harg7 arg8 harg8 arg9 harg9 arg10 harg10 arg11 harg11 hc0 hc1 x0 x1 x2 x3 x4 x5 x6 xs0).1)

/-- Case C's stores into the accumulator cover it. -/
theorem scover0_C_0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) (y : S512x1024.Idx) :
    ∃ pc ∈ (kernelRun0_C c i arg3 harg3 arg4 harg4 arg5 harg5 arg6 harg6 arg7 harg7 arg8 harg8 arg9 harg9 arg10 harg10 arg11 harg11 hc0 hc1 x0 x1 x2 x3 x4 x5 x6 xs0).2.1, y ∈ pc.1.set :=
  View.cover_of_tiledL (kernelRun0_C c i arg3 harg3 arg4 harg4 arg5 harg5 arg6 harg6 arg7 harg7 arg8 harg8 arg9 harg9 arg10 harg10 arg11 harg11 hc0 hc1 x0 x1 x2 x3 x4 x5 x6 xs0).2.1 S512x1024.size (by sl_kernel_rfl) y

/-- What case C leaves in the accumulator. -/
def sout0_C_0 (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) : Vec F S512x1024 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 hc0 hc1 x0 x1 x2 x3 x4 x5 x6 xs0).2.1)

section
variable (V : (c : Dev nD) → (b : Ref sig .tc) → Buf (Elt F) ((c : Thread nD τ).loc b))

/-- THE ACCUMULATION. What the output block's staging buffer and the accumulator hold after the body at
    position `n`: the case the closed forms select there, run at the point's memrefs and input blocks, the
    accumulator entering at what position `n - 1` left. -/
def outsAt0 (c : Dev nD) : (n : ℕ) → n < cfg0.N → Vec F S512x1024 .bf16 × Vec F S512x1024 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 4 = 0 then
      if h1 : (n + 1) % 4 = 3 then
        False.elim (by omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)

theorem outsAt0_A (c : Dev nD) (t : Fin cfg0.N) (h0 : t.val % 4 = 0) (h1 : ¬t.val % 4 = 3) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 V c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at
    anything); afterwards the accumulator at what the point before left in it, the other scoped buffers at
    anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restBut0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restBut0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restBut0 c) ∗ (∃ r, prngReg c r)) := by
  cases n with
  | zero => exact absurd rfl hz
  | succ n => rfl

/-! ## The proof data -/

/-- The proof data of pipeline 0 on core `c`: the arrays as the region finds them; after the body at point `t`
    each input's buffer at its block and the output's at `outsAt0`; the invariant `PhiS0`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the closed forms say which case the point is in; the inputs' buffers hold their blocks;
    the invariant hands the body the accumulator at what the point before left (at anything at the first point)
    and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A_0; (try dsimp only)
      by_cases hz : t.val = 0
      ·
        rw [PhiS0_castSucc V c t, PhiS0_zero V c _ _ hz, PhiA0_eq]
        iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

      ·
        rw [PhiS0_castSucc V c t, PhiS0_pos V c _ _ hz]
        iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        iintro ⟨H0, H1, H2, H3, H4, H5, H6, H7, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_7 sout0_C_0; (try dsimp only)
      by_cases hz : t.val = 0
      · exfalso; omega
      ·
        rw [PhiS0_castSucc V c t, PhiS0_pos V c _ _ hz]
        iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [HS0]; · iexact HS0
        iintro ⟨H0, H1, H2, H3, H4, H5, H6, ⟨%e7, H7⟩, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _)

    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6 t], after0_6]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B_0; (try dsimp only)
      by_cases hz : t.val = 0
      · exfalso; omega
      ·
        rw [PhiS0_castSucc V c t, PhiS0_pos V c _ _ hz]
        iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (iblk0 V c 6 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        iintro ⟨H0, H1, H2, H3, H4, H5, H6, H7, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _)
            iexact HB
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexists _; iexact H7

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's named contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, HB⟩, Hg⟩
  isplitl [HS0 HB]
  · isplitl [HS0]
    · iexists _; iexact HS0
    iexact HB
  iexact Hg

end

end Cert.KernelIdeal.Frm

end
-- ==== Proof.FrameI.R1S.lean ====
import proofs.«162881_j71614284693592_1_alg».proof.Proof.Gen.KernelIdeal.Launch
import proofs.«162881_j71614284693592_1_alg».proof.Proof.Gen.KernelIdeal.Skeleton
import proofs.«162881_j71614284693592_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: what the three control cases of its body share

The body zeroes its accumulator at the first reduction step, adds one block product at every step, and at the
last step adds the bias terms and stores the output block. The contents of the arrays when the region is
entered are a parameter `V`. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end

/-! ## The two branch conditions, decided over the grid -/

/-- The first branch (zero the accumulator) is taken when the reduction coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The second branch (the epilogue and the output store) is taken when the reduction coordinate is 3, the last. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The staging and scratch memrefs -/

/-- One staging buffer of the output window, through which its contents are stated. -/
abbrev VO1_3 : View sig .tc .vmem S512x1024 .bf16 := (Memref.whole cc1_stg3_0 : Memref sig .tc .vmem S512x1024 .bf16).view
abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .bf16 := win1_3.stage (cfg1.slots t 3)
abbrev hs1_3 (t : Fin cfg1.N) : (ms1_3 t).IsWhole := hstage1_3 ((cfg1.slots t 3).cast nbuf1_3)
/-- The accumulator: a whole scoped buffer of the kernel's own, carried from point to point. -/
abbrev scM1_0 : Memref sig .tc .vmem S512x1024 .f32 := Memref.whole cc1_scratch0
abbrev VS1_0 : View sig .tc .vmem S512x1024 .f32 := scM1_0.view

/-- The scoped buffers that are neither a staging buffer of this call nor its accumulator. -/
abbrev restBut1 (c : Dev nD) : sProp 𝕄 :=
  Pipeline.scopedRestBut (Ix := Unit) (Name := ℕ) (U := UR sig nD τ) (Lvl := ℕ) (Val := Elt F) spec1 c [cc1_scratch0]

/-- The class invariant with the accumulator split off as a memref owned at some contents. -/
theorem PhiA1_eq (c : Dev nD) :
    (Pipeline.ΦA spec1 c : sProp 𝕄)
      = iprop(iprop((∃ d, owns (c : Thread nD τ) scM1_0 fullShare d) ∗ restBut1 c) ∗ (∃ r, prngReg c r)) := by
  unfold Pipeline.ΦA
  rw [Pipeline.scopedRest_split_of_list spec1 c [cc1_scratch0] (by decide) (by decide)]
  simp only [scM1_0, owns_whole]; try rfl

end Cert.KernelIdeal.Frm

end
-- ==== Proof.FrameI.R1RunA.lean ====
import proofs.«162881_j71614284693592_1_alg».proof.Proof.FrameI.R1S

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the first reduction step: the accumulator is zeroed, one block product is added, nothing is stored into the output block. On whole memrefs, the inputs' at their contents, it runs to a state holding the
    inputs as they were and the accumulator (and, at the last step, the output block) with the listed pieces
    written; the pieces are found by running the body symbolically. -/
noncomputable def kernelRun1_A (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : cond1_0 i) (hc1 : ¬cond1_1 i)
    (x0 : Vec F S512x1024 .bf16) (x1 : Vec F S1024x1024 .f32) (x2 : Vec F S1x1024 .f32) :
    Σ' (L3 : List (View.Piece (Elt F) S512x1024 .bf16)), { LS0 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg3 harg3 arg4 harg4 arg5 harg5 arg6 harg6 arg7 harg7) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frm

end
-- ==== Proof.FrameI.R1RunB.lean ====
import proofs.«162881_j71614284693592_1_alg».proof.Proof.FrameI.R1RunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle reduction step: one block product is added to the accumulator, nothing is stored into the output block. On whole memrefs, the inputs' at their contents, it runs to a state holding the
    inputs as they were and the accumulator (and, at the last step, the output block) with the listed pieces
    written; the pieces are found by running the body symbolically. -/
noncomputable def kernelRun1_B (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : ¬cond1_1 i)
    (x0 : Vec F S512x1024 .bf16) (x1 : Vec F S1024x1024 .f32) (x2 : Vec F S1x1024 .f32) (xs0 : Vec F S512x1024 .f32) :
    Σ' (L3 : List (View.Piece (Elt F) S512x1024 .bf16)), { LS0 : List (View.Piece (Elt F) S512x1024 .f32) //
      ∀ (xi3 : Vec F S512x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg3 harg3 arg4 harg4 arg5 harg5 arg6 harg6 arg7 harg7) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frm

end
-- ==== Proof.FrameI.R1RunC.lean ====
import proofs.«162881_j71614284693592_1_alg».proof.Proof.FrameI.R1RunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the last reduction step: one block product is added, then the bias terms are applied and the output block is stored. On whole memrefs, the inputs' at their contents, it runs to a state holding the
    inputs as they were and the accumulator (and, at the last step, the output block) with the listed pieces
    written; the pieces are found by running the body symbolically. -/
noncomputable def kernelRun1_C (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : cond1_1 i)
    (x0 : Vec F S512x1024 .bf16) (x1 : Vec F S1024x1024 .f32) (x2 : Vec F S1x1024 .f32) (xs0 : Vec F S512x1024 .f32) :
    Σ' (L3 : List (View.Piece (Elt F) S512x1024 .bf16)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1_kernel i arg3 harg3 arg4 harg4 arg5 harg5 arg6 harg6 arg7 harg7) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frm

end
-- ==== Proof.FrameI.R1F.lean ====
import proofs.«162881_j71614284693592_1_alg».proof.Proof.FrameI.R1RunC

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: what its output block and its accumulator hold, point by point; the proof data; the body obligation -/

/-- What case A leaves in the output block's staging buffer (nothing is stored: a placeholder no one reads). -/
def out1_A_3 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : cond1_0 i) (hc1 : ¬cond1_1 i)
    (x0 : Vec F S512x1024 .bf16) (x1 : Vec F S1024x1024 .f32) (x2 : Vec F S1x1024 .f32) : Vec F S512x1024 .bf16 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : cond1_0 i) (hc1 : ¬cond1_1 i)
    (x0 : Vec F S512x1024 .bf16) (x1 : Vec F S1024x1024 .f32) (x2 : Vec F S1x1024 .f32) (y : S512x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S512x1024.size (by sl_kernel_rfl) y

/-- What case A leaves in the accumulator. -/
def sout1_A_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : cond1_0 i) (hc1 : ¬cond1_1 i)
    (x0 : Vec F S512x1024 .bf16) (x1 : Vec F S1024x1024 .f32) (x2 : Vec F S1x1024 .f32) : Vec F S512x1024 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output block's staging buffer (nothing is stored: a placeholder no one reads). -/
def out1_B_3 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : ¬cond1_1 i)
    (x0 : Vec F S512x1024 .bf16) (x1 : Vec F S1024x1024 .f32) (x2 : Vec F S1x1024 .f32) (xs0 : Vec F S512x1024 .f32) : Vec F S512x1024 .bf16 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : ¬cond1_1 i)
    (x0 : Vec F S512x1024 .bf16) (x1 : Vec F S1024x1024 .f32) (x2 : Vec F S1x1024 .f32) (xs0 : Vec F S512x1024 .f32) (y : S512x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S512x1024.size (by sl_kernel_rfl) y

/-- What case B leaves in the accumulator. -/
def sout1_B_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : ¬cond1_1 i)
    (x0 : Vec F S512x1024 .bf16) (x1 : Vec F S1024x1024 .f32) (x2 : Vec F S1x1024 .f32) (xs0 : Vec F S512x1024 .f32) : Vec F S512x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- At the last reduction step the one store into the output block covers it. -/
theorem cover1_C_3 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : cond1_1 i)
    (x0 : Vec F S512x1024 .bf16) (x1 : Vec F S1024x1024 .f32) (x2 : Vec F S1x1024 .f32) (xs0 : Vec F S512x1024 .f32) (y : S512x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S512x1024.size (by sl_kernel_rfl) y

/-- What case C leaves in the output block's staging buffer. -/
def out1_C_3 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : cond1_1 i)
    (x0 : Vec F S512x1024 .bf16) (x1 : Vec F S1024x1024 .f32) (x2 : Vec F S1x1024 .f32) (xs0 : Vec F S512x1024 .f32) : Vec F S512x1024 .bf16 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : cond1_1 i)
    (x0 : Vec F S512x1024 .bf16) (x1 : Vec F S1024x1024 .f32) (x2 : Vec F S1x1024 .f32) (xs0 : Vec F S512x1024 .f32) (y : S512x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S512x1024.size (by sl_kernel_rfl) y

/-- What case C leaves in the accumulator. -/
def sout1_C_0 (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : cond1_1 i)
    (x0 : Vec F S512x1024 .bf16) (x1 : Vec F S1024x1024 .f32) (x2 : Vec F S1x1024 .f32) (xs0 : Vec F S512x1024 .f32) : Vec F S512x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

section
variable (V : (c : Dev nD) → (b : Ref sig .tc) → Buf (Elt F) ((c : Thread nD τ).loc b))

/-- THE ACCUMULATION. What the output block's staging buffer and the accumulator hold after the body at
    position `n`: the case the closed forms select there, run at the point's memrefs and input blocks, the
    accumulator entering at what position `n - 1` left. -/
def outsAt1 (c : Dev nD) : (n : ℕ) → n < cfg1.N → Vec F S512x1024 .bf16 × Vec F S512x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at
    anything); afterwards the accumulator at what the point before left in it, the other scoped buffers at
    anything, the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ restBut1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ restBut1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ restBut1 c) ∗ (∃ r, prngReg c r)) := by
  cases n with
  | zero => exact absurd rfl hz
  | succ n => rfl

/-! ## The proof data -/

/-- The proof data of pipeline 1 on core `c`: the arrays as the region finds them; after the body at point `t`
    each input's buffer at its block and the output's at `outsAt1`; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the closed forms say which case the point is in; the inputs' buffers hold their blocks;
    the invariant hands the body the accumulator at what the point before left (at anything at the first point)
    and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      ·
        rw [PhiS1_castSucc V c t, PhiS1_zero V c _ _ hz, PhiA1_eq]
        iintro ⟨⟨⟨HS0, HB⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover1_A_0 c _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

      ·
        rw [PhiS1_castSucc V c t, PhiS1_pos V c _ _ hz]
        iintro ⟨⟨⟨HS0, HB⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover1_A_0 c _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      ·
        rw [PhiS1_castSucc V c t, PhiS1_pos V c _ _ hz]
        iintro ⟨⟨⟨HS0, HB⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover1_C_0 c _ _ _ _ _ _ _ _ _ _ _ _ _ _ _ _ _)
            iexact HB
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)

    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      ·
        rw [PhiS1_castSucc V c t, PhiS1_pos V c _ _ hz]
        iintro ⟨⟨⟨HS0, HB⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover1_B_0 c _ _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, HB⟩, Hg⟩
  isplitl [HS0 HB]
  · isplitl [HS0]
    · iexists _; iexact HS0
    iexact HB
  iexact Hg

end

end Cert.KernelIdeal.Frm

end
-- ==== Proof.FrameI.R2S.lean ====
import proofs.«162881_j71614284693592_1_alg».proof.Proof.Gen.KernelIdeal.Launch
import proofs.«162881_j71614284693592_1_alg».proof.Proof.Gen.KernelIdeal.Skeleton
import proofs.«162881_j71614284693592_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: what the three control cases of its body share

The body zeroes its accumulator at the first reduction step, adds one block product at every step, and at the
last step adds the bias terms and stores the output block. The contents of the arrays when the region is
entered are a parameter `V`. -/

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end

/-! ## The two branch conditions, decided over the grid -/

/-- The first branch (zero the accumulator) is taken when the reduction coordinate is 0. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second branch (the epilogue and the output store) is taken when the reduction coordinate is 3, the last. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
theorem idleAt2_3_B : ∀ t : Fin cfg2.N, ¬cond2_0 (grid2.coords t) → ¬cond2_1 (grid2.coords t) → cfg2.idle 3 (grid2.coords t) = true := by decide +kernel
theorem noFlush2_3_B : ∀ t : Fin cfg2.N, ¬cond2_0 (grid2.coords t) → ¬cond2_1 (grid2.coords t) → (cfg2.win 3).flush t = false := by decide +kernel
theorem liveAt2_3_C : ∀ t : Fin cfg2.N, ¬cond2_0 (grid2.coords t) → cond2_1 (grid2.coords t) → cfg2.idle 3 (grid2.coords t) = false := by decide +kernel

/-! ## The staging and scratch memrefs -/

/-- One staging buffer of the output window, through which its contents are stated. -/
abbrev VO2_3 : View sig .tc .vmem S512x1024 .f32 := (Memref.whole cc2_stg3_0 : Memref sig .tc .vmem S512x1024 .f32).view
abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, carried from point to point. -/
abbrev scM2_0 : Memref sig .tc .vmem S512x1024 .f32 := Memref.whole cc2_scratch0
abbrev VS2_0 : View sig .tc .vmem S512x1024 .f32 := scM2_0.view

/-- The scoped buffers that are neither a staging buffer of this call nor its accumulator. -/
abbrev restBut2 (c : Dev nD) : sProp 𝕄 :=
  Pipeline.scopedRestBut (Ix := Unit) (Name := ℕ) (U := UR sig nD τ) (Lvl := ℕ) (Val := Elt F) spec2 c [cc2_scratch0]

/-- The class invariant with the accumulator split off as a memref owned at some contents. -/
theorem PhiA2_eq (c : Dev nD) :
    (Pipeline.ΦA spec2 c : sProp 𝕄)
      = iprop(iprop((∃ d, owns (c : Thread nD τ) scM2_0 fullShare d) ∗ restBut2 c) ∗ (∃ r, prngReg c r)) := by
  unfold Pipeline.ΦA
  rw [Pipeline.scopedRest_split_of_list spec2 c [cc2_scratch0] (by decide) (by decide)]
  simp only [scM2_0, owns_whole]; try rfl

end Cert.KernelIdeal.Frm

end
-- ==== Proof.FrameI.R2RunA.lean ====
import proofs.«162881_j71614284693592_1_alg».proof.Proof.FrameI.R2S

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the first reduction step: the accumulator is zeroed, one block product is added, nothing is stored into the output block. On whole memrefs, the inputs' at their contents, it runs to a state holding the
    inputs as they were and the accumulator (and, at the last step, the output block) with the listed pieces
    written; the pieces are found by running the body symbolically. -/
noncomputable def kernelRun2_A (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .f32) (x2 : Vec F S1x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg3 harg3 arg4 harg4 arg5 harg5 arg6 harg6 arg7 harg7) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frm

end
-- ==== Proof.FrameI.R2RunB.lean ====
import proofs.«162881_j71614284693592_1_alg».proof.Proof.FrameI.R2RunA

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a middle reduction step: one block product is added to the accumulator, nothing is stored into the output block. On whole memrefs, the inputs' at their contents, it runs to a state holding the
    inputs as they were and the accumulator (and, at the last step, the output block) with the listed pieces
    written; the pieces are found by running the body symbolically. -/
noncomputable def kernelRun2_B (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .f32) (x2 : Vec F S1x1024 .f32) (xs0 : Vec F S512x1024 .f32) :
    Σ' (L3 : List (View.Piece (Elt F) S512x1024 .f32)), { LS0 : List (View.Piece (Elt F) S512x1024 .f32) //
      ∀ (xi3 : Vec F S512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg3 harg3 arg4 harg4 arg5 harg5 arg6 harg6 arg7 harg7) K } := by
  refine ⟨[], ?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frm

end
-- ==== Proof.FrameI.R2RunC.lean ====
import proofs.«162881_j71614284693592_1_alg».proof.Proof.FrameI.R2RunB

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at the last reduction step: one block product is added, then the bias terms are applied and the output block is stored. On whole memrefs, the inputs' at their contents, it runs to a state holding the
    inputs as they were and the accumulator (and, at the last step, the output block) with the listed pieces
    written; the pieces are found by running the body symbolically. -/
noncomputable def kernelRun2_C (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .f32) (x2 : Vec F S1x1024 .f32) (xs0 : Vec F S512x1024 .f32) :
    Σ' (L3 : List (View.Piece (Elt F) S512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2_kernel i arg3 harg3 arg4 harg4 arg5 harg5 arg6 harg6 arg7 harg7) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frm

end
-- ==== Proof.FrameI.R2F.lean ====
import proofs.«162881_j71614284693592_1_alg».proof.Proof.FrameI.R2RunC

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: what its output block and its accumulator hold, point by point; the proof data; the body obligation -/

/-- What case A leaves in the output block's staging buffer (nothing is stored: a placeholder no one reads). -/
def out2_A_3 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .f32) (x2 : Vec F S1x1024 .f32) : Vec F S512x1024 .f32 :=
  VO2_3.read (Elt F) (VO2_3.writes (Elt F) VO2_3.junk (kernelRun2_A c i arg3 harg3 arg4 harg4 arg5 harg5 arg6 harg6 arg7 harg7 hc0 hc1 x0 x1 x2).1)

/-- Case A's stores into the accumulator cover it. -/
theorem scover2_A_0 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .f32) (x2 : Vec F S1x1024 .f32) (y : S512x1024.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S512x1024.size (by sl_kernel_rfl) y

/-- What case A leaves in the accumulator. -/
def sout2_A_0 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .f32) (x2 : Vec F S1x1024 .f32) : Vec F S512x1024 .f32 :=
  VS2_0.read (Elt F) (VS2_0.writes (Elt F) VS2_0.junk (kernelRun2_A c i arg3 harg3 arg4 harg4 arg5 harg5 arg6 harg6 arg7 harg7 hc0 hc1 x0 x1 x2).2.1)

/-- What case B leaves in the output block's staging buffer (nothing is stored: a placeholder no one reads). -/
def out2_B_3 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .f32) (x2 : Vec F S1x1024 .f32) (xs0 : Vec F S512x1024 .f32) : Vec F S512x1024 .f32 :=
  VO2_3.read (Elt F) (VO2_3.writes (Elt F) VO2_3.junk (kernelRun2_B c i arg3 harg3 arg4 harg4 arg5 harg5 arg6 harg6 arg7 harg7 hc0 hc1 x0 x1 x2 xs0).1)

/-- Case B's stores into the accumulator cover it. -/
theorem scover2_B_0 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .f32) (x2 : Vec F S1x1024 .f32) (xs0 : Vec F S512x1024 .f32) (y : S512x1024.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S512x1024.size (by sl_kernel_rfl) y

/-- What case B leaves in the accumulator. -/
def sout2_B_0 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .f32) (x2 : Vec F S1x1024 .f32) (xs0 : Vec F S512x1024 .f32) : Vec F S512x1024 .f32 :=
  VS2_0.read (Elt F) (VS2_0.writes (Elt F) VS2_0.junk (kernelRun2_B c i arg3 harg3 arg4 harg4 arg5 harg5 arg6 harg6 arg7 harg7 hc0 hc1 x0 x1 x2 xs0).2.1)

/-- At the last reduction step the one store into the output block covers it. -/
theorem cover2_C_3 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .f32) (x2 : Vec F S1x1024 .f32) (xs0 : Vec F S512x1024 .f32) (y : S512x1024.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S512x1024.size (by sl_kernel_rfl) y

/-- What case C leaves in the output block's staging buffer. -/
def out2_C_3 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .f32) (x2 : Vec F S1x1024 .f32) (xs0 : Vec F S512x1024 .f32) : Vec F S512x1024 .f32 :=
  VO2_3.read (Elt F) (VO2_3.writes (Elt F) VO2_3.junk (kernelRun2_C c i arg3 harg3 arg4 harg4 arg5 harg5 arg6 harg6 arg7 harg7 hc0 hc1 x0 x1 x2 xs0).1)

/-- Case C's stores into the accumulator cover it. -/
theorem scover2_C_0 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .f32) (x2 : Vec F S1x1024 .f32) (xs0 : Vec F S512x1024 .f32) (y : S512x1024.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S512x1024.size (by sl_kernel_rfl) y

/-- What case C leaves in the accumulator. -/
def sout2_C_0 (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .f32) (x2 : Vec F S1x1024 .f32) (xs0 : Vec F S512x1024 .f32) : Vec F S512x1024 .f32 :=
  VS2_0.read (Elt F) (VS2_0.writes (Elt F) VS2_0.junk (kernelRun2_C c i arg3 harg3 arg4 harg4 arg5 harg5 arg6 harg6 arg7 harg7 hc0 hc1 x0 x1 x2 xs0).2.1)

section
variable (V : (c : Dev nD) → (b : Ref sig .tc) → Buf (Elt F) ((c : Thread nD τ).loc b))

/-- THE ACCUMULATION. What the output block's staging buffer and the accumulator hold after the body at
    position `n`: the case the closed forms select there, run at the point's memrefs and input blocks, the
    accumulator entering at what position `n - 1` left. -/
def outsAt2 (c : Dev nD) : (n : ℕ) → n < cfg2.N → Vec F S512x1024 .f32 × Vec F S512x1024 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 4 = 0 then
      if h1 : (n + 1) % 4 = 3 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 4 = 3 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at
    anything); afterwards the accumulator at what the point before left in it, the other scoped buffers at
    anything, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ restBut2 c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ restBut2 c) ∗ (∃ r, prngReg c r)) := by
  cases n with
  | zero => exact absurd rfl hz
  | succ n => rfl

/-! ## The proof data -/

/-- The proof data of pipeline 2 on core `c`: the arrays as the region finds them; after the body at point `t`
    each input's buffer at its block and the output's at `outsAt2`; the invariant `PhiS2`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the closed forms say which case the point is in; the inputs' buffers hold their blocks;
    the invariant hands the body the accumulator at what the point before left (at anything at the first point)
    and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · by_cases h1 : t.val % 4 = 3
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      ·
        rw [PhiS2_castSucc V c t, PhiS2_zero V c _ _ hz, PhiA2_eq]
        iintro ⟨⟨⟨HS0, HB⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover2_A_0 c _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

      ·
        rw [PhiS2_castSucc V c t, PhiS2_pos V c _ _ hz]
        iintro ⟨⟨⟨HS0, HB⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover2_A_0 c _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

  · by_cases h1 : t.val % 4 = 3
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      ·
        rw [PhiS2_castSucc V c t, PhiS2_pos V c _ _ hz]
        iintro ⟨⟨⟨HS0, HB⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover2_C_0 c _ _ _ _ _ _ _ _ _ _ _ _ _ _ _ _ _)
            iexact HB
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)

    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_B t (fun h => h0 ((hcond2_0 t).mp h)) (fun h => h1 ((hcond2_1 t).mp h))) (noFlush2_3_B t (fun h => h0 ((hcond2_0 t).mp h)) (fun h => h1 ((hcond2_1 t).mp h)))]
      rw [outsAt2_B V c t h0 h1]
      unfold sout2_B_0; (try dsimp only)
      by_cases hz : t.val = 0
      · exfalso; omega
      ·
        rw [PhiS2_castSucc V c t, PhiS2_pos V c _ _ hz]
        iintro ⟨⟨⟨HS0, HB⟩, Hg⟩, Ho, ⟨%d0, H0⟩, ⟨%d1, H1⟩, ⟨%d2, H2⟩, ⟨%d3, H3⟩⟩
        iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HB Hg]
        · isplitl [HS0 HB]
          · isplitl [HS0]
            · unfold owns; iexists _; isplitr
              swap; · iexact HS0
              ipureintro; exact View.read_writes_of_cover _ _ _ _ _ (scover2_B_0 c _ _ _ _ _ _ _ _ _ _ _ _ _ _ _ _ _)
            iexact HB
          iexact Hg
        isplitl [Ho]; · iexact Ho
        isplitl [H0]; · iexact H0
        isplitl [H1]; · iexact H1
        isplitl [H2]; · iexact H2
        iexists _; iexact H3

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega), PhiA2_eq]
  iintro ⟨⟨HS0, HB⟩, Hg⟩
  isplitl [HS0 HB]
  · isplitl [HS0]
    · iexists _; iexact HS0
    iexact HB
  iexact Hg

end

end Cert.KernelIdeal.Frm

end
-- ==== Proof.FrameI.Asm.lean ====
import proofs.«162881_j71614284693592_1_alg».proof.Proof.FrameI.R0F
import proofs.«162881_j71614284693592_1_alg».proof.Proof.FrameI.R1F
import proofs.«162881_j71614284693592_1_alg».proof.Proof.FrameI.R2F
import proofs.«162881_j71614284693592_1_alg».proof.Proof.Gen.KernelIdeal.Regions

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The whole run: the host stretch, then the three regions

The buffers' contents at each boundary are a fold from the launch memory: the host stretch's results, then each
region's arrays at what its write-backs leave. -/

variable (m : (ℓ : Loc nD τ sig) → Buf (Elt F) ℓ) (ρ : Dev nD → PrngReg)

/-- Core `c`'s buffers at launch. -/
abbrev W0 (c : Dev nD) : Valuation τ sig (Elt F) := fun b => m (c, b)
/-- After the host stretch (the reshapes and column slices of the bias vectors). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- The buffers at region 0's exit: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input window's array leaves region 0 as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-- The buffers at region 1's exit: its arrays at what its write-backs leave, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- An input window's array leaves region 1 as it entered. -/
theorem W3_in (c : Dev nD) (w : Fin cfg1.W) (hw : (cfg1.win w).isOut = false) :
    W3 m c (Proc.devRef .tc (Pipeline.arrRef spec1 w)) = W2 m c (Proc.devRef .tc (Pipeline.arrRef spec1 w)) :=
  (W3_arr m c w).trans (((dat1 (V2 m) c).arrAt_in w hw _).trans (A_eq1 (V2 m) c w))

/-- The buffers at region 2's exit: its arrays at what its write-backs leave, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)
/-- An input window's array leaves region 2 as it entered. -/
theorem W4_in (c : Dev nD) (w : Fin cfg2.W) (hw : (cfg2.win w).isOut = false) :
    W4 m c (Proc.devRef .tc (Pipeline.arrRef spec2 w)) = W3 m c (Proc.devRef .tc (Pipeline.arrRef spec2 w)) :=
  (W4_arr m c w).trans (((dat2 (V3 m) c).arrAt_in w hw _).trans (A_eq2 (V3 m) c w))

/-! ## The proof data family and the thread state -/

abbrev admF : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) admF p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0 over the thread state: entered from every unscoped buffer at `W1`, left at `W2`. Its arrays are
    split out of the unscoped buffers and put back at what its write-backs leave; the generator register goes into
    the region invariant and comes back; nothing is owed; the kernel has no semaphore of its own. -/
def reg0 : Pipeline.RegionSeg (pcfgs (F := F)) admF (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admF (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at what its write-backs leave; the generator register goes into
    the region invariant and comes back; nothing is owed; the kernel has no semaphore of its own. -/
def reg1 : Pipeline.RegionSeg (pcfgs (F := F)) admF (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) admF (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admF (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are
    split out of the unscoped buffers and put back at what its write-backs leave; the generator register goes into
    the region invariant and comes back; nothing is owed; the kernel has no semaphore of its own. -/
def reg2 : Pipeline.RegionSeg (pcfgs (F := F)) admF (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) admF (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V3 m) c)
    unfold Pipeline.ΦA
    iintro ⟨Hp, -, Hr⟩
    isplitl [Hr]; · iexact Hr
    iexact Hp
  hout c := by
    rw [Pipeline.ownSems0_none]
    refine (hout2 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) admF (pdats m) () defs₀ 𝒱₀ L lv) :=
  [ .host (hseg hostOps0 hostOps0_sub hostOps0_fresh (W0 m)),
    .region (reg0 m),
    .region (reg1 m),
    .region (reg2 m) ]
theorem main_run (c : Dev nD) : main (F := F) c = Pipeline.Seg.run (segs m) := (main_chain c).trans (by chain_rfl)

set_option backward.isDefEq.respectTransparency.types false in
/-- THE RUN. From any memory with zero counters, every weakly fair execution of @main on the TensorCores
    terminates, nothing faulting, and every final state holds every unscoped buffer at the last boundary's
    contents `W4`: the arguments, the host stretch's results, and each region's result at what its write-backs leave. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) admF (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

end Cert.KernelIdeal.Frm

end
-- ==== Proof.FrameI.Post.lean ====
import proofs.«162881_j71614284693592_1_alg».proof.Proof.FrameI.Asm

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run's post, read at the arguments and at the result -/

variable (m : (ℓ : Loc nD τ sig) → Buf (Elt F) ℓ) (ρ : Dev nD → PrngReg)

/-- Argument 0 reaches the end as launched: the host stretch does not write it and a region only reads it. -/
theorem W4_main_arg0 (c : Dev nD) : W4 m c (Proc.devRef .tc main_arg0) = m ((c : Thread nD τ).loc main_arg0) :=
  (W4_of_ne m c main_arg0 (by decide)).trans ((W3_of_ne m c main_arg0 (by decide)).trans ((W2_in m c 0 rfl).trans (Gen.V1_of m c main_arg0 (by decide))))
/-- Argument 1 reaches the end as launched: the host stretch does not write it and a region only reads it. -/
theorem W4_main_arg1 (c : Dev nD) : W4 m c (Proc.devRef .tc main_arg1) = m ((c : Thread nD τ).loc main_arg1) :=
  (W4_of_ne m c main_arg1 (by decide)).trans ((W3_of_ne m c main_arg1 (by decide)).trans ((W2_in m c 1 rfl).trans (Gen.V1_of m c main_arg1 (by decide))))
/-- Argument 2 reaches the end as launched: the host stretch does not write it and a region only reads it. -/
theorem W4_main_arg2 (c : Dev nD) : W4 m c (Proc.devRef .tc main_arg2) = m ((c : Thread nD τ).loc main_arg2) :=
  (W4_of_ne m c main_arg2 (by decide)).trans ((W3_of_ne m c main_arg2 (by decide)).trans ((W2_of_ne m c main_arg2 (by decide)).trans (Gen.V1_of m c main_arg2 (by decide))))
/-- Argument 3 reaches the end as launched: the host stretch does not write it and a region only reads it. -/
theorem W4_main_arg3 (c : Dev nD) : W4 m c (Proc.devRef .tc main_arg3) = m ((c : Thread nD τ).loc main_arg3) :=
  (W4_of_ne m c main_arg3 (by decide)).trans ((W3_of_ne m c main_arg3 (by decide)).trans ((W2_of_ne m c main_arg3 (by decide)).trans (Gen.V1_of m c main_arg3 (by decide))))
/-- Argument 4 reaches the end as launched: the host stretch does not write it and a region only reads it. -/
theorem W4_main_arg4 (c : Dev nD) : W4 m c (Proc.devRef .tc main_arg4) = m ((c : Thread nD τ).loc main_arg4) :=
  (W4_of_ne m c main_arg4 (by decide)).trans ((W3_of_ne m c main_arg4 (by decide)).trans ((W2_of_ne m c main_arg4 (by decide)).trans (Gen.V1_of m c main_arg4 (by decide))))
/-- Argument 5 reaches the end as launched: the host stretch does not write it and a region only reads it. -/
theorem W4_main_arg5 (c : Dev nD) : W4 m c (Proc.devRef .tc main_arg5) = m ((c : Thread nD τ).loc main_arg5) :=
  (W4_of_ne m c main_arg5 (by decide)).trans ((W3_of_ne m c main_arg5 (by decide)).trans ((W2_of_ne m c main_arg5 (by decide)).trans (Gen.V1_of m c main_arg5 (by decide))))
/-- Argument 6 reaches the end as launched: the host stretch does not write it and a region only reads it. -/
theorem W4_main_arg6 (c : Dev nD) : W4 m c (Proc.devRef .tc main_arg6) = m ((c : Thread nD τ).loc main_arg6) :=
  (W4_of_ne m c main_arg6 (by decide)).trans ((W3_of_ne m c main_arg6 (by decide)).trans ((W2_of_ne m c main_arg6 (by decide)).trans (Gen.V1_of m c main_arg6 (by decide))))
/-- Argument 7 reaches the end as launched: the host stretch does not write it and a region only reads it. -/
theorem W4_main_arg7 (c : Dev nD) : W4 m c (Proc.devRef .tc main_arg7) = m ((c : Thread nD τ).loc main_arg7) :=
  (W4_of_ne m c main_arg7 (by decide)).trans ((W3_in m c 1 rfl).trans ((W2_of_ne m c main_arg7 (by decide)).trans (Gen.V1_of m c main_arg7 (by decide))))
/-- Argument 8 reaches the end as launched: the host stretch does not write it and a region only reads it. -/
theorem W4_main_arg8 (c : Dev nD) : W4 m c (Proc.devRef .tc main_arg8) = m ((c : Thread nD τ).loc main_arg8) :=
  (W4_of_ne m c main_arg8 (by decide)).trans ((W3_of_ne m c main_arg8 (by decide)).trans ((W2_of_ne m c main_arg8 (by decide)).trans (Gen.V1_of m c main_arg8 (by decide))))
/-- Argument 9 reaches the end as launched: the host stretch does not write it and a region only reads it. -/
theorem W4_main_arg9 (c : Dev nD) : W4 m c (Proc.devRef .tc main_arg9) = m ((c : Thread nD τ).loc main_arg9) :=
  (W4_in m c 1 rfl).trans ((W3_of_ne m c main_arg9 (by decide)).trans ((W2_of_ne m c main_arg9 (by decide)).trans (Gen.V1_of m c main_arg9 (by decide))))
/-- Argument 10 reaches the end as launched: the host stretch does not write it and a region only reads it. -/
theorem W4_main_arg10 (c : Dev nD) : W4 m c (Proc.devRef .tc main_arg10) = m ((c : Thread nD τ).loc main_arg10) :=
  (W4_of_ne m c main_arg10 (by decide)).trans ((W3_of_ne m c main_arg10 (by decide)).trans ((W2_of_ne m c main_arg10 (by decide)).trans (Gen.V1_of m c main_arg10 (by decide))))

/-- THE FRAME: every weakly fair execution terminates, nothing faulting, the arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c)⟩) (run m ρ)

/-- The run with the result array named: it ends at the last boundary's contents of the third region's result. -/
theorem run_result : θ_run defs (onTc (τ := τ) (main (F := F))) ⟨m, fun _ => 0, ρ⟩ (fun r => ∀ c : Dev nD,
      r.2.mem ((c.tc : Thread nD τ).loc main_v13) = W4 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v13 (by decide)),
    (h c _ (mem_uc main_arg0 (by decide))).trans (W4_main_arg0 m c),
    (h c _ (mem_uc main_arg1 (by decide))).trans (W4_main_arg1 m c),
    (h c _ (mem_uc main_arg2 (by decide))).trans (W4_main_arg2 m c),
    (h c _ (mem_uc main_arg3 (by decide))).trans (W4_main_arg3 m c),
    (h c _ (mem_uc main_arg4 (by decide))).trans (W4_main_arg4 m c),
    (h c _ (mem_uc main_arg5 (by decide))).trans (W4_main_arg5 m c),
    (h c _ (mem_uc main_arg6 (by decide))).trans (W4_main_arg6 m c),
    (h c _ (mem_uc main_arg7 (by decide))).trans (W4_main_arg7 m c),
    (h c _ (mem_uc main_arg8 (by decide))).trans (W4_main_arg8 m c),
    (h c _ (mem_uc main_arg9 (by decide))).trans (W4_main_arg9 m c),
    (h c _ (mem_uc main_arg10 (by decide))).trans (W4_main_arg10 m c)⟩) (run m ρ)

end Cert.KernelIdeal.Frm

end
-- ==== Proof.FrameI.R0P.lean ====
import proofs.«162881_j71614284693592_1_alg».proof.Proof.FrameI.R0F
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the pieces the three cases leave, as the body's payload terms

Every load and store of the body goes through the whole-shape rectangle at zero offsets, so each buffer ends at
the payload of its last store, and a load after a store reads that store's payload. -/

theorem hz0 : (![0, 0] : Fin 2 → ℕ) = fun _ => 0 := by
  funext a; match a with | ⟨0, _⟩ => rfl | ⟨1, _⟩ => rfl

/-- First reduction step: the accumulator ends at the zero block plus the first block product. -/
theorem sout0_A_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) :
    sout0_A_0 c i arg3 harg3 arg4 harg4 arg5 harg5 arg6 harg6 arg7 harg7 arg8 harg8 arg9 harg9 arg10 harg10 arg11 harg11 hc0 hc1 x0 x1 x2 x3 x4 x5 x6 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero hz0]
  simp only [View.readAt_eq_ld, harg3.read_unread, harg4.read_unread, harg5.read_unread, harg6.read_unread, harg7.read_unread, harg8.read_unread, harg9.read_unread, harg11.read_unread, View.ld_unit_zero (S := S512x1024) hz0, View.ld_unit_zero (S := S1024x1024) hz0, View.ld_unit_zero (S := S1x1024) hz0, View.readCov_unit_zero (S := S512x1024) _ hz0]

/-- A middle reduction step: the accumulator ends at what it held plus this step's block product. -/
theorem sout0_B_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : ¬cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) :
    sout0_B_0 c i arg3 harg3 arg4 harg4 arg5 harg5 arg6 harg6 arg7 harg7 arg8 harg8 arg9 harg9 arg10 harg10 arg11 harg11 hc0 hc1 x0 x1 x2 x3 x4 x5 x6 xs0 = k0_pay2 x0 x1 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz0]
  simp only [View.readAt_eq_ld, harg3.read_unread, harg4.read_unread, harg5.read_unread, harg6.read_unread, harg7.read_unread, harg8.read_unread, harg9.read_unread, harg11.read_unread, View.ld_unit_zero (S := S512x1024) hz0, View.ld_unit_zero (S := S1024x1024) hz0, View.ld_unit_zero (S := S1x1024) hz0, View.readCov_unit_zero (S := S512x1024) _ hz0]

/-- The last reduction step: the accumulator as at a middle step, -/
theorem sout0_C_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) :
    sout0_C_0 c i arg3 harg3 arg4 harg4 arg5 harg5 arg6 harg6 arg7 harg7 arg8 harg8 arg9 harg9 arg10 harg10 arg11 harg11 hc0 hc1 x0 x1 x2 x3 x4 x5 x6 xs0 = k0_pay2 x0 x1 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz0]
  simp only [View.readAt_eq_ld, harg3.read_unread, harg4.read_unread, harg5.read_unread, harg6.read_unread, harg7.read_unread, harg8.read_unread, harg9.read_unread, harg11.read_unread, View.ld_unit_zero (S := S512x1024) hz0, View.ld_unit_zero (S := S1024x1024) hz0, View.ld_unit_zero (S := S1x1024) hz0, View.readCov_unit_zero (S := S512x1024) _ hz0]

/-- and the output block is the epilogue of the finished accumulator. -/
theorem out0_C_eq (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S512x1024 .f32) (harg11 : arg11.IsWhole) (hc0 : ¬cond0_0 i) (hc1 : cond0_1 i)
    (x0 : Vec F S512x1024 .f32) (x1 : Vec F S1024x1024 .f32) (x2 : Vec F S1x1024 .f32) (x3 : Vec F S1x1024 .f32) (x4 : Vec F S1x1024 .f32) (x5 : Vec F S1x1024 .f32) (x6 : Vec F S1x1024 .f32) (xs0 : Vec F S512x1024 .f32) :
    out0_C_7 c i arg3 harg3 arg4 harg4 arg5 harg5 arg6 harg6 arg7 harg7 arg8 harg8 arg9 harg9 arg10 harg10 arg11 harg11 hc0 hc1 x0 x1 x2 x3 x4 x5 x6 xs0 = k0_pay3 x2 x3 x4 x5 x6 (k0_pay2 x0 x1 xs0) := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz0]
  simp only [View.readAt_eq_ld, harg3.read_unread, harg4.read_unread, harg5.read_unread, harg6.read_unread, harg7.read_unread, harg8.read_unread, harg9.read_unread, harg11.read_unread, View.ld_unit_zero (S := S512x1024) hz0, View.ld_unit_zero (S := S1024x1024) hz0, View.ld_unit_zero (S := S1x1024) hz0, View.readCov_unit_zero (S := S512x1024) _ hz0]

end Cert.KernelIdeal.Frm

end
-- ==== Proof.Pay.lean ====
/-
  The three kernels' payloads read at one entry, on the extended reals.

  One reduction step adds to the accumulator entry (r, c) the product of row r of the activation block with row c
  of the weight block (the weight block is transposed inside the body, and the roundings to bf16 are the identity
  here). The epilogues add the bias row and apply the layer's pointwise function.
-/
import proofs.«162881_j71614284693592_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val

open Idealize.ShloMosaic Idealize.ShloMosaic.ValueIdx Idealize.ShloMosaic.View
open Cert.KernelIdeal Cert.KernelIdeal.Gen

/-- The dimension numbers of the one matrix product every body makes: [512, 1024] × [1024, 1024] over the
    left operand's second axis and the right operand's first. -/
abbrev DD := dot_S512x1024_S1024x1024_S512x1024_1_0_0_1_n_n

theorem lhs_0 (i : S512x1024.Idx) (q : DD.contr.Idx) : (DD.lhsIdx i q 0).val = (i 0).val := by
  unfold DotDims.lhsIdx
  rw [dif_neg (show ¬(0 : Fin S512x1024.rank) ∈ DD.lhsBatch by decide), dif_pos (show (0 : Fin S512x1024.rank) ∈ DD.lhsNonContracting by decide)]
  rfl
theorem lhs_1 (i : S512x1024.Idx) (q : DD.contr.Idx) : (DD.lhsIdx i q 1).val = (q ⟨0, by decide⟩).val :=
  DD.lhsIdx_val_of_single rfl i q
theorem rhs_0 (i : S512x1024.Idx) (q : DD.contr.Idx) : (DD.rhsIdx i q 0).val = (q ⟨0, by decide⟩).val :=
  DD.rhsIdx_val_of_single rfl i q
theorem rhs_1 (i : S512x1024.Idx) (q : DD.contr.Idx) : (DD.rhsIdx i q 1).val = (i 1).val := by
  unfold DotDims.rhsIdx
  rw [dif_neg (show ¬(1 : Fin S1024x1024.rank) ∈ DD.rhsBatch by decide), dif_pos (show (1 : Fin S1024x1024.rank) ∈ DD.rhsNonContracting by decide)]
  rfl

/-- The product into a zero accumulator, at entry (r, c): row r of the left operand against column c of the right. -/
theorem mm_apply {φ₁ φ₂ : FTy} (a : FVec Ideal S512x1024 φ₁) (b : FVec Ideal S1024x1024 φ₂) (r : Fin 512) (c : Fin 1024) :
    matmul DD none a b (constant S512x1024 .f32 0x00000000#32) (ix2 r c) = ∑ k : Fin 1024, a (ix2 r k) * b (ix2 k c) := by
  refine (Ideal.matmul_constant_zero_apply DD none a b (ix2 r c)).trans ?_
  rw [← Equiv.sum_comp (contrEquiv1 DD 1024 rfl rfl).symm]
  refine Finset.sum_congr rfl fun k _ => ?_
  have hk := contrEquiv1_symm_val DD 1024 rfl rfl k
  have el : DD.lhsIdx (ix2 r c) ((contrEquiv1 DD 1024 rfl rfl).symm k) = ix2 r k := funext fun x => Fin.ext (by
    match x with
    | ⟨0, _⟩ => exact lhs_0 _ _
    | ⟨1, _⟩ => exact (lhs_1 _ _).trans hk)
  have er : DD.rhsIdx (ix2 r c) ((contrEquiv1 DD 1024 rfl rfl).symm k) = ix2 k c := funext fun x => Fin.ext (by
    match x with
    | ⟨0, _⟩ => exact (rhs_0 _ _).trans hk
    | ⟨1, _⟩ => exact rhs_1 _ _)
  rw [el, er]

/-- The weight block after its rounding and its transposition, at (k, c), is the block at (c, k). -/
theorem wT_apply (v5 : Vec Ideal S1024x1024 .f32) (k c : Fin 1024) :
    (transpose S1024x1024 [1, 0] (truncf .bf16 v5 bitsLt_bf16_f32 : FVec Ideal S1024x1024 .bf16) transposes_S1024x1024_p1_0_S1024x1024 : FVec Ideal S1024x1024 .bf16) (ix2 k c) = v5 (ix2 c k) :=
  transpose_ix2_apply _ _ k c

theorem zero_word : (Scalar.ofBits (F := Ideal) .f32 0x00000000#32 : Ideal .f32) = 0 := Ideal.ofBits_zero_f32

/-! ## Kernel 0 -/

/-- The block the accumulator is reset to: zero everywhere. -/
theorem pay1_0 (j : S512x1024.Idx) : k0_pay1 (F := Ideal) j = 0 := by
  unfold k0_pay1
  (try dsimp only)
  rw [shapeCast_self]
  exact zero_word

/-- One reduction step at entry (r, c). -/
theorem pay2_0 (v3 : Vec Ideal S512x1024 .f32) (v5 : Vec Ideal S1024x1024 .f32) (v7 : Vec Ideal S512x1024 .f32) (r : Fin 512) (c : Fin 1024) :
    k0_pay2 (F := Ideal) v3 v5 v7 (ix2 r c) = v7 (ix2 r c) + ∑ k : Fin 1024, v3 (ix2 r k) * v5 (ix2 c k) := by
  unfold k0_pay2
  (try dsimp only)
  rw [shapeCast_self]
  refine congrArg (v7 (ix2 r c) + ·) ?_
  refine (mm_apply _ _ r c).trans ?_
  refine Finset.sum_congr rfl fun k _ => ?_
  rw [wT_apply]
  rfl

/-! ## Kernel 1 -/

/-- The block the accumulator is reset to: zero everywhere. -/
theorem pay1_1 (j : S512x1024.Idx) : k1_pay1 (F := Ideal) j = 0 := by
  unfold k1_pay1
  (try dsimp only)
  rw [shapeCast_self]
  exact zero_word

/-- One reduction step at entry (r, c). -/
theorem pay2_1 (v3 : Vec Ideal S512x1024 .bf16) (v5 : Vec Ideal S1024x1024 .f32) (v7 : Vec Ideal S512x1024 .f32) (r : Fin 512) (c : Fin 1024) :
    k1_pay2 (F := Ideal) v3 v5 v7 (ix2 r c) = v7 (ix2 r c) + ∑ k : Fin 1024, v3 (ix2 r k) * v5 (ix2 c k) := by
  unfold k1_pay2
  (try dsimp only)
  rw [shapeCast_self]
  refine congrArg (v7 (ix2 r c) + ·) ?_
  refine (mm_apply _ _ r c).trans ?_
  refine Finset.sum_congr rfl fun k _ => ?_
  rw [wT_apply]
  rw [shapeCast_self]

/-! ## Kernel 2 -/

/-- The block the accumulator is reset to: zero everywhere. -/
theorem pay1_2 (j : S512x1024.Idx) : k2_pay1 (F := Ideal) j = 0 := by
  unfold k2_pay1
  (try dsimp only)
  rw [shapeCast_self]
  exact zero_word

/-- One reduction step at entry (r, c). -/
theorem pay2_2 (v3 : Vec Ideal S512x1024 .bf16) (v5 : Vec Ideal S1024x1024 .f32) (v7 : Vec Ideal S512x1024 .f32) (r : Fin 512) (c : Fin 1024) :
    k2_pay2 (F := Ideal) v3 v5 v7 (ix2 r c) = v7 (ix2 r c) + ∑ k : Fin 1024, v3 (ix2 r k) * v5 (ix2 c k) := by
  unfold k2_pay2
  (try dsimp only)
  rw [shapeCast_self]
  refine congrArg (v7 (ix2 r c) + ·) ?_
  refine (mm_apply _ _ r c).trans ?_
  refine Finset.sum_congr rfl fun k _ => ?_
  rw [wT_apply]
  rw [shapeCast_self]

/-- Kernel 0's epilogue at entry (r, c): the bias row, then the residual block over the four per-column rows. -/
theorem pay3_0 (v17 v19 v21 v23 v25 : Vec Ideal S1x1024 .f32) (v27 : Vec Ideal S512x1024 .f32) (r : Fin 512) (c : Fin 1024) :
    k0_pay3 (F := Ideal) v17 v19 v21 v23 v25 v27 (ix2 r c)
      = (v27 (ix2 r c) + v17 (ix2 (0 : Fin 1) c))
        + max (max ((v27 (ix2 r c) + v17 (ix2 (0 : Fin 1) c)) * v19 (ix2 (0 : Fin 1) c) + v21 (ix2 (0 : Fin 1) c)) 0
            * v23 (ix2 (0 : Fin 1) c) + v25 (ix2 (0 : Fin 1) c)) 0 := by
  unfold k0_pay3
  (try dsimp only)
  simp only [shapeCast_self]
  show ((v27 (ix2 r c) + broadcastTo S512x1024 v17 broadcasts_S1x1024_S512x1024 (ix2 r c))
        + max (max ((v27 (ix2 r c) + broadcastTo S512x1024 v17 broadcasts_S1x1024_S512x1024 (ix2 r c)) * broadcastTo S512x1024 v19 broadcasts_S1x1024_S512x1024 (ix2 r c) + broadcastTo S512x1024 v21 broadcasts_S1x1024_S512x1024 (ix2 r c)) (Scalar.ofBits (F := Ideal) .f32 0x00000000#32)
            * broadcastTo S512x1024 v23 broadcasts_S1x1024_S512x1024 (ix2 r c) + broadcastTo S512x1024 v25 broadcasts_S1x1024_S512x1024 (ix2 r c)) (Scalar.ofBits (F := Ideal) .f32 0x00000000#32)) = _
  rw [zero_word]
  simp only [broadcastTo_1b_ab_apply]

/-- Kernel 1's epilogue at entry (r, c): the bias row, then the relu. -/
theorem pay3_1 (v17 : Vec Ideal S1x1024 .f32) (v19 : Vec Ideal S512x1024 .f32) (r : Fin 512) (c : Fin 1024) :
    k1_pay3 (F := Ideal) v17 v19 (ix2 r c) = max (v19 (ix2 r c) + v17 (ix2 (0 : Fin 1) c)) 0 := by
  unfold k1_pay3
  (try dsimp only)
  simp only [shapeCast_self]
  show max (v19 (ix2 r c) + broadcastTo S512x1024 v17 broadcasts_S1x1024_S512x1024 (ix2 r c)) (Scalar.ofBits (F := Ideal) .f32 0x00000000#32) = _
  rw [zero_word, broadcastTo_1b_ab_apply]

/-- Kernel 2's epilogue at entry (r, c): the bias row. -/
theorem pay3_2 (v17 : Vec Ideal S1x1024 .f32) (v19 : Vec Ideal S512x1024 .f32) (r : Fin 512) (c : Fin 1024) :
    k2_pay3 (F := Ideal) v17 v19 (ix2 r c) = v19 (ix2 r c) + v17 (ix2 (0 : Fin 1) c) := by
  unfold k2_pay3
  (try dsimp only)
  simp only [shapeCast_self]
  show v19 (ix2 r c) + broadcastTo S512x1024 v17 broadcasts_S1x1024_S512x1024 (ix2 r c) = _
  rw [broadcastTo_1b_ab_apply]

end Cert.KernelIdeal.Val

end
-- ==== Proof.LibSumSplit.lean ====
/-
  Finite sums over `Fin (m + n)` and `Fin (m * n)` split by blocks: a sum over 39 fields as the first 13 plus the
  last 26, and a sum over 2496 columns as 13 blocks of 64 followed by 26 blocks of 64. Commutative-monoid facts.
-/
import Mathlib.Algebra.BigOperators.Fin

open scoped BigOperators

namespace Cert.Lib.SumSplit

variable {M : Type*} [AddCommMonoid M]

/-- A sum over `Fin (m + n)` is the sum over the first `m` indices plus the sum over the last `n`, the latter
    written `m + j`. -/
theorem sum_fin_add_split (m n : ℕ) (h : Fin (m + n) → M) :
    ∑ g, h g = (∑ f : Fin m, h ⟨f.val, by omega⟩) + ∑ j : Fin n, h ⟨m + j.val, by omega⟩ :=
  Fin.sum_univ_add h

/-- A sum over `Fin (m * n)` is the double sum over `m` blocks of `n` consecutive indices, index `n * f + e` being
    position `e` of block `f`. -/
theorem sum_fin_mul_split (m n : ℕ) (h : Fin (m * n) → M) :
    ∑ k, h k = ∑ f : Fin m, ∑ e : Fin n, h ⟨n * f.val + e.val, by
      have := f.isLt; have := e.isLt
      calc n * f.val + e.val < n * f.val + n := by omega
        _ = n * (f.val + 1) := (Nat.mul_succ n f.val).symm
        _ ≤ n * m := Nat.mul_le_mul_left n (by omega)
        _ = m * n := Nat.mul_comm n m⟩ := by
  rw [← Equiv.sum_comp finProdFinEquiv h, Fintype.sum_prod_type]
  refine Finset.sum_congr rfl fun f _ => Finset.sum_congr rfl fun e _ => congrArg h (Fin.ext ?_)
  show e.val + n * f.val = n * f.val + e.val
  omega

/-- A sum over 39 indices: the first 13, then the last 26 written `13 + j`. -/
theorem sum_fin39_split (h : Fin 39 → M) :
    ∑ g, h g = (∑ f : Fin 13, h ⟨f.val, by omega⟩) + ∑ j : Fin 26, h ⟨13 + j.val, by omega⟩ :=
  sum_fin_add_split 13 26 h

/-- A sum over 2496 indices: 13 blocks of 64 (index `64 f + e`), then 26 blocks of 64 (index `832 + 64 j + e`). -/
theorem sum_fin2496_split (h : Fin 2496 → M) :
    ∑ k, h k = (∑ f : Fin 13, ∑ e : Fin 64, h ⟨64 * f.val + e.val, by omega⟩)
      + ∑ j : Fin 26, ∑ e : Fin 64, h ⟨832 + 64 * j.val + e.val, by omega⟩ := by
  rw [sum_fin_add_split 832 1664 h,
    sum_fin_mul_split 13 64 (fun k : Fin (13 * 64) => h ⟨k.val, by have := k.isLt; omega⟩),
    sum_fin_mul_split 26 64 (fun k : Fin (26 * 64) => h ⟨832 + k.val, by have := k.isLt; omega⟩)]
  refine congrArg₂ (· + ·) rfl
    (Finset.sum_congr rfl fun j _ => Finset.sum_congr rfl fun e _ => congrArg h (Fin.ext ?_))
  show 832 + (64 * j.val + e.val) = 832 + 64 * j.val + e.val
  omega

end Cert.Lib.SumSplit
-- ==== Proof.FrameI.R0V.lean ====
/-
  Region 0: the array it leaves, as one function of the arrays it finds.

  The accumulator is reset at the first of four reduction steps and gains one block product at each; at the
  fourth the epilogue of the finished accumulator is stored and written back. Reading the blocks off their arrays,
  the four block products over 1024 columns each are one product over all 4096 columns.
-/
import proofs.«162881_j71614284693592_1_alg».proof.Proof.FrameI.R0P
import proofs.«162881_j71614284693592_1_alg».proof.Proof.Pay
import proofs.«162881_j71614284693592_1_alg».proof.Proof.LibSumSplit

set_option maxRecDepth 16384

noncomputable section

open scoped BigOperators

namespace Cert.KernelIdeal.Frm

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Val

/-- What region 0 leaves in its result array, entry by entry: the full product of row `R` of the activations with
    row `C` of the weights, then the epilogue with column `C` of the bias rows. -/
def G0 (A : Vec Ideal S2048x4096 .f32) (B : Vec Ideal S4096x4096 .f32) (b0 : Vec Ideal S1x4096 .f32) (b1 : Vec Ideal S1x4096 .f32) (b2 : Vec Ideal S1x4096 .f32) (b3 : Vec Ideal S1x4096 .f32) (b4 : Vec Ideal S1x4096 .f32) : Vec Ideal S2048x4096 .bf16 :=
  fun i => ((∑ k : Fin 4096, A (ix2 (⟨(i 0).val, idx2_lt0 i⟩ : Fin 2048) k) * B (ix2 (⟨(i 1).val, idx2_lt1 i⟩ : Fin 4096) k)) + b0 (ix2 (0 : Fin 1) (⟨(i 1).val, idx2_lt1 i⟩ : Fin 4096))) + max (max (((∑ k : Fin 4096, A (ix2 (⟨(i 0).val, idx2_lt0 i⟩ : Fin 2048) k) * B (ix2 (⟨(i 1).val, idx2_lt1 i⟩ : Fin 4096) k)) + b0 (ix2 (0 : Fin 1) (⟨(i 1).val, idx2_lt1 i⟩ : Fin 4096))) * b1 (ix2 (0 : Fin 1) (⟨(i 1).val, idx2_lt1 i⟩ : Fin 4096)) + b2 (ix2 (0 : Fin 1) (⟨(i 1).val, idx2_lt1 i⟩ : Fin 4096))) 0 * b3 (ix2 (0 : Fin 1) (⟨(i 1).val, idx2_lt1 i⟩ : Fin 4096)) + b4 (ix2 (0 : Fin 1) (⟨(i 1).val, idx2_lt1 i⟩ : Fin 4096))) 0

theorem G0_apply (A : Vec Ideal S2048x4096 .f32) (B : Vec Ideal S4096x4096 .f32) (b0 : Vec Ideal S1x4096 .f32) (b1 : Vec Ideal S1x4096 .f32) (b2 : Vec Ideal S1x4096 .f32) (b3 : Vec Ideal S1x4096 .f32) (b4 : Vec Ideal S1x4096 .f32) (R : Fin 2048) (C : Fin 4096) :
    G0 A B b0 b1 b2 b3 b4 (ix2 R C) = ((∑ k : Fin 4096, A (ix2 R k) * B (ix2 C k)) + b0 (ix2 (0 : Fin 1) C)) + max (max (((∑ k : Fin 4096, A (ix2 R k) * B (ix2 C k)) + b0 (ix2 (0 : Fin 1) C)) * b1 (ix2 (0 : Fin 1) C) + b2 (ix2 (0 : Fin 1) C)) 0 * b3 (ix2 (0 : Fin 1) C) + b4 (ix2 (0 : Fin 1) C)) 0 := rfl

section
variable (V : (c : Dev nD) → (b : Ref sig .tc) → Buf (Elt Ideal) ((c : Thread nD τ).loc b))

/-! ## The arrays the region finds and the blocks it is handed, at their literal types -/

abbrev arr0_0 (c : Dev nD) : Vec Ideal S2048x4096 .f32 := V c main_arg0
abbrev arr0_1 (c : Dev nD) : Vec Ideal S4096x4096 .f32 := V c main_arg1
abbrev arr0_2 (c : Dev nD) : Vec Ideal S1x4096 .f32 := V c main_v0
abbrev arr0_3 (c : Dev nD) : Vec Ideal S1x4096 .f32 := V c main_v3
abbrev arr0_4 (c : Dev nD) : Vec Ideal S1x4096 .f32 := V c main_v4
abbrev arr0_5 (c : Dev nD) : Vec Ideal S1x4096 .f32 := V c main_v7
abbrev arr0_6 (c : Dev nD) : Vec Ideal S1x4096 .f32 := V c main_v8
abbrev blkv0_0 (c : Dev nD) (t : Fin cfg0.N) : Vec Ideal S512x1024 .f32 := iblk0 V c 0 t
abbrev blkv0_1 (c : Dev nD) (t : Fin cfg0.N) : Vec Ideal S1024x1024 .f32 := iblk0 V c 1 t
abbrev blkv0_2 (c : Dev nD) (t : Fin cfg0.N) : Vec Ideal S1x1024 .f32 := iblk0 V c 2 t
abbrev blkv0_3 (c : Dev nD) (t : Fin cfg0.N) : Vec Ideal S1x1024 .f32 := iblk0 V c 3 t
abbrev blkv0_4 (c : Dev nD) (t : Fin cfg0.N) : Vec Ideal S1x1024 .f32 := iblk0 V c 4 t
abbrev blkv0_5 (c : Dev nD) (t : Fin cfg0.N) : Vec Ideal S1x1024 .f32 := iblk0 V c 5 t
abbrev blkv0_6 (c : Dev nD) (t : Fin cfg0.N) : Vec Ideal S1x1024 .f32 := iblk0 V c 6 t

/-! ## The accumulator, step by step -/

/-- The point before `t` (itself at the grid's first point). -/
abbrev prev0 (t : Fin cfg0.N) : Fin cfg0.N := ⟨t.val - 1, Nat.lt_of_le_of_lt (Nat.sub_le _ _) t.isLt⟩

/-- What the accumulator holds after point `t`. -/
abbrev acc0 (c : Dev nD) (t : Fin cfg0.N) : Vec Ideal S512x1024 .f32 := (outsAt0 V c t.val t.isLt).2

theorem acc0_first (c : Dev nD) (t : Fin cfg0.N) (h0 : t.val % 4 = 0) :
    acc0 V c t = k0_pay2 (blkv0_0 V c t) (blkv0_1 V c t) (k0_pay1 (F := Ideal)) := by
  have h1 : ¬t.val % 4 = 3 := by omega
  show (outsAt0 V c t.val t.isLt).2 = _
  rw [outsAt0_A V c t h0 h1]
  dsimp only
  exact sout0_A_eq (F := Ideal) c _ _ _ _ _ _ _ _ _ _ _ _ _ _ _ _ _ _ _ _ _ _ _ _ _ _ _ _

theorem acc0_step (c : Dev nD) (t : Fin cfg0.N) (h0 : ¬t.val % 4 = 0) :
    acc0 V c t = k0_pay2 (blkv0_0 V c t) (blkv0_1 V c t) (acc0 V c (prev0 t)) := by
  show (outsAt0 V c t.val t.isLt).2 = _
  by_cases h1 : t.val % 4 = 3
  · rw [outsAt0_C V c t h0 h1]
    dsimp only
    exact sout0_C_eq (F := Ideal) c _ _ _ _ _ _ _ _ _ _ _ _ _ _ _ _ _ _ _ _ _ _ _ _ _ _ _ _ _
  · rw [outsAt0_B V c t h0 h1]
    dsimp only
    exact sout0_B_eq (F := Ideal) c _ _ _ _ _ _ _ _ _ _ _ _ _ _ _ _ _ _ _ _ _ _ _ _ _ _ _ _ _

/-- At the last reduction step the output block is the epilogue of the accumulator just finished. -/
theorem out0_last (c : Dev nD) (t : Fin cfg0.N) (h1 : t.val % 4 = 3) :
    (outsAt0 V c t.val t.isLt).1 = k0_pay3 (blkv0_2 V c t) (blkv0_3 V c t) (blkv0_4 V c t) (blkv0_5 V c t) (blkv0_6 V c t) (acc0 V c t) := by
  have h0 : ¬t.val % 4 = 0 := by omega
  rw [acc0_step V c t h0]
  rw [outsAt0_C V c t h0 h1]
  dsimp only
  exact out0_C_eq (F := Ideal) c _ _ _ _ _ _ _ _ _ _ _ _ _ _ _ _ _ _ _ _ _ _ _ _ _ _ _ _ _

/-! ## The blocks, read off their arrays -/

/-- Where each window's block sits at a point, decided over the grid: the row block, the column block and the
    reduction block are the point's three coordinates. -/
theorem idx0_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4
    ∧ win0_3.index t (0 : Fin 2) = 0 ∧ win0_3.index t (1 : Fin 2) = t.val / 4 % 4
    ∧ win0_4.index t (0 : Fin 2) = 0 ∧ win0_4.index t (1 : Fin 2) = t.val / 4 % 4
    ∧ win0_5.index t (0 : Fin 2) = 0 ∧ win0_5.index t (1 : Fin 2) = t.val / 4 % 4
    ∧ win0_6.index t (0 : Fin 2) = 0 ∧ win0_6.index t (1 : Fin 2) = t.val / 4 % 4
    ∧ win0_7.index t (0 : Fin 2) = t.val / 16 ∧ win0_7.index t (1 : Fin 2) = t.val / 4 % 4 :=
  (by decide +kernel : ∀ t : Fin grid0.N, _)

/-- The activation block at a point, entry (r, k): the array at row `512·I + r`, column `1024·kk + k`. -/
theorem blk0_0 (c : Dev nD) (p : Fin cfg0.N) (I kk : Fin 4) (hI : p.val / 16 = I.val) (hk : p.val % 4 = kk.val) (r : Fin 512) (k : Fin 1024) :
    (blkv0_0 V c p) (ix2 r k) = arr0_0 V c (ix2 (⟨512 * I.val + r.val, by omega⟩ : Fin 2048) (⟨1024 * kk.val + k.val, by omega⟩ : Fin 4096)) := by
  obtain ⟨e0, e1, -⟩ := idx0_facts p
  show V c main_arg0 (((cfg0.win 0).blk p).view.emb (ix2 r k)) = _
  refine congrArg (V c main_arg0) (funext fun a => Fin.ext ?_)
  match a with
  | ⟨0, _⟩ => show win0_0.index p (0 : Fin 2) * 512 + 1 * r.val = 512 * I.val + r.val; omega
  | ⟨1, _⟩ => show win0_0.index p (1 : Fin 2) * 1024 + 1 * k.val = 1024 * kk.val + k.val; omega

/-- The weight block at a point, entry (cc, k): the array at row `1024·J + cc`, column `1024·kk + k`. -/
theorem blk0_1 (c : Dev nD) (p : Fin cfg0.N) (J : Fin 4) (kk : Fin 4) (hJ : p.val / 4 % 4 = J.val) (hk : p.val % 4 = kk.val) (cc : Fin 1024) (k : Fin 1024) :
    (blkv0_1 V c p) (ix2 cc k) = arr0_1 V c (ix2 (⟨1024 * J.val + cc.val, by omega⟩ : Fin 4096) (⟨1024 * kk.val + k.val, by omega⟩ : Fin 4096)) := by
  obtain ⟨-, -, e0, e1, -⟩ := idx0_facts p
  show V c main_arg1 (((cfg0.win 1).blk p).view.emb (ix2 cc k)) = _
  refine congrArg (V c main_arg1) (funext fun a => Fin.ext ?_)
  match a with
  | ⟨0, _⟩ => show win0_1.index p (0 : Fin 2) * 1024 + 1 * cc.val = 1024 * J.val + cc.val; omega
  | ⟨1, _⟩ => show win0_1.index p (1 : Fin 2) * 1024 + 1 * k.val = 1024 * kk.val + k.val; omega

/-- Bias row 0 at a point, entry (0, cc): the row array at column `1024·J + cc`. -/
theorem blk0_2 (c : Dev nD) (p : Fin cfg0.N) (J : Fin 4) (hJ : p.val / 4 % 4 = J.val) (cc : Fin 1024) :
    (blkv0_2 V c p) (ix2 (0 : Fin 1) cc) = arr0_2 V c (ix2 (0 : Fin 1) (⟨1024 * J.val + cc.val, by omega⟩ : Fin 4096)) := by
  obtain ⟨-, -, -, -, e0, e1, -⟩ := idx0_facts p
  show V c main_v0 (((cfg0.win 2).blk p).view.emb (ix2 (0 : Fin 1) cc)) = _
  refine congrArg (V c main_v0) (funext fun a => Fin.ext ?_)
  match a with
  | ⟨0, _⟩ => show win0_2.index p (0 : Fin 2) * 1 + 1 * (0 : Fin 1).val = (0 : Fin 1).val; omega
  | ⟨1, _⟩ => show win0_2.index p (1 : Fin 2) * 1024 + 1 * cc.val = 1024 * J.val + cc.val; omega

/-- Bias row 1 at a point, entry (0, cc): the row array at column `1024·J + cc`. -/
theorem blk0_3 (c : Dev nD) (p : Fin cfg0.N) (J : Fin 4) (hJ : p.val / 4 % 4 = J.val) (cc : Fin 1024) :
    (blkv0_3 V c p) (ix2 (0 : Fin 1) cc) = arr0_3 V c (ix2 (0 : Fin 1) (⟨1024 * J.val + cc.val, by omega⟩ : Fin 4096)) := by
  obtain ⟨-, -, -, -, -, -, e0, e1, -⟩ := idx0_facts p
  show V c main_v3 (((cfg0.win 3).blk p).view.emb (ix2 (0 : Fin 1) cc)) = _
  refine congrArg (V c main_v3) (funext fun a => Fin.ext ?_)
  match a with
  | ⟨0, _⟩ => show win0_3.index p (0 : Fin 2) * 1 + 1 * (0 : Fin 1).val = (0 : Fin 1).val; omega
  | ⟨1, _⟩ => show win0_3.index p (1 : Fin 2) * 1024 + 1 * cc.val = 1024 * J.val + cc.val; omega

/-- Bias row 2 at a point, entry (0, cc): the row array at column `1024·J + cc`. -/
theorem blk0_4 (c : Dev nD) (p : Fin cfg0.N) (J : Fin 4) (hJ : p.val / 4 % 4 = J.val) (cc : Fin 1024) :
    (blkv0_4 V c p) (ix2 (0 : Fin 1) cc) = arr0_4 V c (ix2 (0 : Fin 1) (⟨1024 * J.val + cc.val, by omega⟩ : Fin 4096)) := by
  obtain ⟨-, -, -, -, -, -, -, -, e0, e1, -⟩ := idx0_facts p
  show V c main_v4 (((cfg0.win 4).blk p).view.emb (ix2 (0 : Fin 1) cc)) = _
  refine congrArg (V c main_v4) (funext fun a => Fin.ext ?_)
  match a with
  | ⟨0, _⟩ => show win0_4.index p (0 : Fin 2) * 1 + 1 * (0 : Fin 1).val = (0 : Fin 1).val; omega
  | ⟨1, _⟩ => show win0_4.index p (1 : Fin 2) * 1024 + 1 * cc.val = 1024 * J.val + cc.val; omega

/-- Bias row 3 at a point, entry (0, cc): the row array at column `1024·J + cc`. -/
theorem blk0_5 (c : Dev nD) (p : Fin cfg0.N) (J : Fin 4) (hJ : p.val / 4 % 4 = J.val) (cc : Fin 1024) :
    (blkv0_5 V c p) (ix2 (0 : Fin 1) cc) = arr0_5 V c (ix2 (0 : Fin 1) (⟨1024 * J.val + cc.val, by omega⟩ : Fin 4096)) := by
  obtain ⟨-, -, -, -, -, -, -, -, -, -, e0, e1, -⟩ := idx0_facts p
  show V c main_v7 (((cfg0.win 5).blk p).view.emb (ix2 (0 : Fin 1) cc)) = _
  refine congrArg (V c main_v7) (funext fun a => Fin.ext ?_)
  match a with
  | ⟨0, _⟩ => show win0_5.index p (0 : Fin 2) * 1 + 1 * (0 : Fin 1).val = (0 : Fin 1).val; omega
  | ⟨1, _⟩ => show win0_5.index p (1 : Fin 2) * 1024 + 1 * cc.val = 1024 * J.val + cc.val; omega

/-- Bias row 4 at a point, entry (0, cc): the row array at column `1024·J + cc`. -/
theorem blk0_6 (c : Dev nD) (p : Fin cfg0.N) (J : Fin 4) (hJ : p.val / 4 % 4 = J.val) (cc : Fin 1024) :
    (blkv0_6 V c p) (ix2 (0 : Fin 1) cc) = arr0_6 V c (ix2 (0 : Fin 1) (⟨1024 * J.val + cc.val, by omega⟩ : Fin 4096)) := by
  obtain ⟨-, -, -, -, -, -, -, -, -, -, -, -, e0, e1, -⟩ := idx0_facts p
  show V c main_v8 (((cfg0.win 6).blk p).view.emb (ix2 (0 : Fin 1) cc)) = _
  refine congrArg (V c main_v8) (funext fun a => Fin.ext ?_)
  match a with
  | ⟨0, _⟩ => show win0_6.index p (0 : Fin 2) * 1 + 1 * (0 : Fin 1).val = (0 : Fin 1).val; omega
  | ⟨1, _⟩ => show win0_6.index p (1 : Fin 2) * 1024 + 1 * cc.val = 1024 * J.val + cc.val; omega

/-! ## The four block products are one product over all columns -/

/-- One reduction step's product at entry (r, cc), over the arrays. -/
theorem step0_sum (c : Dev nD) (p : Fin cfg0.N) (I : Fin 4) (J : Fin 4) (kk : Fin 4) (hI : p.val / 16 = I.val) (hJ : p.val / 4 % 4 = J.val) (hk : p.val % 4 = kk.val)
    (r : Fin 512) (cc : Fin 1024) :
    (∑ k : Fin 1024, (blkv0_0 V c p) (ix2 r k) * (blkv0_1 V c p) (ix2 cc k))
      = ∑ k : Fin 1024, arr0_0 V c (ix2 (⟨512 * I.val + r.val, by omega⟩ : Fin 2048) (⟨1024 * kk.val + k.val, by omega⟩ : Fin 4096))
          * arr0_1 V c (ix2 (⟨1024 * J.val + cc.val, by omega⟩ : Fin 4096) (⟨1024 * kk.val + k.val, by omega⟩ : Fin 4096)) :=
  Finset.sum_congr rfl fun k _ => by rw [blk0_0 V c p I kk hI hk r k, blk0_1 V c p J kk hJ hk cc k]

/-- After the fourth reduction step the accumulator entry (r, cc) is the full product of the two array rows. -/
theorem acc0_full (c : Dev nD) (t : Fin cfg0.N) (h3 : t.val % 4 = 3) (I : Fin 4) (J : Fin 4) (hI : t.val / 16 = I.val) (hJ : t.val / 4 % 4 = J.val)
    (r : Fin 512) (cc : Fin 1024) :
    acc0 V c t (ix2 r cc)
      = ∑ k : Fin 4096, arr0_0 V c (ix2 (⟨512 * I.val + r.val, by omega⟩ : Fin 2048) k) * arr0_1 V c (ix2 (⟨1024 * J.val + cc.val, by omega⟩ : Fin 4096) k) := by
  have hN : t.val < 64 := lt_of_lt_of_eq t.isLt (show cfg0.N = 64 from N_0)
  have q1 : (prev0 t).val = t.val - 1 := rfl
  have q2 : (prev0 (prev0 t)).val = t.val - 1 - 1 := rfl
  have q3 : (prev0 (prev0 (prev0 t))).val = t.val - 1 - 1 - 1 := rfl
  rw [acc0_step V c t (by omega)]
  refine (pay2_0 _ _ _ r cc).trans ?_
  rw [acc0_step V c (prev0 t) (by rw [q1]; omega)]
  rw [pay2_0 _ _ _ r cc]
  rw [acc0_step V c (prev0 (prev0 t)) (by rw [q2]; omega)]
  rw [pay2_0 _ _ _ r cc]
  rw [acc0_first V c (prev0 (prev0 (prev0 t))) (by rw [q3]; omega)]
  rw [pay2_0 _ _ _ r cc, pay1_0]
  rw [step0_sum V c t I J (3 : Fin 4) hI hJ (by show t.val % 4 = 3; exact h3) r cc,
    step0_sum V c (prev0 t) I J (2 : Fin 4) (by rw [q1]; omega) (by rw [q1]; omega) (by rw [q1]; show (t.val - 1) % 4 = 2; omega) r cc,
    step0_sum V c (prev0 (prev0 t)) I J (1 : Fin 4) (by rw [q2]; omega) (by rw [q2]; omega) (by rw [q2]; show (t.val - 1 - 1) % 4 = 1; omega) r cc,
    step0_sum V c (prev0 (prev0 (prev0 t))) I J (0 : Fin 4) (by rw [q3]; omega) (by rw [q3]; omega) (by rw [q3]; show (t.val - 1 - 1 - 1) % 4 = 0; omega) r cc]
  rw [Cert.Lib.SumSplit.sum_fin_mul_split 4 1024 (fun k : Fin (4 * 1024) => arr0_0 V c (ix2 (⟨512 * I.val + r.val, by omega⟩ : Fin 2048) k) * arr0_1 V c (ix2 (⟨1024 * J.val + cc.val, by omega⟩ : Fin 4096) k)),
    Fin.sum_univ_four, zero_add]

/-! ## What the region writes back, and the array it leaves -/

/-- WHAT POINT `t` WRITES BACK (a fourth reduction step) is block `t` of `G0` of the arrays the region finds. -/
theorem flushed0_eq (c : Dev nD) (t : Fin cfg0.N) (h3 : t.val % 4 = 3) :
    (dat0 V c).flushed 7 t = ((cfg0.win 7).blk t).view.read (Elt Ideal) (G0 (arr0_0 V c) (arr0_1 V c) (arr0_2 V c) (arr0_3 V c) (arr0_4 V c) (arr0_5 V c) (arr0_6 V c)) := by
  have hN : t.val < 64 := lt_of_lt_of_eq t.isLt (show cfg0.N = 64 from N_0)
  show (cfg0.win 7).cut (grid0.coords t) ((dat0 V c).after 7 t) = _
  rw [after0_7, out0_last V c t h3]
  funext y
  obtain ⟨r, cc, rfl⟩ : ∃ (r : Fin 512) (cc : Fin 1024), y = ix2 r cc := ⟨y 0, y 1, eq_ix2 y⟩
  obtain ⟨-, -, -, -, -, -, -, -, -, -, -, -, -, -, eo0, eo1⟩ := idx0_facts t
  have hemb : ((cfg0.win 7).blk t).view.emb (ix2 r cc) = ix2 (⟨512 * (t.val / 16) + r.val, by omega⟩ : Fin 2048) (⟨1024 * (t.val / 4 % 4) + cc.val, by omega⟩ : Fin 4096) := by
    funext a; apply Fin.ext
    match a with
    | ⟨0, _⟩ => show win0_7.index t (0 : Fin 2) * 512 + 1 * r.val = 512 * (t.val / 16) + r.val; omega
    | ⟨1, _⟩ => show win0_7.index t (1 : Fin 2) * 1024 + 1 * cc.val = 1024 * (t.val / 4 % 4) + cc.val; omega
  show k0_pay3 (blkv0_2 V c t) (blkv0_3 V c t) (blkv0_4 V c t) (blkv0_5 V c t) (blkv0_6 V c t) (acc0 V c t) (ix2 r cc) = G0 (arr0_0 V c) (arr0_1 V c) (arr0_2 V c) (arr0_3 V c) (arr0_4 V c) (arr0_5 V c) (arr0_6 V c) (((cfg0.win 7).blk t).view.emb (ix2 r cc))
  rw [hemb, G0_apply, pay3_0, acc0_full V c t h3 (⟨t.val / 16, by omega⟩ : Fin 4) (⟨t.val / 4 % 4, by omega⟩ : Fin 4) rfl rfl r cc]
  rw [blk0_2 V c t (⟨t.val / 4 % 4, by omega⟩ : Fin 4) rfl cc]
  rw [blk0_3 V c t (⟨t.val / 4 % 4, by omega⟩ : Fin 4) rfl cc]
  rw [blk0_4 V c t (⟨t.val / 4 % 4, by omega⟩ : Fin 4) rfl cc]
  rw [blk0_5 V c t (⟨t.val / 4 % 4, by omega⟩ : Fin 4) rfl cc]
  rw [blk0_6 V c t (⟨t.val / 4 % 4, by omega⟩ : Fin 4) rfl cc]

theorem mem_blk0 (t : Fin cfg0.N) (i : S2048x4096.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v11).slice (win0_7.rect t)).set ↔ _
  rw [View.set_slice_whole, Rect.mem_set_unit]
  exact Iff.rfl

/-- Every entry of the result array lies in the block some fourth reduction step writes back. -/
theorem cover0 (i : S2048x4096.Idx) : ∃ t : Fin cfg0.N, (cfg0.win 7).flush t = true ∧ i ∈ ((cfg0.win 7).blk t).view.set := by
  have hi0 : (i 0).val < 2048 := idx2_lt0 i
  have hi1 : (i 1).val < 4096 := idx2_lt1 i
  have hNe : cfg0.N = 64 := N_0
  let t : Fin cfg0.N := ⟨16 * ((i 0).val / 512) + 4 * ((i 1).val / 1024) + 3, by omega⟩
  have htv : t.val = 16 * ((i 0).val / 512) + 4 * ((i 1).val / 1024) + 3 := rfl
  obtain ⟨-, -, -, -, -, -, -, -, -, -, -, -, -, -, eo0, eo1⟩ := idx0_facts t
  refine ⟨t, (flush0_7 t).mpr (by omega), ?_⟩
  rw [mem_blk0]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- THE ARRAY region 0 leaves: `G0` of the arrays it finds. -/
theorem final0 (c : Dev nD) : (dat0 V c).arrAt 7 cfg0.N = G0 (arr0_0 V c) (arr0_1 V c) (arr0_2 V c) (arr0_3 V c) (arr0_4 V c) (arr0_5 V c) (arr0_6 V c) :=
  (dat0 V c).arrAt_eq_of_cover 7 _ (fun t hf => flushed0_eq V c t ((flush0_7 t).mp hf)) cover0

end

end Cert.KernelIdeal.Frm

end
-- ==== Proof.FrameI.R1P.lean ====
import proofs.«162881_j71614284693592_1_alg».proof.Proof.FrameI.R1F
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the pieces the three cases leave, as the body's payload terms

Every load and store of the body goes through the whole-shape rectangle at zero offsets, so each buffer ends at
the payload of its last store, and a load after a store reads that store's payload. -/

theorem hz1 : (![0, 0] : Fin 2 → ℕ) = fun _ => 0 := by
  funext a; match a with | ⟨0, _⟩ => rfl | ⟨1, _⟩ => rfl

/-- First reduction step: the accumulator ends at the zero block plus the first block product. -/
theorem sout1_A_eq (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : cond1_0 i) (hc1 : ¬cond1_1 i)
    (x0 : Vec F S512x1024 .bf16) (x1 : Vec F S1024x1024 .f32) (x2 : Vec F S1x1024 .f32) :
    sout1_A_0 c i arg3 harg3 arg4 harg4 arg5 harg5 arg6 harg6 arg7 harg7 hc0 hc1 x0 x1 x2 = k1_pay2 x0 x1 (k1_pay1 (F := F)) := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero hz1]
  simp only [View.readAt_eq_ld, harg3.read_unread, harg4.read_unread, harg5.read_unread, harg7.read_unread, View.ld_unit_zero (S := S512x1024) hz1, View.ld_unit_zero (S := S1024x1024) hz1, View.ld_unit_zero (S := S1x1024) hz1, View.readCov_unit_zero (S := S512x1024) _ hz1]

/-- A middle reduction step: the accumulator ends at what it held plus this step's block product. -/
theorem sout1_B_eq (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : ¬cond1_1 i)
    (x0 : Vec F S512x1024 .bf16) (x1 : Vec F S1024x1024 .f32) (x2 : Vec F S1x1024 .f32) (xs0 : Vec F S512x1024 .f32) :
    sout1_B_0 c i arg3 harg3 arg4 harg4 arg5 harg5 arg6 harg6 arg7 harg7 hc0 hc1 x0 x1 x2 xs0 = k1_pay2 x0 x1 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero hz1]
  simp only [View.readAt_eq_ld, harg3.read_unread, harg4.read_unread, harg5.read_unread, harg7.read_unread, View.ld_unit_zero (S := S512x1024) hz1, View.ld_unit_zero (S := S1024x1024) hz1, View.ld_unit_zero (S := S1x1024) hz1, View.readCov_unit_zero (S := S512x1024) _ hz1]

/-- The last reduction step: the accumulator as at a middle step, -/
theorem sout1_C_eq (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : cond1_1 i)
    (x0 : Vec F S512x1024 .bf16) (x1 : Vec F S1024x1024 .f32) (x2 : Vec F S1x1024 .f32) (xs0 : Vec F S512x1024 .f32) :
    sout1_C_0 c i arg3 harg3 arg4 harg4 arg5 harg5 arg6 harg6 arg7 harg7 hc0 hc1 x0 x1 x2 xs0 = k1_pay2 x0 x1 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hz1]
  simp only [View.readAt_eq_ld, harg3.read_unread, harg4.read_unread, harg5.read_unread, harg7.read_unread, View.ld_unit_zero (S := S512x1024) hz1, View.ld_unit_zero (S := S1024x1024) hz1, View.ld_unit_zero (S := S1x1024) hz1, View.readCov_unit_zero (S := S512x1024) _ hz1]

/-- and the output block is the epilogue of the finished accumulator. -/
theorem out1_C_eq (c : Dev nD) (i : grid1.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .bf16) (harg6 : arg6.IsWhole) (arg7 : Memref sig .tc .vmem S512x1024 .f32) (harg7 : arg7.IsWhole) (hc0 : ¬cond1_0 i) (hc1 : cond1_1 i)
    (x0 : Vec F S512x1024 .bf16) (x1 : Vec F S1024x1024 .f32) (x2 : Vec F S1x1024 .f32) (xs0 : Vec F S512x1024 .f32) :
    out1_C_3 c i arg3 harg3 arg4 harg4 arg5 harg5 arg6 harg6 arg7 harg7 hc0 hc1 x0 x1 x2 xs0 = k1_pay3 x2 (k1_pay2 x0 x1 xs0) := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz1]
  simp only [View.readAt_eq_ld, harg3.read_unread, harg4.read_unread, harg5.read_unread, harg7.read_unread, View.ld_unit_zero (S := S512x1024) hz1, View.ld_unit_zero (S := S1024x1024) hz1, View.ld_unit_zero (S := S1x1024) hz1, View.readCov_unit_zero (S := S512x1024) _ hz1]

end Cert.KernelIdeal.Frm

end
-- ==== Proof.FrameI.R1V.lean ====
/-
  Region 1: the array it leaves, as one function of the arrays it finds.

  The accumulator is reset at the first of four reduction steps and gains one block product at each; at the
  fourth the epilogue of the finished accumulator is stored and written back. Reading the blocks off their arrays,
  the four block products over 1024 columns each are one product over all 4096 columns.
-/
import proofs.«162881_j71614284693592_1_alg».proof.Proof.FrameI.R1P
import proofs.«162881_j71614284693592_1_alg».proof.Proof.Pay
import proofs.«162881_j71614284693592_1_alg».proof.Proof.LibSumSplit

set_option maxRecDepth 16384

noncomputable section

open scoped BigOperators

namespace Cert.KernelIdeal.Frm

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Val

/-- What region 1 leaves in its result array, entry by entry: the full product of row `R` of the activations with
    row `C` of the weights, then the epilogue with column `C` of the bias rows. -/
def G1 (A : Vec Ideal S2048x4096 .bf16) (B : Vec Ideal S4096x4096 .f32) (b0 : Vec Ideal S1x4096 .f32) : Vec Ideal S2048x4096 .bf16 :=
  fun i => max ((∑ k : Fin 4096, A (ix2 (⟨(i 0).val, idx2_lt0 i⟩ : Fin 2048) k) * B (ix2 (⟨(i 1).val, idx2_lt1 i⟩ : Fin 4096) k)) + b0 (ix2 (0 : Fin 1) (⟨(i 1).val, idx2_lt1 i⟩ : Fin 4096))) 0

theorem G1_apply (A : Vec Ideal S2048x4096 .bf16) (B : Vec Ideal S4096x4096 .f32) (b0 : Vec Ideal S1x4096 .f32) (R : Fin 2048) (C : Fin 4096) :
    G1 A B b0 (ix2 R C) = max ((∑ k : Fin 4096, A (ix2 R k) * B (ix2 C k)) + b0 (ix2 (0 : Fin 1) C)) 0 := rfl

section
variable (V : (c : Dev nD) → (b : Ref sig .tc) → Buf (Elt Ideal) ((c : Thread nD τ).loc b))

/-! ## The arrays the region finds and the blocks it is handed, at their literal types -/

abbrev arr1_0 (c : Dev nD) : Vec Ideal S2048x4096 .bf16 := V c main_v11
abbrev arr1_1 (c : Dev nD) : Vec Ideal S4096x4096 .f32 := V c main_arg7
abbrev arr1_2 (c : Dev nD) : Vec Ideal S1x4096 .f32 := V c main_v9
abbrev blkv1_0 (c : Dev nD) (t : Fin cfg1.N) : Vec Ideal S512x1024 .bf16 := iblk1 V c 0 t
abbrev blkv1_1 (c : Dev nD) (t : Fin cfg1.N) : Vec Ideal S1024x1024 .f32 := iblk1 V c 1 t
abbrev blkv1_2 (c : Dev nD) (t : Fin cfg1.N) : Vec Ideal S1x1024 .f32 := iblk1 V c 2 t

/-! ## The accumulator, step by step -/

/-- The point before `t` (itself at the grid's first point). -/
abbrev prev1 (t : Fin cfg1.N) : Fin cfg1.N := ⟨t.val - 1, Nat.lt_of_le_of_lt (Nat.sub_le _ _) t.isLt⟩

/-- What the accumulator holds after point `t`. -/
abbrev acc1 (c : Dev nD) (t : Fin cfg1.N) : Vec Ideal S512x1024 .f32 := (outsAt1 V c t.val t.isLt).2

theorem acc1_first (c : Dev nD) (t : Fin cfg1.N) (h0 : t.val % 4 = 0) :
    acc1 V c t = k1_pay2 (blkv1_0 V c t) (blkv1_1 V c t) (k1_pay1 (F := Ideal)) := by
  have h1 : ¬t.val % 4 = 3 := by omega
  show (outsAt1 V c t.val t.isLt).2 = _
  rw [outsAt1_A V c t h0 h1]
  dsimp only
  exact sout1_A_eq (F := Ideal) c _ _ _ _ _ _ _ _ _ _ _ _ _ _ _ _

theorem acc1_step (c : Dev nD) (t : Fin cfg1.N) (h0 : ¬t.val % 4 = 0) :
    acc1 V c t = k1_pay2 (blkv1_0 V c t) (blkv1_1 V c t) (acc1 V c (prev1 t)) := by
  show (outsAt1 V c t.val t.isLt).2 = _
  by_cases h1 : t.val % 4 = 3
  · rw [outsAt1_C V c t h0 h1]
    dsimp only
    exact sout1_C_eq (F := Ideal) c _ _ _ _ _ _ _ _ _ _ _ _ _ _ _ _ _
  · rw [outsAt1_B V c t h0 h1]
    dsimp only
    exact sout1_B_eq (F := Ideal) c _ _ _ _ _ _ _ _ _ _ _ _ _ _ _ _ _

/-- At the last reduction step the output block is the epilogue of the accumulator just finished. -/
theorem out1_last (c : Dev nD) (t : Fin cfg1.N) (h1 : t.val % 4 = 3) :
    (outsAt1 V c t.val t.isLt).1 = k1_pay3 (blkv1_2 V c t) (acc1 V c t) := by
  have h0 : ¬t.val % 4 = 0 := by omega
  rw [acc1_step V c t h0]
  rw [outsAt1_C V c t h0 h1]
  dsimp only
  exact out1_C_eq (F := Ideal) c _ _ _ _ _ _ _ _ _ _ _ _ _ _ _ _ _

/-! ## The blocks, read off their arrays -/

/-- Where each window's block sits at a point, decided over the grid: the row block, the column block and the
    reduction block are the point's three coordinates. -/
theorem idx1_facts : ∀ t : Fin cfg1.N,
    win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- The activation block at a point, entry (r, k): the array at row `512·I + r`, column `1024·kk + k`. -/
theorem blk1_0 (c : Dev nD) (p : Fin cfg1.N) (I kk : Fin 4) (hI : p.val / 16 = I.val) (hk : p.val % 4 = kk.val) (r : Fin 512) (k : Fin 1024) :
    (blkv1_0 V c p) (ix2 r k) = arr1_0 V c (ix2 (⟨512 * I.val + r.val, by omega⟩ : Fin 2048) (⟨1024 * kk.val + k.val, by omega⟩ : Fin 4096)) := by
  obtain ⟨e0, e1, -⟩ := idx1_facts p
  show V c main_v11 (((cfg1.win 0).blk p).view.emb (ix2 r k)) = _
  refine congrArg (V c main_v11) (funext fun a => Fin.ext ?_)
  match a with
  | ⟨0, _⟩ => show win1_0.index p (0 : Fin 2) * 512 + 1 * r.val = 512 * I.val + r.val; omega
  | ⟨1, _⟩ => show win1_0.index p (1 : Fin 2) * 1024 + 1 * k.val = 1024 * kk.val + k.val; omega

/-- The weight block at a point, entry (cc, k): the array at row `1024·J + cc`, column `1024·kk + k`. -/
theorem blk1_1 (c : Dev nD) (p : Fin cfg1.N) (J : Fin 4) (kk : Fin 4) (hJ : p.val / 4 % 4 = J.val) (hk : p.val % 4 = kk.val) (cc : Fin 1024) (k : Fin 1024) :
    (blkv1_1 V c p) (ix2 cc k) = arr1_1 V c (ix2 (⟨1024 * J.val + cc.val, by omega⟩ : Fin 4096) (⟨1024 * kk.val + k.val, by omega⟩ : Fin 4096)) := by
  obtain ⟨-, -, e0, e1, -⟩ := idx1_facts p
  show V c main_arg7 (((cfg1.win 1).blk p).view.emb (ix2 cc k)) = _
  refine congrArg (V c main_arg7) (funext fun a => Fin.ext ?_)
  match a with
  | ⟨0, _⟩ => show win1_1.index p (0 : Fin 2) * 1024 + 1 * cc.val = 1024 * J.val + cc.val; omega
  | ⟨1, _⟩ => show win1_1.index p (1 : Fin 2) * 1024 + 1 * k.val = 1024 * kk.val + k.val; omega

/-- Bias row 0 at a point, entry (0, cc): the row array at column `1024·J + cc`. -/
theorem blk1_2 (c : Dev nD) (p : Fin cfg1.N) (J : Fin 4) (hJ : p.val / 4 % 4 = J.val) (cc : Fin 1024) :
    (blkv1_2 V c p) (ix2 (0 : Fin 1) cc) = arr1_2 V c (ix2 (0 : Fin 1) (⟨1024 * J.val + cc.val, by omega⟩ : Fin 4096)) := by
  obtain ⟨-, -, -, -, e0, e1, -⟩ := idx1_facts p
  show V c main_v9 (((cfg1.win 2).blk p).view.emb (ix2 (0 : Fin 1) cc)) = _
  refine congrArg (V c main_v9) (funext fun a => Fin.ext ?_)
  match a with
  | ⟨0, _⟩ => show win1_2.index p (0 : Fin 2) * 1 + 1 * (0 : Fin 1).val = (0 : Fin 1).val; omega
  | ⟨1, _⟩ => show win1_2.index p (1 : Fin 2) * 1024 + 1 * cc.val = 1024 * J.val + cc.val; omega

/-! ## The four block products are one product over all columns -/

/-- One reduction step's product at entry (r, cc), over the arrays. -/
theorem step1_sum (c : Dev nD) (p : Fin cfg1.N) (I : Fin 4) (J : Fin 4) (kk : Fin 4) (hI : p.val / 16 = I.val) (hJ : p.val / 4 % 4 = J.val) (hk : p.val % 4 = kk.val)
    (r : Fin 512) (cc : Fin 1024) :
    (∑ k : Fin 1024, (blkv1_0 V c p) (ix2 r k) * (blkv1_1 V c p) (ix2 cc k))
      = ∑ k : Fin 1024, arr1_0 V c (ix2 (⟨512 * I.val + r.val, by omega⟩ : Fin 2048) (⟨1024 * kk.val + k.val, by omega⟩ : Fin 4096))
          * arr1_1 V c (ix2 (⟨1024 * J.val + cc.val, by omega⟩ : Fin 4096) (⟨1024 * kk.val + k.val, by omega⟩ : Fin 4096)) :=
  Finset.sum_congr rfl fun k _ => by rw [blk1_0 V c p I kk hI hk r k, blk1_1 V c p J kk hJ hk cc k]

/-- After the fourth reduction step the accumulator entry (r, cc) is the full product of the two array rows. -/
theorem acc1_full (c : Dev nD) (t : Fin cfg1.N) (h3 : t.val % 4 = 3) (I : Fin 4) (J : Fin 4) (hI : t.val / 16 = I.val) (hJ : t.val / 4 % 4 = J.val)
    (r : Fin 512) (cc : Fin 1024) :
    acc1 V c t (ix2 r cc)
      = ∑ k : Fin 4096, arr1_0 V c (ix2 (⟨512 * I.val + r.val, by omega⟩ : Fin 2048) k) * arr1_1 V c (ix2 (⟨1024 * J.val + cc.val, by omega⟩ : Fin 4096) k) := by
  have hN : t.val < 64 := lt_of_lt_of_eq t.isLt (show cfg1.N = 64 from N_1)
  have q1 : (prev1 t).val = t.val - 1 := rfl
  have q2 : (prev1 (prev1 t)).val = t.val - 1 - 1 := rfl
  have q3 : (prev1 (prev1 (prev1 t))).val = t.val - 1 - 1 - 1 := rfl
  rw [acc1_step V c t (by omega)]
  refine (pay2_1 _ _ _ r cc).trans ?_
  rw [acc1_step V c (prev1 t) (by rw [q1]; omega)]
  rw [pay2_1 _ _ _ r cc]
  rw [acc1_step V c (prev1 (prev1 t)) (by rw [q2]; omega)]
  rw [pay2_1 _ _ _ r cc]
  rw [acc1_first V c (prev1 (prev1 (prev1 t))) (by rw [q3]; omega)]
  rw [pay2_1 _ _ _ r cc, pay1_1]
  rw [step1_sum V c t I J (3 : Fin 4) hI hJ (by show t.val % 4 = 3; exact h3) r cc,
    step1_sum V c (prev1 t) I J (2 : Fin 4) (by rw [q1]; omega) (by rw [q1]; omega) (by rw [q1]; show (t.val - 1) % 4 = 2; omega) r cc,
    step1_sum V c (prev1 (prev1 t)) I J (1 : Fin 4) (by rw [q2]; omega) (by rw [q2]; omega) (by rw [q2]; show (t.val - 1 - 1) % 4 = 1; omega) r cc,
    step1_sum V c (prev1 (prev1 (prev1 t))) I J (0 : Fin 4) (by rw [q3]; omega) (by rw [q3]; omega) (by rw [q3]; show (t.val - 1 - 1 - 1) % 4 = 0; omega) r cc]
  rw [Cert.Lib.SumSplit.sum_fin_mul_split 4 1024 (fun k : Fin (4 * 1024) => arr1_0 V c (ix2 (⟨512 * I.val + r.val, by omega⟩ : Fin 2048) k) * arr1_1 V c (ix2 (⟨1024 * J.val + cc.val, by omega⟩ : Fin 4096) k)),
    Fin.sum_univ_four, zero_add]

/-! ## What the region writes back, and the array it leaves -/

/-- WHAT POINT `t` WRITES BACK (a fourth reduction step) is block `t` of `G1` of the arrays the region finds. -/
theorem flushed1_eq (c : Dev nD) (t : Fin cfg1.N) (h3 : t.val % 4 = 3) :
    (dat1 V c).flushed 3 t = ((cfg1.win 3).blk t).view.read (Elt Ideal) (G1 (arr1_0 V c) (arr1_1 V c) (arr1_2 V c)) := by
  have hN : t.val < 64 := lt_of_lt_of_eq t.isLt (show cfg1.N = 64 from N_1)
  show (cfg1.win 3).cut (grid1.coords t) ((dat1 V c).after 3 t) = _
  rw [after1_3, out1_last V c t h3]
  funext y
  obtain ⟨r, cc, rfl⟩ : ∃ (r : Fin 512) (cc : Fin 1024), y = ix2 r cc := ⟨y 0, y 1, eq_ix2 y⟩
  obtain ⟨-, -, -, -, -, -, eo0, eo1⟩ := idx1_facts t
  have hemb : ((cfg1.win 3).blk t).view.emb (ix2 r cc) = ix2 (⟨512 * (t.val / 16) + r.val, by omega⟩ : Fin 2048) (⟨1024 * (t.val / 4 % 4) + cc.val, by omega⟩ : Fin 4096) := by
    funext a; apply Fin.ext
    match a with
    | ⟨0, _⟩ => show win1_3.index t (0 : Fin 2) * 512 + 1 * r.val = 512 * (t.val / 16) + r.val; omega
    | ⟨1, _⟩ => show win1_3.index t (1 : Fin 2) * 1024 + 1 * cc.val = 1024 * (t.val / 4 % 4) + cc.val; omega
  show k1_pay3 (blkv1_2 V c t) (acc1 V c t) (ix2 r cc) = G1 (arr1_0 V c) (arr1_1 V c) (arr1_2 V c) (((cfg1.win 3).blk t).view.emb (ix2 r cc))
  rw [hemb, G1_apply, pay3_1, acc1_full V c t h3 (⟨t.val / 16, by omega⟩ : Fin 4) (⟨t.val / 4 % 4, by omega⟩ : Fin 4) rfl rfl r cc]
  rw [blk1_2 V c t (⟨t.val / 4 % 4, by omega⟩ : Fin 4) rfl cc]

theorem mem_blk1 (t : Fin cfg1.N) (i : S2048x4096.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v12).slice (win1_3.rect t)).set ↔ _
  rw [View.set_slice_whole, Rect.mem_set_unit]
  exact Iff.rfl

/-- Every entry of the result array lies in the block some fourth reduction step writes back. -/
theorem cover1 (i : S2048x4096.Idx) : ∃ t : Fin cfg1.N, (cfg1.win 3).flush t = true ∧ i ∈ ((cfg1.win 3).blk t).view.set := by
  have hi0 : (i 0).val < 2048 := idx2_lt0 i
  have hi1 : (i 1).val < 4096 := idx2_lt1 i
  have hNe : cfg1.N = 64 := N_1
  let t : Fin cfg1.N := ⟨16 * ((i 0).val / 512) + 4 * ((i 1).val / 1024) + 3, by omega⟩
  have htv : t.val = 16 * ((i 0).val / 512) + 4 * ((i 1).val / 1024) + 3 := rfl
  obtain ⟨-, -, -, -, -, -, eo0, eo1⟩ := idx1_facts t
  refine ⟨t, (flush1_3 t).mpr (by omega), ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- THE ARRAY region 1 leaves: `G1` of the arrays it finds. -/
theorem final1 (c : Dev nD) : (dat1 V c).arrAt 3 cfg1.N = G1 (arr1_0 V c) (arr1_1 V c) (arr1_2 V c) :=
  (dat1 V c).arrAt_eq_of_cover 3 _ (fun t hf => flushed1_eq V c t ((flush1_3 t).mp hf)) cover1

end

end Cert.KernelIdeal.Frm

end
-- ==== Proof.FrameI.R2P.lean ====
import proofs.«162881_j71614284693592_1_alg».proof.Proof.FrameI.R2F
import Idealize.ShloMosaic.Lib.Pipeline.Value

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: the pieces the three cases leave, as the body's payload terms

Every load and store of the body goes through the whole-shape rectangle at zero offsets, so each buffer ends at
the payload of its last store, and a load after a store reads that store's payload. -/

theorem hz2 : (![0, 0] : Fin 2 → ℕ) = fun _ => 0 := by
  funext a; match a with | ⟨0, _⟩ => rfl | ⟨1, _⟩ => rfl

/-- First reduction step: the accumulator ends at the zero block plus the first block product. -/
theorem sout2_A_eq (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : cond2_0 i) (hc1 : ¬cond2_1 i)
    (x0 : Vec F S512x1024 .bf16) (x1 : Vec F S1024x1024 .f32) (x2 : Vec F S1x1024 .f32) :
    sout2_A_0 c i arg3 harg3 arg4 harg4 arg5 harg5 arg6 harg6 arg7 harg7 hc0 hc1 x0 x1 x2 = k2_pay2 x0 x1 (k2_pay1 (F := F)) := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  sl_unfold_words
  rw [View.canon_cons_unit_zero hz2]
  simp only [View.readAt_eq_ld, harg3.read_unread, harg4.read_unread, harg5.read_unread, harg7.read_unread, View.ld_unit_zero (S := S512x1024) hz2, View.ld_unit_zero (S := S1024x1024) hz2, View.ld_unit_zero (S := S1x1024) hz2, View.readCov_unit_zero (S := S512x1024) _ hz2]

/-- A middle reduction step: the accumulator ends at what it held plus this step's block product. -/
theorem sout2_B_eq (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : ¬cond2_1 i)
    (x0 : Vec F S512x1024 .bf16) (x1 : Vec F S1024x1024 .f32) (x2 : Vec F S1x1024 .f32) (xs0 : Vec F S512x1024 .f32) :
    sout2_B_0 c i arg3 harg3 arg4 harg4 arg5 harg5 arg6 harg6 arg7 harg7 hc0 hc1 x0 x1 x2 xs0 = k2_pay2 x0 x1 xs0 := by
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  sl_unfold_words
  rw [View.canon_unit_zero hz2]
  simp only [View.readAt_eq_ld, harg3.read_unread, harg4.read_unread, harg5.read_unread, harg7.read_unread, View.ld_unit_zero (S := S512x1024) hz2, View.ld_unit_zero (S := S1024x1024) hz2, View.ld_unit_zero (S := S1x1024) hz2, View.readCov_unit_zero (S := S512x1024) _ hz2]

/-- The last reduction step: the accumulator as at a middle step, -/
theorem sout2_C_eq (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .f32) (x2 : Vec F S1x1024 .f32) (xs0 : Vec F S512x1024 .f32) :
    sout2_C_0 c i arg3 harg3 arg4 harg4 arg5 harg5 arg6 harg6 arg7 harg7 hc0 hc1 x0 x1 x2 xs0 = k2_pay2 x0 x1 xs0 := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  sl_unfold_words
  rw [View.canon_unit_zero hz2]
  simp only [View.readAt_eq_ld, harg3.read_unread, harg4.read_unread, harg5.read_unread, harg7.read_unread, View.ld_unit_zero (S := S512x1024) hz2, View.ld_unit_zero (S := S1024x1024) hz2, View.ld_unit_zero (S := S1x1024) hz2, View.readCov_unit_zero (S := S512x1024) _ hz2]

/-- and the output block is the epilogue of the finished accumulator. -/
theorem out2_C_eq (c : Dev nD) (i : grid2.Coords) (arg3 : Memref sig .tc .vmem S512x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole) (hc0 : ¬cond2_0 i) (hc1 : cond2_1 i)
    (x0 : Vec F S512x1024 .bf16) (x1 : Vec F S1024x1024 .f32) (x2 : Vec F S1x1024 .f32) (xs0 : Vec F S512x1024 .f32) :
    out2_C_3 c i arg3 harg3 arg4 harg4 arg5 harg5 arg6 harg6 arg7 harg7 hc0 hc1 x0 x1 x2 xs0 = k2_pay3 x2 (k2_pay2 x0 x1 xs0) := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  sl_unfold_words
  rw [View.canon_unit_zero hz2]
  simp only [View.readAt_eq_ld, harg3.read_unread, harg4.read_unread, harg5.read_unread, harg7.read_unread, View.ld_unit_zero (S := S512x1024) hz2, View.ld_unit_zero (S := S1024x1024) hz2, View.ld_unit_zero (S := S1x1024) hz2, View.readCov_unit_zero (S := S512x1024) _ hz2]

end Cert.KernelIdeal.Frm

end
-- ==== Proof.FrameI.R2V.lean ====
/-
  Region 2: the array it leaves, as one function of the arrays it finds.

  The accumulator is reset at the first of four reduction steps and gains one block product at each; at the
  fourth the epilogue of the finished accumulator is stored and written back. Reading the blocks off their arrays,
  the four block products over 1024 columns each are one product over all 4096 columns.
-/
import proofs.«162881_j71614284693592_1_alg».proof.Proof.FrameI.R2P
import proofs.«162881_j71614284693592_1_alg».proof.Proof.Pay
import proofs.«162881_j71614284693592_1_alg».proof.Proof.LibSumSplit

set_option maxRecDepth 16384

noncomputable section

open scoped BigOperators

namespace Cert.KernelIdeal.Frm

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Val

/-- What region 2 leaves in its result array, entry by entry: the full product of row `R` of the activations with
    row `C` of the weights, then the epilogue with column `C` of the bias rows. -/
def G2 (A : Vec Ideal S2048x4096 .bf16) (B : Vec Ideal S1024x4096 .f32) (b0 : Vec Ideal S1x1024 .f32) : Vec Ideal S2048x1024 .f32 :=
  fun i => (∑ k : Fin 4096, A (ix2 (⟨(i 0).val, idx2_lt0 i⟩ : Fin 2048) k) * B (ix2 (⟨(i 1).val, idx2_lt1 i⟩ : Fin 1024) k)) + b0 (ix2 (0 : Fin 1) (⟨(i 1).val, idx2_lt1 i⟩ : Fin 1024))

theorem G2_apply (A : Vec Ideal S2048x4096 .bf16) (B : Vec Ideal S1024x4096 .f32) (b0 : Vec Ideal S1x1024 .f32) (R : Fin 2048) (C : Fin 1024) :
    G2 A B b0 (ix2 R C) = (∑ k : Fin 4096, A (ix2 R k) * B (ix2 C k)) + b0 (ix2 (0 : Fin 1) C) := rfl

section
variable (V : (c : Dev nD) → (b : Ref sig .tc) → Buf (Elt Ideal) ((c : Thread nD τ).loc b))

/-! ## The arrays the region finds and the blocks it is handed, at their literal types -/

abbrev arr2_0 (c : Dev nD) : Vec Ideal S2048x4096 .bf16 := V c main_v12
abbrev arr2_1 (c : Dev nD) : Vec Ideal S1024x4096 .f32 := V c main_arg9
abbrev arr2_2 (c : Dev nD) : Vec Ideal S1x1024 .f32 := V c main_v10
abbrev blkv2_0 (c : Dev nD) (t : Fin cfg2.N) : Vec Ideal S512x1024 .bf16 := iblk2 V c 0 t
abbrev blkv2_1 (c : Dev nD) (t : Fin cfg2.N) : Vec Ideal S1024x1024 .f32 := iblk2 V c 1 t
abbrev blkv2_2 (c : Dev nD) (t : Fin cfg2.N) : Vec Ideal S1x1024 .f32 := iblk2 V c 2 t

/-! ## The accumulator, step by step -/

/-- The point before `t` (itself at the grid's first point). -/
abbrev prev2 (t : Fin cfg2.N) : Fin cfg2.N := ⟨t.val - 1, Nat.lt_of_le_of_lt (Nat.sub_le _ _) t.isLt⟩

/-- What the accumulator holds after point `t`. -/
abbrev acc2 (c : Dev nD) (t : Fin cfg2.N) : Vec Ideal S512x1024 .f32 := (outsAt2 V c t.val t.isLt).2

theorem acc2_first (c : Dev nD) (t : Fin cfg2.N) (h0 : t.val % 4 = 0) :
    acc2 V c t = k2_pay2 (blkv2_0 V c t) (blkv2_1 V c t) (k2_pay1 (F := Ideal)) := by
  have h1 : ¬t.val % 4 = 3 := by omega
  show (outsAt2 V c t.val t.isLt).2 = _
  rw [outsAt2_A V c t h0 h1]
  dsimp only
  exact sout2_A_eq (F := Ideal) c _ _ _ _ _ _ _ _ _ _ _ _ _ _ _ _

theorem acc2_step (c : Dev nD) (t : Fin cfg2.N) (h0 : ¬t.val % 4 = 0) :
    acc2 V c t = k2_pay2 (blkv2_0 V c t) (blkv2_1 V c t) (acc2 V c (prev2 t)) := by
  show (outsAt2 V c t.val t.isLt).2 = _
  by_cases h1 : t.val % 4 = 3
  · rw [outsAt2_C V c t h0 h1]
    dsimp only
    exact sout2_C_eq (F := Ideal) c _ _ _ _ _ _ _ _ _ _ _ _ _ _ _ _ _
  · rw [outsAt2_B V c t h0 h1]
    dsimp only
    exact sout2_B_eq (F := Ideal) c _ _ _ _ _ _ _ _ _ _ _ _ _ _ _ _ _

/-- At the last reduction step the output block is the epilogue of the accumulator just finished. -/
theorem out2_last (c : Dev nD) (t : Fin cfg2.N) (h1 : t.val % 4 = 3) :
    (outsAt2 V c t.val t.isLt).1 = k2_pay3 (blkv2_2 V c t) (acc2 V c t) := by
  have h0 : ¬t.val % 4 = 0 := by omega
  rw [acc2_step V c t h0]
  rw [outsAt2_C V c t h0 h1]
  dsimp only
  exact out2_C_eq (F := Ideal) c _ _ _ _ _ _ _ _ _ _ _ _ _ _ _ _ _

/-! ## The blocks, read off their arrays -/

/-- Where each window's block sits at a point, decided over the grid: the row block, the column block and the
    reduction block are the point's three coordinates. -/
theorem idx2_facts : ∀ t : Fin cfg2.N,
    win2_0.index t (0 : Fin 2) = t.val / 4 ∧ win2_0.index t (1 : Fin 2) = t.val % 4
    ∧ win2_1.index t (0 : Fin 2) = 0 ∧ win2_1.index t (1 : Fin 2) = t.val % 4
    ∧ win2_2.index t (0 : Fin 2) = 0 ∧ win2_2.index t (1 : Fin 2) = 0
    ∧ win2_3.index t (0 : Fin 2) = t.val / 4 ∧ win2_3.index t (1 : Fin 2) = 0 :=
  (by decide +kernel : ∀ t : Fin grid2.N, _)

/-- The activation block at a point, entry (r, k): the array at row `512·I + r`, column `1024·kk + k`. -/
theorem blk2_0 (c : Dev nD) (p : Fin cfg2.N) (I kk : Fin 4) (hI : p.val / 4 = I.val) (hk : p.val % 4 = kk.val) (r : Fin 512) (k : Fin 1024) :
    (blkv2_0 V c p) (ix2 r k) = arr2_0 V c (ix2 (⟨512 * I.val + r.val, by omega⟩ : Fin 2048) (⟨1024 * kk.val + k.val, by omega⟩ : Fin 4096)) := by
  obtain ⟨e0, e1, -⟩ := idx2_facts p
  show V c main_v12 (((cfg2.win 0).blk p).view.emb (ix2 r k)) = _
  refine congrArg (V c main_v12) (funext fun a => Fin.ext ?_)
  match a with
  | ⟨0, _⟩ => show win2_0.index p (0 : Fin 2) * 512 + 1 * r.val = 512 * I.val + r.val; omega
  | ⟨1, _⟩ => show win2_0.index p (1 : Fin 2) * 1024 + 1 * k.val = 1024 * kk.val + k.val; omega

/-- The weight block at a point, entry (cc, k): the array at row `1024·J + cc`, column `1024·kk + k`. -/
theorem blk2_1 (c : Dev nD) (p : Fin cfg2.N) (J : Fin 1) (kk : Fin 4) (hJ : 0 = J.val) (hk : p.val % 4 = kk.val) (cc : Fin 1024) (k : Fin 1024) :
    (blkv2_1 V c p) (ix2 cc k) = arr2_1 V c (ix2 (⟨1024 * J.val + cc.val, by omega⟩ : Fin 1024) (⟨1024 * kk.val + k.val, by omega⟩ : Fin 4096)) := by
  obtain ⟨-, -, e0, e1, -⟩ := idx2_facts p
  show V c main_arg9 (((cfg2.win 1).blk p).view.emb (ix2 cc k)) = _
  refine congrArg (V c main_arg9) (funext fun a => Fin.ext ?_)
  match a with
  | ⟨0, _⟩ => show win2_1.index p (0 : Fin 2) * 1024 + 1 * cc.val = 1024 * J.val + cc.val; omega
  | ⟨1, _⟩ => show win2_1.index p (1 : Fin 2) * 1024 + 1 * k.val = 1024 * kk.val + k.val; omega

/-- Bias row 0 at a point, entry (0, cc): the row array at column `1024·J + cc`. -/
theorem blk2_2 (c : Dev nD) (p : Fin cfg2.N) (J : Fin 1) (hJ : 0 = J.val) (cc : Fin 1024) :
    (blkv2_2 V c p) (ix2 (0 : Fin 1) cc) = arr2_2 V c (ix2 (0 : Fin 1) (⟨1024 * J.val + cc.val, by omega⟩ : Fin 1024)) := by
  obtain ⟨-, -, -, -, e0, e1, -⟩ := idx2_facts p
  show V c main_v10 (((cfg2.win 2).blk p).view.emb (ix2 (0 : Fin 1) cc)) = _
  refine congrArg (V c main_v10) (funext fun a => Fin.ext ?_)
  match a with
  | ⟨0, _⟩ => show win2_2.index p (0 : Fin 2) * 1 + 1 * (0 : Fin 1).val = (0 : Fin 1).val; omega
  | ⟨1, _⟩ => show win2_2.index p (1 : Fin 2) * 1024 + 1 * cc.val = 1024 * J.val + cc.val; omega

/-! ## The four block products are one product over all columns -/

/-- One reduction step's product at entry (r, cc), over the arrays. -/
theorem step2_sum (c : Dev nD) (p : Fin cfg2.N) (I : Fin 4) (J : Fin 1) (kk : Fin 4) (hI : p.val / 4 = I.val) (hJ : 0 = J.val) (hk : p.val % 4 = kk.val)
    (r : Fin 512) (cc : Fin 1024) :
    (∑ k : Fin 1024, (blkv2_0 V c p) (ix2 r k) * (blkv2_1 V c p) (ix2 cc k))
      = ∑ k : Fin 1024, arr2_0 V c (ix2 (⟨512 * I.val + r.val, by omega⟩ : Fin 2048) (⟨1024 * kk.val + k.val, by omega⟩ : Fin 4096))
          * arr2_1 V c (ix2 (⟨1024 * J.val + cc.val, by omega⟩ : Fin 1024) (⟨1024 * kk.val + k.val, by omega⟩ : Fin 4096)) :=
  Finset.sum_congr rfl fun k _ => by rw [blk2_0 V c p I kk hI hk r k, blk2_1 V c p J kk hJ hk cc k]

/-- After the fourth reduction step the accumulator entry (r, cc) is the full product of the two array rows. -/
theorem acc2_full (c : Dev nD) (t : Fin cfg2.N) (h3 : t.val % 4 = 3) (I : Fin 4) (J : Fin 1) (hI : t.val / 4 = I.val) (hJ : 0 = J.val)
    (r : Fin 512) (cc : Fin 1024) :
    acc2 V c t (ix2 r cc)
      = ∑ k : Fin 4096, arr2_0 V c (ix2 (⟨512 * I.val + r.val, by omega⟩ : Fin 2048) k) * arr2_1 V c (ix2 (⟨1024 * J.val + cc.val, by omega⟩ : Fin 1024) k) := by
  have hN : t.val < 16 := lt_of_lt_of_eq t.isLt (show cfg2.N = 16 from N_2)
  have q1 : (prev2 t).val = t.val - 1 := rfl
  have q2 : (prev2 (prev2 t)).val = t.val - 1 - 1 := rfl
  have q3 : (prev2 (prev2 (prev2 t))).val = t.val - 1 - 1 - 1 := rfl
  rw [acc2_step V c t (by omega)]
  refine (pay2_2 _ _ _ r cc).trans ?_
  rw [acc2_step V c (prev2 t) (by rw [q1]; omega)]
  rw [pay2_2 _ _ _ r cc]
  rw [acc2_step V c (prev2 (prev2 t)) (by rw [q2]; omega)]
  rw [pay2_2 _ _ _ r cc]
  rw [acc2_first V c (prev2 (prev2 (prev2 t))) (by rw [q3]; omega)]
  rw [pay2_2 _ _ _ r cc, pay1_2]
  rw [step2_sum V c t I J (3 : Fin 4) hI hJ (by show t.val % 4 = 3; exact h3) r cc,
    step2_sum V c (prev2 t) I J (2 : Fin 4) (by rw [q1]; omega) hJ (by rw [q1]; show (t.val - 1) % 4 = 2; omega) r cc,
    step2_sum V c (prev2 (prev2 t)) I J (1 : Fin 4) (by rw [q2]; omega) hJ (by rw [q2]; show (t.val - 1 - 1) % 4 = 1; omega) r cc,
    step2_sum V c (prev2 (prev2 (prev2 t))) I J (0 : Fin 4) (by rw [q3]; omega) hJ (by rw [q3]; show (t.val - 1 - 1 - 1) % 4 = 0; omega) r cc]
  rw [Cert.Lib.SumSplit.sum_fin_mul_split 4 1024 (fun k : Fin (4 * 1024) => arr2_0 V c (ix2 (⟨512 * I.val + r.val, by omega⟩ : Fin 2048) k) * arr2_1 V c (ix2 (⟨1024 * J.val + cc.val, by omega⟩ : Fin 1024) k)),
    Fin.sum_univ_four, zero_add]

/-! ## What the region writes back, and the array it leaves -/

/-- WHAT POINT `t` WRITES BACK (a fourth reduction step) is block `t` of `G2` of the arrays the region finds. -/
theorem flushed2_eq (c : Dev nD) (t : Fin cfg2.N) (h3 : t.val % 4 = 3) :
    (dat2 V c).flushed 3 t = ((cfg2.win 3).blk t).view.read (Elt Ideal) (G2 (arr2_0 V c) (arr2_1 V c) (arr2_2 V c)) := by
  have hN : t.val < 16 := lt_of_lt_of_eq t.isLt (show cfg2.N = 16 from N_2)
  show (cfg2.win 3).cut (grid2.coords t) ((dat2 V c).after 3 t) = _
  rw [after2_3, out2_last V c t h3]
  funext y
  obtain ⟨r, cc, rfl⟩ : ∃ (r : Fin 512) (cc : Fin 1024), y = ix2 r cc := ⟨y 0, y 1, eq_ix2 y⟩
  obtain ⟨-, -, -, -, -, -, eo0, eo1⟩ := idx2_facts t
  have hemb : ((cfg2.win 3).blk t).view.emb (ix2 r cc) = ix2 (⟨512 * (t.val / 4) + r.val, by omega⟩ : Fin 2048) (⟨1024 * (0) + cc.val, by omega⟩ : Fin 1024) := by
    funext a; apply Fin.ext
    match a with
    | ⟨0, _⟩ => show win2_3.index t (0 : Fin 2) * 512 + 1 * r.val = 512 * (t.val / 4) + r.val; omega
    | ⟨1, _⟩ => show win2_3.index t (1 : Fin 2) * 1024 + 1 * cc.val = 1024 * (0) + cc.val; omega
  show k2_pay3 (blkv2_2 V c t) (acc2 V c t) (ix2 r cc) = G2 (arr2_0 V c) (arr2_1 V c) (arr2_2 V c) (((cfg2.win 3).blk t).view.emb (ix2 r cc))
  rw [hemb, G2_apply, pay3_2, acc2_full V c t h3 (⟨t.val / 4, by omega⟩ : Fin 4) (⟨0, by omega⟩ : Fin 1) rfl rfl r cc]
  rw [blk2_2 V c t (⟨0, by omega⟩ : Fin 1) rfl cc]

theorem mem_blk2 (t : Fin cfg2.N) (i : S2048x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v13).slice (win2_3.rect t)).set ↔ _
  rw [View.set_slice_whole, Rect.mem_set_unit]
  exact Iff.rfl

/-- Every entry of the result array lies in the block some fourth reduction step writes back. -/
theorem cover2 (i : S2048x1024.Idx) : ∃ t : Fin cfg2.N, (cfg2.win 3).flush t = true ∧ i ∈ ((cfg2.win 3).blk t).view.set := by
  have hi0 : (i 0).val < 2048 := idx2_lt0 i
  have hi1 : (i 1).val < 1024 := idx2_lt1 i
  have hNe : cfg2.N = 16 := N_2
  let t : Fin cfg2.N := ⟨4 * ((i 0).val / 512) + 4 * ((i 1).val / 1024) + 3, by omega⟩
  have htv : t.val = 4 * ((i 0).val / 512) + 4 * ((i 1).val / 1024) + 3 := rfl
  obtain ⟨-, -, -, -, -, -, eo0, eo1⟩ := idx2_facts t
  refine ⟨t, (flush2_3 t).mpr (by omega), ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- THE ARRAY region 2 leaves: `G2` of the arrays it finds. -/
theorem final2 (c : Dev nD) : (dat2 V c).arrAt 3 cfg2.N = G2 (arr2_0 V c) (arr2_1 V c) (arr2_2 V c) :=
  (dat2 V c).arrAt_eq_of_cover 3 _ (fun t hf => flushed2_eq V c t ((flush2_3 t).mp hf)) cover2

end

end Cert.KernelIdeal.Frm

end
-- ==== Proof.Spec.lean ====
/-
  The function both programs compute, on the extended reals, index by index.

  Three linear layers `x · wᵀ + b` over a batch of 2048 rows. After the first (4096 → 4096) each entry `h` goes
  through a residual block `h + relu(relu(h · a + p) · a' + p')`, where `a`, `a'` are the middle columns of two
  4096 × 3 tables and `p`, `p'` two bias vectors; the second layer (4096 → 4096) is followed by a relu; the third
  (4096 → 1024) is the result. `relu v = max v 0`.
-/
import Idealize.ShloMosaic.PureOps.Ideal
import Idealize.ShloMosaic.Lib.ValueIdx

noncomputable section

open scoped BigOperators

namespace Cert.Spec

open Idealize.ShloMosaic Idealize.ShloMosaic.ValueIdx

/-- Arrays of extended reals of rank 2 and rank 1, over literal extents. -/
abbrev A2 (a b : Nat) : Type := (⟨2, ![a, b]⟩ : Shape).Idx → EReal
abbrev A1 (a : Nat) : Type := (⟨1, ![a]⟩ : Shape).Idx → EReal

/-- One entry of a linear layer `x · wᵀ + b`: row `r` of `x` against row `c` of `w`, plus the bias. -/
def lin {B K N : Nat} (x : A2 B K) (w : A2 N K) (b : A1 N) (r : Fin B) (c : Fin N) : EReal :=
  (∑ k : Fin K, x (ix2 r k) * w (ix2 c k)) + b (ix1 c)

def relu (v : EReal) : EReal := max v 0

/-- The middle column (index 1) of a 4096 × 3 table. -/
def mid (t : A2 4096 3) (c : Fin 4096) : EReal := t (ix2 c (1 : Fin 3))

/-- The residual block on one entry `h` of column `c`. -/
def res (w1 : A2 4096 3) (b1 : A1 4096) (w2 : A2 4096 3) (b2 : A1 4096) (c : Fin 4096) (h : EReal) : EReal :=
  h + relu (relu (h * mid w1 c + b1 (ix1 c)) * mid w2 c + b2 (ix1 c))

/-- After the first layer and the residual block. -/
def stage1 (x : A2 2048 4096) (fc1w : A2 4096 4096) (fc1b : A1 4096) (w1 : A2 4096 3) (b1 : A1 4096)
    (w2 : A2 4096 3) (b2 : A1 4096) : A2 2048 4096 :=
  fun j => res w1 b1 w2 b2 (j 1) (lin x fc1w fc1b (j 0) (j 1))

/-- After the second layer and its relu. -/
def stage2 (h1 : A2 2048 4096) (l2w : A2 4096 4096) (l2b : A1 4096) : A2 2048 4096 :=
  fun j => relu (lin h1 l2w l2b (j 0) (j 1))

/-- The third layer. -/
def stage3 (h2 : A2 2048 4096) (l3w : A2 1024 4096) (l3b : A1 1024) : A2 2048 1024 :=
  fun j => lin h2 l3w l3b (j 0) (j 1)

/-- The whole function. -/
def out (x : A2 2048 4096) (fc1w : A2 4096 4096) (fc1b : A1 4096) (w1 : A2 4096 3) (b1 : A1 4096)
    (w2 : A2 4096 3) (b2 : A1 4096) (l2w : A2 4096 4096) (l2b : A1 4096) (l3w : A2 1024 4096) (l3b : A1 1024) :
    A2 2048 1024 :=
  stage3 (stage2 (stage1 x fc1w fc1b w1 b1 w2 b2) l2w l2b) l3w l3b

end Cert.Spec

end
-- ==== Proof.LibColCast.lean ====
/-
  A column of a table as a one-row array.

  `shapeCast_a1_a_apply`: an `[a, 1]` array cast to `[a]` reads, at `i`, the operand at `(i, 0)` (the counterpart of
  the library's cast of `[1, a]` to `[a]`). `col_as_row_apply`: column `o` of an `[a, n]` table, cut out as an
  `[a, 1]` array, cast to the vector `[a]` and again to the one-row array `[1, a]` — what `w[:, o].reshape(1, a)`
  lowers to — reads, at `(0, C)`, the table at `(C, o)`. For any element type and any extents.
-/
import Idealize.ShloMosaic.Lib.ValueLayout
import Idealize.ShloMosaic.Lib.Pipeline.Value

namespace Cert.Lib.ColCast

open Idealize.ShloMosaic Idealize.ShloMosaic.ValueIdx Idealize.ShloMosaic.View

variable {α : Type}

/-- A one-column array cast to a vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column `o` of a table, cut out, flattened and laid as one row: entry `(0, C)` is the table's entry `(C, o)`. -/
theorem col_as_row_apply {a n : ℕ} (o : ℕ) (X : (⟨2, ![a, n]⟩ : Shape).Idx → α)
    (hs : (⟨2, ![a, n]⟩ : Shape).Slices ![0, o] ⟨2, ![a, 1]⟩)
    (h1 : (⟨2, ![a, 1]⟩ : Shape).ShapeCasts ⟨1, ![a]⟩) (h2 : (⟨1, ![a]⟩ : Shape).ShapeCasts ⟨2, ![1, a]⟩)
    (C : Fin a) (k : Fin n) (hk : k.val = o) :
    shapeCast ⟨2, ![1, a]⟩ (shapeCast ⟨1, ![a]⟩ (extractStridedSlice ⟨2, ![a, 1]⟩ ![0, o] X hs) h1) h2 (ix2 (0 : Fin 1) C)
      = X (ix2 C k) := by
  rw [shapeCast_a_1a_apply _ h2 0 C, shapeCast_a1_a_apply _ h1 C]
  exact slice2_axis1_apply o X hs C (0 : Fin 1) k (by rw [hk]; rfl)

end Cert.Lib.ColCast
-- ==== Proof.FrameI.Chain.lean ====
/-
  The kernel program's result is the specification.

  Each region leaves its result array at one function of the arrays it finds (the three region modules). The
  arrays a region finds are the program's arguments, the rows the host stretch prepares (a bias vector as a
  one-row array; the middle column of a three-column table as a one-row array), and the previous region's result.
  Composing the three functions and reading the prepared rows back gives the three layers of the specification.
-/
import proofs.«162881_j71614284693592_1_alg».proof.Proof.FrameI.Asm
import proofs.«162881_j71614284693592_1_alg».proof.Proof.FrameI.R0V
import proofs.«162881_j71614284693592_1_alg».proof.Proof.FrameI.R1V
import proofs.«162881_j71614284693592_1_alg».proof.Proof.FrameI.R2V
import proofs.«162881_j71614284693592_1_alg».proof.Proof.Spec
import proofs.«162881_j71614284693592_1_alg».proof.Proof.LibColCast
import Idealize.ShloMosaic.Lib.ValueLayout
import Idealize.ShloMosaic.Lib.StableHlo.Run

set_option maxRecDepth 16384

noncomputable section

open scoped BigOperators

namespace Cert.KernelIdeal.Frm

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen

section
variable (m : (ℓ : Loc nD τ sig) → Buf (Elt Ideal) ℓ)

/-! ## The rows the host stretch prepares -/

theorem host_v0 (c : Dev nD) : (W1 m c main_v0 : Vec Ideal S1x4096 .f32) = shapeCast S1x4096 (m ((c : Thread nD τ).loc main_arg2) : Vec Ideal S4096 .f32) shapeCasts_S4096_S1x4096 := by
  dsimp only [W1, W0, hostOps0]; after_results; rfl
theorem host_v3 (c : Dev nD) : (W1 m c main_v3 : Vec Ideal S1x4096 .f32) = shapeCast S1x4096 (shapeCast S4096 (extractStridedSlice S4096x1 ![0, 1] (m ((c : Thread nD τ).loc main_arg3) : Vec Ideal S4096x3 .f32) slices_S4096x3_S4096x1_0_1) shapeCasts_S4096x1_S4096) shapeCasts_S4096_S1x4096 := by
  dsimp only [W1, W0, hostOps0]; after_results; rfl
theorem host_v4 (c : Dev nD) : (W1 m c main_v4 : Vec Ideal S1x4096 .f32) = shapeCast S1x4096 (m ((c : Thread nD τ).loc main_arg4) : Vec Ideal S4096 .f32) shapeCasts_S4096_S1x4096 := by
  dsimp only [W1, W0, hostOps0]; after_results; rfl
theorem host_v7 (c : Dev nD) : (W1 m c main_v7 : Vec Ideal S1x4096 .f32) = shapeCast S1x4096 (shapeCast S4096 (extractStridedSlice S4096x1 ![0, 1] (m ((c : Thread nD τ).loc main_arg5) : Vec Ideal S4096x3 .f32) slices_S4096x3_S4096x1_0_1) shapeCasts_S4096x1_S4096) shapeCasts_S4096_S1x4096 := by
  dsimp only [W1, W0, hostOps0]; after_results; rfl
theorem host_v8 (c : Dev nD) : (W1 m c main_v8 : Vec Ideal S1x4096 .f32) = shapeCast S1x4096 (m ((c : Thread nD τ).loc main_arg6) : Vec Ideal S4096 .f32) shapeCasts_S4096_S1x4096 := by
  dsimp only [W1, W0, hostOps0]; after_results; rfl
theorem host_v9 (c : Dev nD) : (W1 m c main_v9 : Vec Ideal S1x4096 .f32) = shapeCast S1x4096 (m ((c : Thread nD τ).loc main_arg8) : Vec Ideal S4096 .f32) shapeCasts_S4096_S1x4096 := by
  dsimp only [W1, W0, hostOps0]; after_results; rfl
theorem host_v10 (c : Dev nD) : (W1 m c main_v10 : Vec Ideal S1x1024 .f32) = shapeCast S1x1024 (m ((c : Thread nD τ).loc main_arg10) : Vec Ideal S1024 .f32) shapeCasts_S1024_S1x1024 := by
  dsimp only [W1, W0, hostOps0]; after_results; rfl

/-- A bias vector prepared as a one-row array reads, at column `C`, the vector at `C`. -/
theorem row_vec {a : ℕ} (x : (⟨1, ![a]⟩ : Shape).Idx → EReal) (h : (⟨1, ![a]⟩ : Shape).ShapeCasts ⟨2, ![1, a]⟩) (C : Fin a) :
    shapeCast ⟨2, ![1, a]⟩ x h (ix2 (0 : Fin 1) C) = x (ix1 C) := shapeCast_a_1a_apply x h 0 C

/-- The middle column of a three-column table prepared as a one-row array reads, at column `C`, the table at `(C, 1)`. -/
theorem row_mid (X : Vec Ideal S4096x3 .f32) (C : Fin 4096) :
    shapeCast S1x4096 (shapeCast S4096 (extractStridedSlice S4096x1 ![0, 1] X slices_S4096x3_S4096x1_0_1) shapeCasts_S4096x1_S4096) shapeCasts_S4096_S1x4096 (ix2 (0 : Fin 1) C)
      = X (ix2 C (1 : Fin 3)) := by
  exact Cert.Lib.ColCast.col_as_row_apply 1 X slices_S4096x3_S4096x1_0_1 shapeCasts_S4096x1_S4096 shapeCasts_S4096_S1x4096 C (1 : Fin 3) rfl

/-! ## The arrays each region finds -/

theorem in1_arg (c : Dev nD) (b : Ref sig .tc) (h : b ∉ hostOps0_W) : V1 m c b = m ((c : Thread nD τ).loc b) :=
  Gen.V1_of m c b h

theorem in2_of (c : Dev nD) (b : Ref sig .tc) (hb : ∀ w, Pipeline.arrRef spec0 w ≠ b) : V2 m c b = V1 m c b := W2_of_ne m c b hb
theorem in3_of (c : Dev nD) (b : Ref sig .tc) (hb1 : ∀ w, Pipeline.arrRef spec1 w ≠ b) (hb0 : ∀ w, Pipeline.arrRef spec0 w ≠ b) : V3 m c b = V1 m c b :=
  (W3_of_ne m c b hb1).trans (W2_of_ne m c b hb0)

/-- Region 0's result: the first layer and its residual block, over the arguments and the prepared rows. -/
theorem res0 (c : Dev nD) : (V2 m c main_v11 : Vec Ideal S2048x4096 .bf16) = G0 (arr0_0 (V1 m) c) (arr0_1 (V1 m) c) (arr0_2 (V1 m) c) (arr0_3 (V1 m) c) (arr0_4 (V1 m) c) (arr0_5 (V1 m) c) (arr0_6 (V1 m) c) :=
  (W2_arr m c 7).trans (final0 (V1 m) c)
/-- Region 1's result over region 0's. -/
theorem res1 (c : Dev nD) : (V3 m c main_v12 : Vec Ideal S2048x4096 .bf16) = G1 (arr1_0 (V2 m) c) (arr1_1 (V2 m) c) (arr1_2 (V2 m) c) :=
  (W3_arr m c 3).trans (final1 (V2 m) c)
/-- Region 2's result over region 1's: the program's result. -/
theorem res2 (c : Dev nD) : (W4 m c main_v13 : Vec Ideal S2048x1024 .f32) = G2 (arr2_0 (V3 m) c) (arr2_1 (V3 m) c) (arr2_2 (V3 m) c) :=
  (W4_arr m c 3).trans (final2 (V3 m) c)

end

end Cert.KernelIdeal.Frm

end
-- ==== Proof.FrameI.Value.lean ====
/-
  The kernel program's result, entry by entry, is the specification's.

  Region 0's function over the arguments and the prepared rows is the first layer with its residual block; region 1's
  over that is the second layer with its relu; region 2's over that is the third layer.
-/
import proofs.«162881_j71614284693592_1_alg».proof.Proof.FrameI.Chain

set_option maxRecDepth 16384

noncomputable section

open scoped BigOperators

namespace Cert.KernelIdeal.Frm

open Idealize.ShloMosaic Idealize.ShloMosaic.TcCoe Idealize.ShloMosaic.ValueIdx Idealize.ShloMosaic.StableHlo
open Idealize.SL Idealize.SL.Sem
open Cert.KernelIdeal Cert.KernelIdeal.Gen

section
variable (m : (ℓ : Loc nD τ sig) → Buf (Elt Ideal) ℓ)

/-! ## The arrays and rows each region finds, in terms of the arguments -/

theorem a0_0 (c : Dev nD) : arr0_0 (V1 m) c = (m ((c : Thread nD τ).loc main_arg0)) := in1_arg m c main_arg0 (by decide)
theorem a0_1 (c : Dev nD) : arr0_1 (V1 m) c = (m ((c : Thread nD τ).loc main_arg1)) := in1_arg m c main_arg1 (by decide)
theorem a1_1 (c : Dev nD) : arr1_1 (V2 m) c = (m ((c : Thread nD τ).loc main_arg7)) :=
  (in2_of m c main_arg7 (by decide)).trans (in1_arg m c main_arg7 (by decide))
theorem a2_1 (c : Dev nD) : arr2_1 (V3 m) c = (m ((c : Thread nD τ).loc main_arg9)) :=
  (in3_of m c main_arg9 (by decide) (by decide)).trans (in1_arg m c main_arg9 (by decide))

theorem row0 (c : Dev nD) (C : Fin 4096) : arr0_2 (V1 m) c (ix2 (0 : Fin 1) C) = ((m ((c : Thread nD τ).loc main_arg2)) : Vec Ideal S4096 .f32) (ix1 C) :=
  (congrFun (host_v0 m c) _).trans (row_vec _ _ C)
theorem row1 (c : Dev nD) (C : Fin 4096) : arr0_3 (V1 m) c (ix2 (0 : Fin 1) C) = ((m ((c : Thread nD τ).loc main_arg3)) : Vec Ideal S4096x3 .f32) (ix2 C (1 : Fin 3)) :=
  (congrFun (host_v3 m c) _).trans (row_mid _ C)
theorem row2 (c : Dev nD) (C : Fin 4096) : arr0_4 (V1 m) c (ix2 (0 : Fin 1) C) = ((m ((c : Thread nD τ).loc main_arg4)) : Vec Ideal S4096 .f32) (ix1 C) :=
  (congrFun (host_v4 m c) _).trans (row_vec _ _ C)
theorem row3 (c : Dev nD) (C : Fin 4096) : arr0_5 (V1 m) c (ix2 (0 : Fin 1) C) = ((m ((c : Thread nD τ).loc main_arg5)) : Vec Ideal S4096x3 .f32) (ix2 C (1 : Fin 3)) :=
  (congrFun (host_v7 m c) _).trans (row_mid _ C)
theorem row4 (c : Dev nD) (C : Fin 4096) : arr0_6 (V1 m) c (ix2 (0 : Fin 1) C) = ((m ((c : Thread nD τ).loc main_arg6)) : Vec Ideal S4096 .f32) (ix1 C) :=
  (congrFun (host_v8 m c) _).trans (row_vec _ _ C)
theorem row5 (c : Dev nD) (C : Fin 4096) : arr1_2 (V2 m) c (ix2 (0 : Fin 1) C) = ((m ((c : Thread nD τ).loc main_arg8)) : Vec Ideal S4096 .f32) (ix1 C) :=
  (congrFun (in2_of m c main_v9 (by decide)) _).trans ((congrFun (host_v9 m c) _).trans (row_vec _ _ C))
theorem row6 (c : Dev nD) (C : Fin 1024) : arr2_2 (V3 m) c (ix2 (0 : Fin 1) C) = ((m ((c : Thread nD τ).loc main_arg10)) : Vec Ideal S1024 .f32) (ix1 C) :=
  (congrFun (in3_of m c main_v10 (by decide) (by decide)) _).trans ((congrFun (host_v10 m c) _).trans (row_vec _ _ C))

/-! ## The three stages -/

/-- What region 1 finds in its activation array: the first layer with its residual block. -/
theorem stage1_eq (c : Dev nD) :
    arr1_0 (V2 m) c = Cert.Spec.stage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (res0 m c).trans ?_
  funext j
  obtain ⟨R, C, rfl⟩ : ∃ (R : Fin 2048) (C : Fin 4096), j = ix2 R C := ⟨j 0, j 1, eq_ix2 j⟩
  rw [G0_apply, row0 m c C, row1 m c C, row2 m c C, row3 m c C, row4 m c C, a0_0 m c, a0_1 m c]
  rfl

/-- What region 2 finds in its activation array: the second layer with its relu over the first stage. -/
theorem stage2_eq (c : Dev nD) :
    arr2_0 (V3 m) c = Cert.Spec.stage2 (Cert.Spec.stage1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8)) := by
  refine (res1 m c).trans ?_
  funext j
  obtain ⟨R, C, rfl⟩ : ∃ (R : Fin 2048) (C : Fin 4096), j = ix2 R C := ⟨j 0, j 1, eq_ix2 j⟩
  rw [G1_apply, row5 m c C, stage1_eq m c, a1_1 m c]
  rfl

/-- THE RESULT: the program's result array after the run is the specification of its arguments. -/
theorem result_eq (c : Dev nD) :
    (W4 m c main_v13 : Vec Ideal S2048x1024 .f32)
      = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (res2 m c).trans ?_
  funext j
  obtain ⟨R, C, rfl⟩ : ∃ (R : Fin 2048) (C : Fin 1024), j = ix2 R C := ⟨j 0, j 1, eq_ix2 j⟩
  rw [G2_apply, row6 m c C, stage2_eq m c, a2_1 m c]
  rfl

end

end Cert.KernelIdeal.Frm

end
-- ==== Proof.RefIsSpec.lean ====
/-
  The reference program is the specification.

  The reference is a straight line of 41 array operations. Read at one index of its result, every one of them is
  either a pointwise operation on the extended reals (a sum, a product, a maximum with the zero array), a layout
  operation that only moves an index (a transpose, a broadcast of a vector along the rows, the slice that picks the
  middle column of a 4096 × 3 table and the reshape that forgets its unit axis), or a contraction, which is a sum
  over `k : Fin 4096` of products. This module follows the index through the layout operations and finds, stage by
  stage, the functions of `Cert.Spec`:

  * the first contraction against the transposed weight, plus the broadcast bias, is `Spec.lin x w b r c`
    (`layer1_at`): the transpose turns "row `k`, column `c` of `wᵀ`" into "row `c`, column `k` of `w`";
  * the two multiply–add–maximum rounds and the final sum with the first layer's entry are `Spec.res` of that
    entry (`block_at`, `stage1_eq`): the slice-reshape-broadcast chain of a table reads its middle column at the
    entry's column `c`, a broadcast bias reads the vector at `c`, and the zero array reads `0`;
  * the second contraction, bias and maximum with zero are `Spec.stage2` of the first stage (`stage2_eq`);
  * the third contraction and bias are `Spec.stage3` of the second stage, which is `Spec.out` (`ref_eq`).

  Every index is split into its two coordinates over the literal extents, so that each composed index function of
  the generated reading module is identified with `ix2` / `ix1` of those coordinates by a case split on the axis.
-/
import proofs.«162881_j71614284693592_1_alg».proof.Proof.Spec
import proofs.«162881_j71614284693592_1_alg».proof.Proof.Gen.ReferenceIdeal.Read

noncomputable section

open scoped BigOperators

namespace Cert.RefSpec

open Cert.ReferenceIdeal Cert.ReferenceIdeal.Read Idealize.ShloMosaic Idealize.ShloMosaic.ValueIdx

/-! ## Where the layout operations send an index

Each equation follows one entry `(r, c)` of a 2048 × n array back through a chain of layout operations to the
entry of the argument array that is read there. -/

/-- First contraction, left operand: entry `(r, c)`, term `k` reads `x` at `(r, k)`. -/
theorem lidx_layer1 (r : Fin 2048) (c k : Fin 4096) : lidx_main_v1 (ix2 r c) k = ix2 r k :=
  funext fun a => Fin.ext (by match a with | ⟨0, _⟩ => rfl | ⟨1, _⟩ => rfl)
/-- First contraction, right operand: the transposed weight at `(k, c)` is the weight at `(c, k)`. -/
theorem ridx_layer1 (r : Fin 2048) (c k : Fin 4096) : idx_main_v0 (ridx_main_v1 (ix2 r c) k) = ix2 c k :=
  funext fun a => Fin.ext (by match a with | ⟨0, _⟩ => rfl | ⟨1, _⟩ => rfl)
/-- The first bias, broadcast along the rows, is read at the column. -/
theorem bidx_layer1 (r : Fin 2048) (c : Fin 4096) : idx_main_v2 (idx_main_v3 (ix2 r c)) = ix1 c :=
  funext fun a => Fin.ext (by match a with | ⟨0, _⟩ => rfl)

/-- The first table: slice of column 1, reshape to a vector, broadcast along the rows — entry `(r, c)` reads the
    table at `(c, 1)`. (The reshape's row-major arithmetic leaves `c / 1`.) -/
theorem tidx_block1 (r : Fin 2048) (c : Fin 4096) :
    idx_main_v5 (idx_main_v6 (idx_main_v7 (idx_main_v8 (ix2 r c)))) = ix2 c (1 : Fin 3) :=
  funext fun a => Fin.ext (by match a with | ⟨0, _⟩ => exact Nat.div_one _ | ⟨1, _⟩ => rfl)
/-- The block's first bias is read at the column. -/
theorem bidx_block1 (r : Fin 2048) (c : Fin 4096) : idx_main_v10 (idx_main_v11 (ix2 r c)) = ix1 c :=
  funext fun a => Fin.ext (by match a with | ⟨0, _⟩ => rfl)
/-- The second table, the same chain: entry `(r, c)` reads it at `(c, 1)`. -/
theorem tidx_block2 (r : Fin 2048) (c : Fin 4096) :
    idx_main_v14 (idx_main_v15 (idx_main_v16 (idx_main_v17 (ix2 r c)))) = ix2 c (1 : Fin 3) :=
  funext fun a => Fin.ext (by match a with | ⟨0, _⟩ => exact Nat.div_one _ | ⟨1, _⟩ => rfl)
/-- The block's second bias is read at the column. -/
theorem bidx_block2 (r : Fin 2048) (c : Fin 4096) : idx_main_v19 (idx_main_v20 (ix2 r c)) = ix1 c :=
  funext fun a => Fin.ext (by match a with | ⟨0, _⟩ => rfl)

/-- Second contraction, left operand: row `r`, term `k`. -/
theorem lidx_layer2 (r : Fin 2048) (c k : Fin 4096) : lidx_main_v25 (ix2 r c) k = ix2 r k :=
  funext fun a => Fin.ext (by match a with | ⟨0, _⟩ => rfl | ⟨1, _⟩ => rfl)
/-- Second contraction, right operand: the transposed weight at `(k, c)` is the weight at `(c, k)`. -/
theorem ridx_layer2 (r : Fin 2048) (c k : Fin 4096) : idx_main_v24 (ridx_main_v25 (ix2 r c) k) = ix2 c k :=
  funext fun a => Fin.ext (by match a with | ⟨0, _⟩ => rfl | ⟨1, _⟩ => rfl)
/-- The second layer's bias is read at the column. -/
theorem bidx_layer2 (r : Fin 2048) (c : Fin 4096) : idx_main_v26 (idx_main_v27 (ix2 r c)) = ix1 c :=
  funext fun a => Fin.ext (by match a with | ⟨0, _⟩ => rfl)

/-- Third contraction, left operand: row `r`, term `k`. -/
theorem lidx_layer3 (r : Fin 2048) (c : Fin 1024) (k : Fin 4096) : lidx_main_v31 (ix2 r c) k = ix2 r k :=
  funext fun a => Fin.ext (by match a with | ⟨0, _⟩ => rfl | ⟨1, _⟩ => rfl)
/-- Third contraction, right operand: the transposed 1024 × 4096 weight at `(k, c)` is the weight at `(c, k)`. -/
theorem ridx_layer3 (r : Fin 2048) (c : Fin 1024) (k : Fin 4096) : idx_main_v30 (ridx_main_v31 (ix2 r c) k) = ix2 c k :=
  funext fun a => Fin.ext (by match a with | ⟨0, _⟩ => rfl | ⟨1, _⟩ => rfl)
/-- The third layer's bias is read at the column. -/
theorem bidx_layer3 (r : Fin 2048) (c : Fin 1024) : idx_main_v32 (idx_main_v33 (ix2 r c)) = ix1 c :=
  funext fun a => Fin.ext (by match a with | ⟨0, _⟩ => rfl)

/-! ## The zero arrays

Each `relu` of the program takes the maximum with a broadcast scalar whose word is the zero word; on the
extended reals that scalar is `0`. -/

theorem zero_a (i : S2048x4096.Idx) : val_main_call0_v0 (F := Ideal) i = (0 : EReal) := by
  rw [val_main_call0_v0_apply, val_main_call0_cst_apply, Ideal.ofBits_def, Ideal.ofBits_zero_f32]
theorem zero_b (i : S2048x4096.Idx) : val_main_call1_v0 (F := Ideal) i = (0 : EReal) := by
  rw [val_main_call1_v0_apply, val_main_call1_cst_apply, Ideal.ofBits_def, Ideal.ofBits_zero_f32]
theorem zero_c (i : S2048x4096.Idx) : val_main_call2_v0 (F := Ideal) i = (0 : EReal) := by
  rw [val_main_call2_v0_apply, val_main_call2_cst_apply, Ideal.ofBits_def, Ideal.ofBits_zero_f32]

variable (x0 : (⟨S2048x4096, .f32⟩ : BufTy).Contents (Elt Ideal)) (x1 : (⟨S4096x4096, .f32⟩ : BufTy).Contents (Elt Ideal))
  (x2 : (⟨S4096, .f32⟩ : BufTy).Contents (Elt Ideal)) (x3 : (⟨S4096x3, .f32⟩ : BufTy).Contents (Elt Ideal))
  (x4 : (⟨S4096, .f32⟩ : BufTy).Contents (Elt Ideal)) (x5 : (⟨S4096x3, .f32⟩ : BufTy).Contents (Elt Ideal))
  (x6 : (⟨S4096, .f32⟩ : BufTy).Contents (Elt Ideal)) (x7 : (⟨S4096x4096, .f32⟩ : BufTy).Contents (Elt Ideal))
  (x8 : (⟨S4096, .f32⟩ : BufTy).Contents (Elt Ideal)) (x9 : (⟨S1024x4096, .f32⟩ : BufTy).Contents (Elt Ideal))
  (x10 : (⟨S1024, .f32⟩ : BufTy).Contents (Elt Ideal))

/-! ## Stage 1: the first layer and the residual block -/

/-- The first layer at `(r, c)`: the contraction pairs row `r` of `x` with row `c` of the weight (through the
    transpose), and the broadcast bias contributes its entry `c`. -/
theorem layer1_at (r : Fin 2048) (c : Fin 4096) :
    val_main_v4 (F := Ideal) x0 x1 x2 (ix2 r c) = Cert.Spec.lin (B := 2048) (K := 4096) (N := 4096) x0 x1 x2 r c := by
  rw [val_main_v4_apply, val_main_v1_apply, val_main_v3_apply, val_main_v2_apply, bidx_layer1, Ideal.addf_def]
  refine congrArg₂ (· + ·) (Finset.sum_congr rfl fun k _ => ?_) rfl
  rw [val_main_v0_apply, lidx_layer1, ridx_layer1]

/-- The first table's broadcast column at `(r, c)` is its middle entry in row `c`. -/
theorem table1_at (r : Fin 2048) (c : Fin 4096) : val_main_v8 (F := Ideal) x3 (ix2 r c) = Cert.Spec.mid x3 c := by
  rw [val_main_v8_apply, val_main_v7_apply, val_main_v6_apply, val_main_v5_apply, tidx_block1]
  rfl
/-- The second table's broadcast column at `(r, c)` is its middle entry in row `c`. -/
theorem table2_at (r : Fin 2048) (c : Fin 4096) : val_main_v17 (F := Ideal) x5 (ix2 r c) = Cert.Spec.mid x5 c := by
  rw [val_main_v17_apply, val_main_v16_apply, val_main_v15_apply, val_main_v14_apply, tidx_block2]
  rfl
/-- The block's first broadcast bias at `(r, c)`. -/
theorem bias1_at (r : Fin 2048) (c : Fin 4096) : val_main_v11 (F := Ideal) x4 (ix2 r c) = x4 (ix1 c) := by
  rw [val_main_v11_apply, val_main_v10_apply, bidx_block1]
/-- The block's second broadcast bias at `(r, c)`. -/
theorem bias2_at (r : Fin 2048) (c : Fin 4096) : val_main_v20 (F := Ideal) x6 (ix2 r c) = x6 (ix1 c) := by
  rw [val_main_v20_apply, val_main_v19_apply, bidx_block2]

/-- After the block, entry `(r, c)` is the residual function of column `c` applied to the first layer's entry:
    `h + max (max (h · a + p) 0 · a' + p') 0`, the operations of the program in their order. -/
theorem block_at (r : Fin 2048) (c : Fin 4096) :
    val_main_v23 (F := Ideal) x0 x1 x2 x3 x4 x5 x6 (ix2 r c)
      = Cert.Spec.res x3 x4 x5 x6 c (Cert.Spec.lin (B := 2048) (K := 4096) (N := 4096) x0 x1 x2 r c) := by
  rw [val_main_v23_apply, val_main_v22_apply, val_main_v21_apply, val_main_v18_apply, val_main_v13_apply,
    val_main_v12_apply, val_main_v9_apply, layer1_at, table1_at, table2_at, bias1_at, bias2_at, zero_a, zero_b]
  rfl

/-- The array after the block is the specification's first stage. -/
theorem stage1_eq :
    val_main_v23 (F := Ideal) x0 x1 x2 x3 x4 x5 x6 = Cert.Spec.stage1 x0 x1 x2 x3 x4 x5 x6 := by
  funext j
  obtain ⟨r, c, rfl⟩ : ∃ (r : Fin 2048) (c : Fin 4096), j = ix2 r c := ⟨j 0, j 1, eq_ix2 j⟩
  exact block_at x0 x1 x2 x3 x4 x5 x6 r c

/-! ## Stage 2: the second layer and its relu -/

/-- The second layer at `(r, c)`, over the first stage's array. -/
theorem layer2_at (r : Fin 2048) (c : Fin 4096) :
    val_main_v28 (F := Ideal) x0 x1 x2 x3 x4 x5 x6 x7 x8 (ix2 r c)
      = Cert.Spec.lin (B := 2048) (K := 4096) (N := 4096) (Cert.Spec.stage1 x0 x1 x2 x3 x4 x5 x6) x7 x8 r c := by
  rw [val_main_v28_apply, val_main_v25_apply, val_main_v27_apply, val_main_v26_apply, bidx_layer2, Ideal.addf_def]
  refine congrArg₂ (· + ·) (Finset.sum_congr rfl fun k _ => ?_) rfl
  rw [val_main_v24_apply, lidx_layer2, ridx_layer2, stage1_eq]

/-- The array after the second layer's relu is the specification's second stage. -/
theorem stage2_eq :
    val_main_v29 (F := Ideal) x0 x1 x2 x3 x4 x5 x6 x7 x8
      = Cert.Spec.stage2 (Cert.Spec.stage1 x0 x1 x2 x3 x4 x5 x6) x7 x8 := by
  funext j
  obtain ⟨r, c, rfl⟩ : ∃ (r : Fin 2048) (c : Fin 4096), j = ix2 r c := ⟨j 0, j 1, eq_ix2 j⟩
  rw [val_main_v29_apply, layer2_at, zero_c]
  rfl

/-! ## Stage 3: the third layer -/

/-- The third layer at `(r, c)`, over the second stage's array: the result. -/
theorem layer3_at (r : Fin 2048) (c : Fin 1024) :
    val_main_v34 (F := Ideal) x0 x1 x2 x3 x4 x5 x6 x7 x8 x9 x10 (ix2 r c)
      = Cert.Spec.lin (B := 2048) (K := 4096) (N := 1024)
          (Cert.Spec.stage2 (Cert.Spec.stage1 x0 x1 x2 x3 x4 x5 x6) x7 x8) x9 x10 r c := by
  rw [val_main_v34_apply, val_main_v31_apply, val_main_v33_apply, val_main_v32_apply, bidx_layer3, Ideal.addf_def]
  refine congrArg₂ (· + ·) (Finset.sum_congr rfl fun k _ => ?_) rfl
  rw [val_main_v30_apply, lidx_layer3, ridx_layer3, stage2_eq]

/-- The reference's result array is the specification's function of the eleven argument arrays. -/
theorem ref_eq
    (x0 : (⟨S2048x4096, .f32⟩ : BufTy).Contents (Elt Ideal)) (x1 : (⟨S4096x4096, .f32⟩ : BufTy).Contents (Elt Ideal))
    (x2 : (⟨S4096, .f32⟩ : BufTy).Contents (Elt Ideal)) (x3 : (⟨S4096x3, .f32⟩ : BufTy).Contents (Elt Ideal))
    (x4 : (⟨S4096, .f32⟩ : BufTy).Contents (Elt Ideal)) (x5 : (⟨S4096x3, .f32⟩ : BufTy).Contents (Elt Ideal))
    (x6 : (⟨S4096, .f32⟩ : BufTy).Contents (Elt Ideal)) (x7 : (⟨S4096x4096, .f32⟩ : BufTy).Contents (Elt Ideal))
    (x8 : (⟨S4096, .f32⟩ : BufTy).Contents (Elt Ideal)) (x9 : (⟨S1024x4096, .f32⟩ : BufTy).Contents (Elt Ideal))
    (x10 : (⟨S1024, .f32⟩ : BufTy).Contents (Elt Ideal)) :
    Cert.ReferenceIdeal.Read.val_main_v34 (F := Ideal) x0 x1 x2 x3 x4 x5 x6 x7 x8 x9 x10
      = Cert.Spec.out x0 x1 x2 x3 x4 x5 x6 x7 x8 x9 x10 := by
  funext j
  obtain ⟨r, c, rfl⟩ : ∃ (r : Fin 2048) (c : Fin 1024), j = ix2 r c := ⟨j 0, j 1, eq_ix2 j⟩
  exact layer3_at x0 x1 x2 x3 x4 x5 x6 x7 x8 x9 x10 r c

end Cert.RefSpec

end
-- ==== Proof.lean ====
/-
  Three linear layers with a residual block, as three tiled matrix-product kernels, against the plain jnp program.

  The kernel program prepares seven one-row arrays on the host (bias vectors and the middle columns of two
  three-column tables), then launches three kernels of one shape: a grid of row blocks × column blocks × four
  reduction steps; an accumulator block zeroed at the first step, gaining the product of a 512 × 1024 activation
  block with the transpose of a 1024 × 1024 weight block at every step, and at the fourth step the epilogue —
  bias and residual block, bias and relu, or bias alone — stored into the output block, which is then written
  back. On the extended reals the roundings to bf16 are the identity and the four block products over 1024
  columns are one product over 4096, so each kernel's result array is the reference's layer of the array it
  reads, and the composition is the reference's result (`Cert.Spec.out`).

  Frames: each program runs to the end with its arguments unchanged. For the two kernel programs this is the run
  of the host stretch followed by the three regions, each region's body run once per control case (first step,
  middle step, last step) with the accumulator's contents carried from point to point; for the reference it is
  its straight-line run. Nothing was rewritten between the word-level program and its idealization.
-/
import proofs.«162881_j71614284693592_1_alg».proof.Defs
import proofs.«162881_j71614284693592_1_alg».proof.Proof.Gen.Kernel
import proofs.«162881_j71614284693592_1_alg».proof.Proof.Gen.KernelIdeal
import proofs.«162881_j71614284693592_1_alg».proof.Proof.Gen.ReferenceIdeal
import proofs.«162881_j71614284693592_1_alg».proof.Proof.Gen.Pre_finite_inputs
import proofs.«162881_j71614284693592_1_alg».proof.Proof.Gen.ReferenceIdeal.Run
import proofs.«162881_j71614284693592_1_alg».proof.Proof.Gen.ReferenceIdeal.Read
import proofs.«162881_j71614284693592_1_alg».proof.Proof.FrameB.Post
import proofs.«162881_j71614284693592_1_alg».proof.Proof.FrameI.Post
import proofs.«162881_j71614284693592_1_alg».proof.Proof.FrameI.Value
import proofs.«162881_j71614284693592_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel program runs to the end, nothing faulting, its arguments unchanged. -/
theorem frame_k : Cert.frame_Kernel := fun m ρ _ => Cert.Kernel.Frm.frame (F := Bits) m ρ

/-- The same for the idealized kernel program. -/
theorem frame_ki : Cert.frame_KernelIdeal := fun m ρ _ => Cert.KernelIdeal.Frm.frame (F := Ideal) m ρ

/-- The reference: its straight-line run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end at the specification of their arguments, and the arguments agree. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Frm.result_eq m c), (h c).2⟩)
      (Cert.KernelIdeal.Frm.run_result (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2]
    exact (Cert.ReferenceIdeal.Read.val_main_v34_eq (F := Ideal) _ _ _ _ _ _ _ _ _ _ _).trans (Cert.RefSpec.ref_eq _ _ _ _ _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
